-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S64x32 .f32) (main_arg11 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S96x64 .f32) (main_arg6 : FVec F S96x64 .f32) (main_arg7 : FVec F S64 .f32) (main_arg8 : FVec F S64x32 .f32) (main_arg9 : FVec F S32 .f32) (main_arg10 : FVec F S64x32 .f32) (main_arg11 : FVec F S32 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x64 .f32 := Host.absf main_arg5
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S96x64 .f32 := Host.absf main_arg6
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x96 .f32) (main_arg3 : FVec F S128x96 .f32) (main_arg4 : FVec F S96 .f32) (main_arg5 : FVec F S96x64 .f32) (main_arg6 : FVec F S96x64 .f32) (main_arg7 : FVec F S64 .f32) (main_arg8 : FVec F S64x32 .f32) (main_arg9 : FVec F S32 .f32) (main_arg10 : FVec F S64x32 .f32) (main_arg11 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S128x96 .f32 := Host.absf main_arg3
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x32 : Shape := ⟨2, ![64, 32]⟩
abbrev S32 : Shape := ⟨1, ![32]⟩
abbrev S1x600000 : Shape := ⟨2, ![1, 600000]⟩
abbrev S600000 : Shape := ⟨1, ![600000]⟩
abbrev S50000x96 : Shape := ⟨2, ![50000, 96]⟩
abbrev S5000x128 : Shape := ⟨2, ![5000, 128]⟩
abbrev S5000x96 : Shape := ⟨2, ![5000, 96]⟩
abbrev S_ : Shape := ⟨0, ![]⟩
abbrev S600000x1 : Shape := ⟨2, ![600000, 1]⟩
abbrev S600000x96 : Shape := ⟨2, ![600000, 96]⟩
abbrev S1x96 : Shape := ⟨2, ![1, 96]⟩
abbrev S50000x64 : Shape := ⟨2, ![50000, 64]⟩
abbrev S5000x64 : Shape := ⟨2, ![5000, 64]⟩
abbrev S600000x64 : Shape := ⟨2, ![600000, 64]⟩
abbrev S1x64 : Shape := ⟨2, ![1, 64]⟩
abbrev S50000 : Shape := ⟨1, ![50000]⟩
abbrev S650000 : Shape := ⟨1, ![650000]⟩
abbrev S650000x1 : Shape := ⟨2, ![650000, 1]⟩
abbrev S64x64 : Shape := ⟨2, ![64, 64]⟩
abbrev S50000x1 : Shape := ⟨2, ![50000, 1]⟩
abbrev S650000x64 : Shape := ⟨2, ![650000, 64]⟩
abbrev S50000x32 : Shape := ⟨2, ![50000, 32]⟩

abbrev nBuf : Space → Nat
  | .hbm => 92
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x96, .f32⟩
  | .hbm, ⟨3, _⟩ => ⟨S128x96, .f32⟩
  | .hbm, ⟨4, _⟩ => ⟨S96, .f32⟩
  | .hbm, ⟨5, _⟩ => ⟨S96x64, .f32⟩
  | .hbm, ⟨6, _⟩ => ⟨S96x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x32, .f32⟩
  | .hbm, ⟨11, _⟩ => ⟨S32, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S50000x96, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x96, .f32⟩
  | .hbm, ⟨26, _⟩ => ⟨S_, .f32⟩
  | .hbm, ⟨27, _⟩ => ⟨S50000x96, .f32⟩
  | .hbm, ⟨28, _⟩ => ⟨S600000x1, .i32⟩
  | .hbm, ⟨29, _⟩ => ⟨S50000x96, .f32⟩
  | .hbm, ⟨30, _⟩ => ⟨S1x96, .f32⟩
  | .hbm, ⟨31, _⟩ => ⟨S50000x96, .f32⟩
  | .hbm, ⟨32, _⟩ => ⟨S50000x64, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x64, .f32⟩
  | .hbm, ⟨42, _⟩ => ⟨S_, .f32⟩
  | .hbm, ⟨43, _⟩ => ⟨S50000x64, .f32⟩
  | .hbm, ⟨44, _⟩ => ⟨S600000x1, .i32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000, .i32⟩
  | .hbm, ⟨49, _⟩ => ⟨S650000, .i32⟩
  | .hbm, ⟨50, _⟩ => ⟨S650000, .i32⟩
  | .hbm, ⟨51, _⟩ => ⟨S_, .f32⟩
  | .hbm, ⟨52, _⟩ => ⟨S650000, .f32⟩
  | .hbm, ⟨53, _⟩ => ⟨S_, .f32⟩
  | .hbm, ⟨54, _⟩ => ⟨S50000, .f32⟩
  | .hbm, ⟨55, _⟩ => ⟨S650000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .i1⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S64x64, .f32⟩
  | .hbm, ⟨66, _⟩ => ⟨S64, .f32⟩
  | .hbm, ⟨67, _⟩ => ⟨S50000x64, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S650000, .i32⟩
  | .hbm, ⟨73, _⟩ => ⟨S650000, .i1⟩
  | .hbm, ⟨74, _⟩ => ⟨S_, .i32⟩
  | .hbm, ⟨75, _⟩ => ⟨S650000, .i32⟩
  | .hbm, ⟨76, _⟩ => ⟨S650000, .i32⟩
  | .hbm, ⟨77, _⟩ => ⟨S650000, .i32⟩
  | .hbm, ⟨78, _⟩ => ⟨S650000x1, .i32⟩
  | .hbm, ⟨79, _⟩ => ⟨S650000x64, .f32⟩
  | .hbm, ⟨80, _⟩ => ⟨S_, .f32⟩
  | .hbm, ⟨81, _⟩ => ⟨S50000x64, .f32⟩
  | .hbm, ⟨82, _⟩ => ⟨S650000x1, .i32⟩
  | .hbm, ⟨83, _⟩ => ⟨S50000x64, .f32⟩
  | .hbm, ⟨84, _⟩ => ⟨S50000x1, .f32⟩
  | .hbm, ⟨85, _⟩ => ⟨S50000x64, .f32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .hbm, ⟨90, _⟩ => ⟨S50000x32, .f32⟩
  | .hbm, ⟨91, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x128, .f32⟩
  | .local _ .vmem, ⟨8, _⟩ => ⟨S5000x128, .f32⟩
  | .local _ .vmem, ⟨9, _⟩ => ⟨S128x96, .f32⟩
  | .local _ .vmem, ⟨10, _⟩ => ⟨S1x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S96x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x96, .f32⟩
  | .local _ .vmem, ⟨21, _⟩ => ⟨S5000x96, .f32⟩
  | .local _ .vmem, ⟨22, _⟩ => ⟨S96x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S_S600000 : S_.BroadcastsInDim S600000 (![] : Fin 0 → Fin S600000.rank)
  bcast_S600000_S600000x1_0 : S600000.BroadcastsInDim S600000x1 (![0] : Fin 1 → Fin S600000x1.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x64_S96x64_0_0 : ∀ a, (![0, 0] : Fin 2 → Nat) a + S96x64.size a ≤ S96x64.size a
  h_S96x64 : 0 < S96x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  concatenates_S64x32_S64x32_S64x64_d1 : Shape.Concatenates [S64x32, S64x32] S64x64 1
  concatenates_S32_S32_S64_d0 : Shape.Concatenates [S32, S32] S64 0
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x64_S50000x32_0_0 : S50000x64.Slices ![0, 0] S50000x32
  slices_S50000x64_S50000x32_0_32 : S50000x64.Slices ![0, 32] S50000x32
  dot_S5000x128_S128x96_S5000x96_1_0_0_1_n_n_wf : DotDims.WF S5000x128 S128x96 S5000x96 [1] [0] [0] [1] [] []
  gather_S50000x96_S600000x1_S600000x96_1_0_n_n_0_1_196_wf : GatherDims.WF S50000x96 S600000x1 S600000x96 [1] [0] [] [0] [] 1 ![1, 96]
  scatter_S50000x96_S600000x1_S600000x96_1_0_0_1_wf : ScatterDims.WF S50000x96 S600000x1 S600000x96 [1] [0] [0] 1
  dot_S5000x96_S96x64_S5000x64_1_0_0_1_n_n_wf : DotDims.WF S5000x96 S96x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S50000_S650000x1_S650000_n_0_0_1_wf : ScatterDims.WF S50000 S650000x1 S650000 [] [0] [0] 1
  dot_S5000x64_S64x64_S5000x64_1_0_0_1_n_n_wf : DotDims.WF S5000x64 S64x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x96.size a ≤ S128x96.size a
  hwx1_2 : ∀ i : grid1.Coords, EltTy.bits .f32 = 32 ∨ (Rect.block (s := S128x96) S128x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x64.size a ≤ S96x64.size a
  hwx2_1 : ∀ i : grid2.Coords, EltTy.bits .f32 = 32 ∨ (Rect.block (s := S96x64) S96x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x64.size a ≤ S96x64.size a
  hwx3_2 : ∀ i : grid3.Coords, EltTy.bits .f32 = 32 ∨ (Rect.block (s := S96x64) S96x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)

variable [Facts₀]

def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S600000x1_S600000x96_1_0_n_n_0_1_196 : GatherDims S50000x96 S600000x1 S600000x96 where
  offsetDims := [1]
  collapsedSliceDims := [0]
  operandBatchingDims := []
  startIndicesBatchingDims := []
  startIndexMap := [0]
  indexVectorDim := 1
  sliceSizes := ![1, 96]
  wf := gather_S50000x96_S600000x1_S600000x96_1_0_n_n_0_1_196_wf
def scatter_S50000x96_S600000x1_S600000x96_1_0_0_1 : ScatterDims S50000x96 S600000x1 S600000x96 where
  updateWindowDims := [1]
  insertedWindowDims := [0]
  scatterDimsToOperandDims := [0]
  indexVectorDim := 1
  wf := scatter_S50000x96_S600000x1_S600000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v16) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S96x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v29) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x32 : Shape := ⟨2, ![64, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x96 : Shape := ⟨2, ![50000, 96]⟩
abbrev S1x96 : Shape := ⟨2, ![1, 96]⟩
abbrev S600000x96 : Shape := ⟨2, ![600000, 96]⟩
abbrev S50000x64 : Shape := ⟨2, ![50000, 64]⟩
abbrev S1x64 : Shape := ⟨2, ![1, 64]⟩
abbrev S50000 : Shape := ⟨1, ![50000]⟩
abbrev S650000 : Shape := ⟨1, ![650000]⟩
abbrev S650000x1 : Shape := ⟨2, ![650000, 1]⟩
abbrev S50000x32 : Shape := ⟨2, ![50000, 32]⟩
abbrev S650000x32 : Shape := ⟨2, ![650000, 32]⟩
abbrev S1x32 : Shape := ⟨2, ![1, 32]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x600000, .i32⟩
  | 2 => ⟨S128x96, .f32⟩
  | 3 => ⟨S128x96, .f32⟩
  | 4 => ⟨S96, .f32⟩
  | 5 => ⟨S96x64, .f32⟩
  | 6 => ⟨S96x64, .f32⟩
  | 7 => ⟨S64, .f32⟩
  | 8 => ⟨S64x32, .f32⟩
  | 9 => ⟨S32, .f32⟩
  | 10 => ⟨S64x32, .f32⟩
  | 11 => ⟨S32, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S50000x96, .f32⟩
  | 30 => ⟨S50000x96, .f32⟩
  | 31 => ⟨S50000x96, .f32⟩
  | 32 => ⟨S1x96, .f32⟩
  | 33 => ⟨S50000x96, .f32⟩
  | 34 => ⟨S50000x96, .f32⟩
  | 35 => ⟨S_, .f32⟩
  | 36 => ⟨S50000x96, .f32⟩
  | 37 => ⟨S50000x96, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x96, .f32⟩
  | 47 => ⟨S_, .f32⟩
  | 48 => ⟨S50000x96, .f32⟩
  | 49 => ⟨S600000x1, .i32⟩
  | 50 => ⟨S50000x96, .f32⟩
  | 51 => ⟨S50000x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S50000, .i32⟩
  | 61 => ⟨S650000, .i32⟩
  | 62 => ⟨S650000, .i32⟩
  | 63 => ⟨S_, .f32⟩
  | 64 => ⟨S650000, .f32⟩
  | 65 => ⟨S_, .f32⟩
  | 66 => ⟨S50000, .f32⟩
  | 67 => ⟨S650000x1, .i32⟩
  | 68 => ⟨S50000, .f32⟩
  | 69 => ⟨S_, .f32⟩
  | 70 => ⟨S50000, .f32⟩
  | 71 => ⟨S50000, .i1⟩
  | 72 => ⟨S50000, .f32⟩
  | 73 => ⟨S_, .f32⟩
  | 74 => ⟨S_, .f32⟩
  | 75 => ⟨S50000, .f32⟩
  | 76 => ⟨S50000, .f32⟩
  | 77 => ⟨S_, .i32⟩
  | 78 => ⟨S650000, .i32⟩
  | 79 => ⟨S650000, .i1⟩
  | 80 => ⟨S_, .i32⟩
  | 81 => ⟨S650000, .i32⟩
  | 82 => ⟨S650000, .i32⟩
  | 83 => ⟨S650000, .i32⟩
  | 84 => ⟨S650000x1, .i32⟩
  | 85 => ⟨S650000, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000, .f32⟩
  | 95 => ⟨S650000, .f32⟩
  | 96 => ⟨S50000x32, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000x32, .f32⟩
  | 106 => ⟨S650000x1, .f32⟩
  | 107 => ⟨S650000x32, .f32⟩
  | 108 => ⟨S650000x32, .f32⟩
  | 109 => ⟨S_, .f32⟩
  | 110 => ⟨S50000x32, .f32⟩
  | 111 => ⟨S650000x1, .i32⟩
  | 112 => ⟨S50000x32, .f32⟩
  | 113 => ⟨S1x32, .f32⟩
  | 114 => ⟨S50000x32, .f32⟩
  | 115 => ⟨S50000x32, .f32⟩
  | 116 => ⟨S50000x32, .f32⟩
  | 117 => ⟨S_, .i32⟩
  | 118 => ⟨S650000, .i32⟩
  | 119 => ⟨S650000, .i1⟩
  | 120 => ⟨S_, .i32⟩
  | 121 => ⟨S650000, .i32⟩
  | 122 => ⟨S650000, .i32⟩
  | 123 => ⟨S650000, .i32⟩
  | 124 => ⟨S650000x1, .i32⟩
  | 125 => ⟨S650000x32, .f32⟩
  | 126 => ⟨S650000x1, .f32⟩
  | 127 => ⟨S650000x32, .f32⟩
  | _ => ⟨S50000x128, .f32⟩

abbrev hbmTy0_1 (i : Nat) : BufTy := match i % 128 with
  | 0 => ⟨S650000x32, .f32⟩
  | 1 => ⟨S_, .f32⟩
  | 2 => ⟨S50000x32, .f32⟩
  | 3 => ⟨S650000x1, .i32⟩
  | 4 => ⟨S50000x32, .f32⟩
  | 5 => ⟨S1x32, .f32⟩
  | 6 => ⟨S50000x32, .f32⟩
  | 7 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_call2_v0 : Ref sig .tc := ⟨.hbm, 74, rfl⟩
abbrev main_call2_v1 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x32_0_1 : S650000x1.BroadcastsInDim S650000x32 (![0, 1] : Fin 2 → Fin S650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x96_S50000x96_1_0_0_1_n_n_wf : DotDims.WF S50000x128 S128x96 S50000x96 [1] [0] [0] [1] [] []
  gather_S50000x96_S600000x1_S600000x96_1_0_n_n_0_1_196_wf : GatherDims.WF S50000x96 S600000x1 S600000x96 [1] [0] [] [0] [] 1 ![1, 96]
  scatter_S50000x96_S600000x1_S600000x96_1_0_0_1_wf : ScatterDims.WF S50000x96 S600000x1 S600000x96 [1] [0] [0] 1
  dot_S50000x96_S96x64_S50000x64_1_0_0_1_n_n_wf : DotDims.WF S50000x96 S96x64 S50000x64 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x64_S64x32_S50000x32_1_0_0_1_n_n_wf : DotDims.WF S50000x64 S64x32 S50000x32 [1] [0] [0] [1] [] []
  gather_S50000x32_S650000x1_S650000x32_1_0_n_n_0_1_132_wf : GatherDims.WF S50000x32 S650000x1 S650000x32 [1] [0] [] [0] [] 1 ![1, 32]
  scatter_S50000x32_S650000x1_S650000x32_1_0_0_1_wf : ScatterDims.WF S50000x32 S650000x1 S650000x32 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S600000x1_S600000x96_1_0_n_n_0_1_196 : GatherDims S50000x96 S600000x1 S600000x96 where
  offsetDims := [1]
  collapsedSliceDims := [0]
  operandBatchingDims := []
  startIndicesBatchingDims := []
  startIndexMap := [0]
  indexVectorDim := 1
  sliceSizes := ![1, 96]
  wf := gather_S50000x96_S600000x1_S600000x96_1_0_n_n_0_1_196_wf
def scatter_S50000x96_S600000x1_S600000x96_1_0_0_1 : ScatterDims S50000x96 S600000x1 S600000x96 where
  updateWindowDims := [1]
  insertedWindowDims := [0]
  scatterDimsToOperandDims := [0]
  indexVectorDim := 1
  wf := scatter_S50000x96_S600000x1_S600000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S650000x1_S650000x32_1_0_n_n_0_1_132 : GatherDims S50000x32 S650000x1 S650000x32 where
  offsetDims := [1]
  collapsedSliceDims := [0]
  operandBatchingDims := []
  startIndicesBatchingDims := []
  startIndexMap := [0]
  indexVectorDim := 1
  sliceSizes := ![1, 32]
  wf := gather_S50000x32_S650000x1_S650000x32_1_0_n_n_0_1_132_wf
def scatter_S50000x32_S650000x1_S650000x32_1_0_0_1 : ScatterDims S50000x32 S650000x1 S650000x32 where
  updateWindowDims := [1]
  insertedWindowDims := [0]
  scatterDimsToOperandDims := [0]
  indexVectorDim := 1
  wf := scatter_S50000x32_S650000x1_S650000x32_1_0_0_1_wf

class Facts : Prop extends Facts₀ where

variable [Facts]
-- ==== Proof.KernelRun.lean ====
import proofs.«130328_j64690797412362_2_alg».proof.Proof.Gen.KernelIdeal.Frame

/-!
The idealized kernel's run with its two results named: every weakly fair execution of the program terminates without a
fault, the argument arrays end as launched, and each result array ends at the contents the fold of the program's segments
(host stretches and pipelined regions, in order) assigns to it from the launch memory.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory: both result arrays at the last boundary's contents, the arguments as
    launched. -/
theorem run_values : θ_run defs (onTc (τ := τ) (main (F := F))) ⟨m, fun _ => 0, ρ⟩ (fun r => ∀ c : Dev nD,
      r.2.mem ((c.tc : Thread nD τ).loc main_v63) = W12 m ρ c (Proc.devRef .tc main_v63)
      ∧ r.2.mem ((c.tc : Thread nD τ).loc main_v64) = W12 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v63 (by decide)), h c _ (mem_uc main_v64 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.RunValue

end
-- ==== Proof.KernelChain.lean ====
import proofs.«130328_j64690797412362_2_alg».proof.Proof.Gen.KernelIdeal.Frame
import Idealize.ShloMosaic.Lib.StableHlo.Run

/-!
The host stretches of the idealized kernel, each read as a function of the buffers it finds: what a stretch writes into a
buffer is the composition of its operations applied to the contents it was entered with.
-/

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-! ## The stretches' operations as functions of their operands -/

/-- Row `r` of the edge list, as a flat array. -/
def edgeRow0 (a1 : (⟨S2x600000, .i32⟩ : BufTy).Contents (Elt F)) : (⟨S600000, .i32⟩ : BufTy).Contents (Elt F) :=
  fun i => shapeCast S600000 (extractStridedSlice S1x600000 ![0, 0] a1 slices_S2x600000_S1x600000_0_0) shapeCasts_S1x600000_S600000 i
def edgeRow1 (a1 : (⟨S2x600000, .i32⟩ : BufTy).Contents (Elt F)) : (⟨S600000, .i32⟩ : BufTy).Contents (Elt F) :=
  fun i => shapeCast S600000 (extractStridedSlice S1x600000 ![1, 0] a1 slices_S2x600000_S1x600000_1_0) shapeCasts_S1x600000_S600000 i

/-- A node index array made non-negative (an index below zero counts from the end) and laid out as a column of start indices. -/
def wrapCol (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)
/-- A node index array laid out as a column of scatter indices. -/
def col (d : (⟨S600000, .i32⟩ : BufTy).Contents (Elt F)) : (⟨S600000x1, .i32⟩ : BufTy).Contents (Elt F) :=
  broadcastInDim S600000x1 ![0] bcast_S600000_S600000x1_0 d

/-- The neighbourhood sum of 96-wide rows: gather the source rows, add them into the destination rows of a zero array. -/
def nsum96 (p : (⟨S50000x96, .f32⟩ : BufTy).Contents (Elt F)) (s d : (⟨S600000, .i32⟩ : BufTy).Contents (Elt F)) :
    (⟨S50000x96, .f32⟩ : BufTy).Contents (Elt F) :=
  Host.scatterAdd scatter_S50000x96_S600000x1_S600000x96_1_0_0_1
    (broadcastInDim S50000x96 ![] bcast_S_S50000x96 (constant S_ .f32 0x00000000#32)) (col d)
    (Host.gather gather_S50000x96_S600000x1_S600000x96_1_0_n_n_0_1_196 p (wrapCol s))
/-- The same for 64-wide rows. -/
def nsum64 (p : (⟨S50000x64, .f32⟩ : BufTy).Contents (Elt F)) (s d : (⟨S600000, .i32⟩ : BufTy).Contents (Elt F)) :
    (⟨S50000x64, .f32⟩ : BufTy).Contents (Elt F) :=
  Host.scatterAdd scatter_S50000x64_S600000x1_S600000x64_1_0_0_1
    (broadcastInDim S50000x64 ![] bcast_S_S50000x64 (constant S_ .f32 0x00000000#32)) (col d)
    (Host.gather gather_S50000x64_S600000x1_S600000x64_1_0_n_n_0_1_164 p (wrapCol s))

theorem stretch0_v1 (W : Valuation τ sig (Elt F)) :
    StableHlo.after hostOps0 W (Proc.devRef .tc main_v1) = edgeRow0 (W (Proc.devRef .tc main_arg1)) := by
  after_results
  all_goals rfl
theorem stretch0_v3 (W : Valuation τ sig (Elt F)) :
    StableHlo.after hostOps0 W (Proc.devRef .tc main_v3) = edgeRow1 (W (Proc.devRef .tc main_arg1)) := by
  after_results
  all_goals rfl

theorem stretch1_v14 (W : Valuation τ sig (Elt F)) :
    StableHlo.after hostOps1 W (Proc.devRef .tc main_v14)
      = nsum96 (W (Proc.devRef .tc main_v4)) (W (Proc.devRef .tc main_v1)) (W (Proc.devRef .tc main_v3)) := by
  after_results
  all_goals rfl
theorem stretch1_v15 (W : Valuation τ sig (Elt F)) :
    StableHlo.after hostOps1 W (Proc.devRef .tc main_v15)
      = (fun i => shapeCast S1x96 (W (Proc.devRef .tc main_arg4)) shapeCasts_S96_S1x96 i : (⟨S1x96, .f32⟩ : BufTy).Contents (Elt F)) := by
  after_results
  all_goals rfl

theorem stretch3_v27 (W : Valuation τ sig (Elt F)) :
    StableHlo.after hostOps3 W (Proc.devRef .tc main_v27)
      = nsum64 (W (Proc.devRef .tc main_v17)) (W (Proc.devRef .tc main_v1)) (W (Proc.devRef .tc main_v3)) := by
  after_results
  all_goals rfl
theorem stretch3_v28 (W : Valuation τ sig (Elt F)) :
    StableHlo.after hostOps3 W (Proc.devRef .tc main_v28)
      = (fun i => shapeCast S1x64 (W (Proc.devRef .tc main_arg7)) shapeCasts_S64_S1x64 i : (⟨S1x64, .f32⟩ : BufTy).Contents (Elt F)) := by
  after_results
  all_goals rfl

/-- An edge index array with one self-loop per node appended. -/
def withLoops (s : (⟨S600000, .i32⟩ : BufTy).Contents (Elt F)) : (⟨S650000, .i32⟩ : BufTy).Contents (Elt F) :=
  concatenate S650000 0 [⟨S600000, s⟩, ⟨S50000, iotaInDim S50000 32 0⟩] concatenates_S600000_S50000_S650000_d0
/-- The degree of every node: ones added into the destination entries of a zero array. -/
def degree (dsl : (⟨S650000, .i32⟩ : BufTy).Contents (Elt F)) : (⟨S50000, .f32⟩ : BufTy).Contents (Elt F) :=
  Host.scatterAdd scatter_S50000_S650000x1_S650000_n_0_0_1
    (broadcastInDim S50000 ![] bcast_S_S50000 (constant S_ .f32 0x00000000#32))
    (broadcastInDim S650000x1 ![0] bcast_S650000_S650000x1_0 dsl)
    (broadcastInDim S650000 ![] bcast_S_S650000 (constant S_ .f32 0x3F800000#32))

theorem stretch4_v31 (W : Valuation τ sig (Elt F)) :
    StableHlo.after hostOps4 W (Proc.devRef .tc main_v31) = withLoops (W (Proc.devRef .tc main_v1)) := by
  after_results
  all_goals rfl
theorem stretch4_v32 (W : Valuation τ sig (Elt F)) :
    StableHlo.after hostOps4 W (Proc.devRef .tc main_v32) = withLoops (W (Proc.devRef .tc main_v3)) := by
  after_results
  all_goals rfl
theorem stretch4_v38 (W : Valuation τ sig (Elt F)) :
    StableHlo.after hostOps4 W (Proc.devRef .tc main_v38)
      = (cmpf .ogt (degree (withLoops (W (Proc.devRef .tc main_v3)))) (broadcastInDim S50000 ![] bcast_S_S50000 (constant (F := F) S_ .f32 0x00000000#32)) : (⟨S50000, .i1⟩ : BufTy).Contents (Elt F)) := by
  after_results
  all_goals rfl
theorem stretch4_v39 (W : Valuation τ sig (Elt F)) :
    StableHlo.after hostOps4 W (Proc.devRef .tc main_v39)
      = (Host.rsqrt (degree (withLoops (W (Proc.devRef .tc main_v3)))) : (⟨S50000, .f32⟩ : BufTy).Contents (Elt F)) := by
  after_results
  all_goals rfl
theorem stretch4_cst7 (W : Valuation τ sig (Elt F)) :
    StableHlo.after hostOps4 W (Proc.devRef .tc main_cst_7) = (constant S_ .f32 0x00000000#32 : (⟨S_, .f32⟩ : BufTy).Contents (Elt F)) := by
  after_results
  all_goals rfl

theorem stretch41_v40 (W : Valuation τ sig (Elt F)) :
    StableHlo.after hostOps4_1 W (Proc.devRef .tc main_v40)
      = (select (W (Proc.devRef .tc main_v38)) (W (Proc.devRef .tc main_v39))
          (broadcastInDim S50000 ![] bcast_S_S50000 (W (Proc.devRef .tc main_cst_7))) : (⟨S50000, .f32⟩ : BufTy).Contents (Elt F)) := by
  after_results
  all_goals rfl

theorem stretch42_v41 (W : Valuation τ sig (Elt F)) :
    StableHlo.after hostOps4_2 W (Proc.devRef .tc main_v41)
      = (concatenate S64x64 1 [⟨S64x32, W (Proc.devRef .tc main_arg8)⟩, ⟨S64x32, W (Proc.devRef .tc main_arg10)⟩] concatenates_S64x32_S64x32_S64x64_d1 : (⟨S64x64, .f32⟩ : BufTy).Contents (Elt F)) := by
  after_results
  all_goals rfl
theorem stretch42_v42 (W : Valuation τ sig (Elt F)) :
    StableHlo.after hostOps4_2 W (Proc.devRef .tc main_v42)
      = (concatenate S64 0 [⟨S32, W (Proc.devRef .tc main_arg9)⟩, ⟨S32, W (Proc.devRef .tc main_arg11)⟩] concatenates_S32_S32_S64_d0 : (⟨S64, .f32⟩ : BufTy).Contents (Elt F)) := by
  after_results
  all_goals rfl

/-- A per-node factor spread along the 64 columns. -/
def perNode (d : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 d)
/-- The index column of the edge list with self-loops, made non-negative. -/
def wrapColSL (s : (⟨S650000, .i32⟩ : BufTy).Contents (Elt F)) : (⟨S650000x1, .i32⟩ : BufTy).Contents (Elt F) :=
  broadcastInDim S650000x1 ![0] bcast_S650000_S650000x1_0
    (select (cmpi .slt s (broadcastInDim S650000 ![] bcast_S_S650000 (constantI S_ 32 0#32)))
      (addi s (broadcastInDim S650000 ![] bcast_S_S650000 (constantI S_ 32 50000#32))) s)
/-- The head: scale every node's row, sum over the neighbourhoods with self-loops, scale again, add the bias. -/
def head (d : (⟨S50000, .f32⟩ : BufTy).Contents (Elt F)) (z : (⟨S50000x64, .f32⟩ : BufTy).Contents (Elt F))
    (ssl dsl : (⟨S650000, .i32⟩ : BufTy).Contents (Elt F)) (b : (⟨S64, .f32⟩ : BufTy).Contents (Elt F)) :
    (⟨S50000x64, .f32⟩ : BufTy).Contents (Elt F) :=
  addf (mulf (perNode d)
      (Host.scatterAdd scatter_S50000x64_S650000x1_S650000x64_1_0_0_1
        (broadcastInDim S50000x64 ![] bcast_S_S50000x64 (constant S_ .f32 0x00000000#32))
        (broadcastInDim S650000x1 ![0] bcast_S650000_S650000x1_0 dsl)
        (Host.gather gather_S50000x64_S650000x1_S650000x64_1_0_n_n_0_1_164 (mulf (perNode d) z) (wrapColSL ssl))))
    (broadcastInDim S50000x64 ![0, 1] bcast_S1x64_S50000x64_0_1 (broadcastInDim S1x64 ![1] bcast_S64_S1x64_1 b))

set_option maxHeartbeats 4000000 in
theorem stretch5_v63 (W : Valuation τ sig (Elt F)) :
    StableHlo.after hostOps5 W (Proc.devRef .tc main_v63)
      = (extractStridedSlice S50000x32 ![0, 0]
          (head (W (Proc.devRef .tc main_v40)) (W (Proc.devRef .tc main_v43)) (W (Proc.devRef .tc main_v31))
            (W (Proc.devRef .tc main_v32)) (W (Proc.devRef .tc main_v42))) slices_S50000x64_S50000x32_0_0 : (⟨S50000x32, .f32⟩ : BufTy).Contents (Elt F)) := by
  after_results_simp
  all_goals rfl
set_option maxHeartbeats 4000000 in
theorem stretch5_v64 (W : Valuation τ sig (Elt F)) :
    StableHlo.after hostOps5 W (Proc.devRef .tc main_v64)
      = (extractStridedSlice S50000x32 ![0, 32]
          (head (W (Proc.devRef .tc main_v40)) (W (Proc.devRef .tc main_v43)) (W (Proc.devRef .tc main_v31))
            (W (Proc.devRef .tc main_v32)) (W (Proc.devRef .tc main_v42))) slices_S50000x64_S50000x32_0_32 : (⟨S50000x32, .f32⟩ : BufTy).Contents (Elt F)) := by
  after_results_simp
  all_goals rfl

end Cert.KernelIdeal.Chain

end
-- ==== Proof.LibRowGatherScatter.lean ====
/-
  STABLEHLO'S ROW GATHER AND ROW SCATTER-ADD READ AT AN INDEX (general lemmas: generic sizes, no program).

  The row gather `x[idx]` of a table `x : [N, C]` (or a flat array `x : [N]`) at a column `idx : [E, 1]` of row
  numbers is `gather` with offset_dims `[1]` (`[]`), collapsed_slice_dims `[0]`, start_index_map `[0]`,
  index_vector_dim `1` and slice_sizes `[1, C]` (`[1]`): result row `e` is the operand's row `idx[e, 0]`, the
  row number read signed and clamped into `[0, N − 1]` (`clampRow`).

  The row scatter-add (a segment sum) of updates `upd : [E, C]` (`[E]`) into `x : [N, C]` (`[N]`) at the same
  column of row numbers is `scatter` with an add body and update_window_dims `[1]` (`[]`), inserted_window_dims
  `[0]`, scatter_dims_to_operand_dims `[0]`, index_vector_dim `1`: update row `e` lands on operand row `idx[e, 0]`
  read signed and NOT clamped (a row number outside `[0, N)` drops the update), so at the exact instance element
  `(i, c)` of the result is `x i c + ∑ over the e with idx[e, 0] = i of upd e c`.
-/
import Idealize.ShloMosaic.Lib.ValueIdx

noncomputable section

open scoped BigOperators

namespace RowGS

open Idealize.ShloMosaic Idealize.ShloMosaic.ValueIdx

/-- The operand row a start word selects in a gather: the word read as a signed integer, clamped into `[0, N − 1]`
    (a negative word gives row `0`, a word at or above `N` gives row `N − 1`). -/
def clampRow (N : ℕ) (hN : 0 < N) {w : ℕ} (v : BitVec w) : Fin N := ⟨min v.toInt.toNat (N - 1), by omega⟩

/-- The value of `clampRow`. -/
theorem clampRow_val (N : ℕ) (hN : 0 < N) {w : ℕ} (v : BitVec w) :
    (clampRow N hN v).val = min v.toInt.toNat (N - 1) := rfl

/-- A word whose signed reading is a row number below `N` selects that row. -/
theorem clampRow_of_toInt {N : ℕ} (hN : 0 < N) {w : ℕ} (v : BitVec w) (i : Fin N) (h : v.toInt = (i.val : ℤ)) :
    clampRow N hN v = i := by
  refine Fin.ext ?_
  rw [clampRow_val, h, Int.toNat_natCast]
  have := i.isLt
  omega

/-! ## Row gather of a table -/

section GatherRows
variable {α : Type}

/-- The row gather's dimension numbers for an operand `[N, C]`, start indices `[E, 1]` and result `[E, C]`; their
    conditions `wf` are decided on a program's literal shapes. -/
abbrev gatherRows (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (read signed, clamped into `[0, N − 1]`) and
    column `c`. -/
theorem gatherRows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRows N E C wf) x idx (ix2 e c) = x (ix2 (clampRow N hN (idx (ix2 e 0))) c) := by
  unfold Host.gather
  congr 1
  funext a
  refine Fin.ext ?_
  match a with
  | ⟨0, _⟩ =>
    show (gatherRows N E C wf).start (ix2 e c) idx 0 + (gatherRows N E C wf).batchCoord (ix2 e c) 0
      + (gatherRows N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N E C wf).startIndexMap from List.mem_singleton.mpr rfl)]
    have hsi : (gatherRows N E C wf).siIdx (ix2 e c) ⟨List.idxOf (0 : Fin 2) (gatherRows N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRows N E C wf).start (ix2 e c) idx 1 + (gatherRows N E C wf).batchCoord (ix2 e c) 1
      + (gatherRows N E C wf).offCoord (ix2 e c) 1 = c.val
    rw [GatherDims.batchCoord_eq_zero _ _ _ List.not_mem_nil]
    unfold GatherDims.start
    rw [dif_neg (show (1 : Fin 2) ∉ (gatherRows N E C wf).startIndexMap from
      (show (1 : Fin 2) ∉ ([0] : List (Fin 2)) by decide))]
    unfold GatherDims.offCoord
    rw [dif_pos (show (1 : Fin 2) ∈ (gatherRows N E C wf).sKept from (GatherDims.mem_sKept _ _).mpr
      ⟨(show (1 : Fin 2) ∉ ([0] : List (Fin 2)) by decide), List.not_mem_nil⟩)]
    simp only [Nat.zero_add, Nat.add_zero]
    rfl

end GatherRows

/-! ## The accumulating scatter: when an update lands on a given element -/

/-- An update index `j` lands on operand index `i` exactly when, on every operand axis, the window's start (read
    signed, not clamped) plus the window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro hf a
      have ha := congrArg Fin.val (congrFun (Option.some.inj hf) a)
      have hb := h a
      simp only at ha
      omega
    · intro hall
      congr 1
      funext a
      refine Fin.ext ?_
      show (d.start j idx a + (d.window j a : ℤ)).toNat = (i a).val
      rw [hall a, Int.toNat_natCast]
  · rename_i h
    constructor
    · intro hf
      cases hf
    · intro hall
      exfalso
      apply h
      intro a
      have := (i a).isLt
      rw [hall a]
      constructor
      · omega
      · exact_mod_cast this

/-! ## Row scatter-add into a table -/

section ScatterRows

/-- The row scatter's dimension numbers for an operand `[N, C]`, scatter indices `[E, 1]` and updates `[E, C]`;
    their conditions `wf` are decided on a program's literal shapes. -/
abbrev scatterRows (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : ℕ} (wf : ScatterDims.WF ⟨2, ![N, C]⟩ ⟨2, ![E, 1]⟩ ⟨2, ![E, C]⟩ [1] [0] [0] 1)

/-- The window's start for update `(e, c)`: the row number `idx[e, 0]` read signed on the row axis, `0` on the
    column axis. -/
theorem scatterRows_start (idx : IVec ⟨2, ![E, 1]⟩ w) (e : Fin E) (c : Fin C) (a : Fin 2) :
    (scatterRows N E C wf).start (ix2 e c) idx a = if a.val = 0 then (idx (ix2 e 0)).toInt else 0 := by
  unfold ScatterDims.start
  match a with
  | ⟨0, h0⟩ =>
    rw [dif_pos (show (⟨0, h0⟩ : Fin 2) ∈ (scatterRows N E C wf).scatterDimsToOperandDims from
      List.mem_singleton.mpr rfl)]
    have hsi : (scatterRows N E C wf).siIdx (ix2 e c)
        ⟨List.idxOf (⟨0, h0⟩ : Fin 2) (scatterRows N E C wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    rw [dif_neg (show (⟨1, h1⟩ : Fin 2) ∉ (scatterRows N E C wf).scatterDimsToOperandDims from
      (show (1 : Fin 2) ∉ ([0] : List (Fin 2)) by decide))]
    rfl

/-- The window coordinate for update `(e, c)`: `0` on the (inserted) row axis, `c` on the column axis. -/
theorem scatterRows_window (e : Fin E) (c : Fin C) (a : Fin 2) :
    (scatterRows N E C wf).window (ix2 e c) a = if a.val = 0 then 0 else c.val := by
  unfold ScatterDims.window
  match a with
  | ⟨0, h0⟩ =>
    rw [dif_neg (show (⟨0, h0⟩ : Fin 2) ∉ (scatterRows N E C wf).sKept from
      (show (0 : Fin 2) ∉ (List.finRange 2).filter (· ∉ ([0] : List (Fin 2))) by decide))]
    rfl
  | ⟨1, h1⟩ =>
    rw [dif_pos (show (⟨1, h1⟩ : Fin 2) ∈ (scatterRows N E C wf).sKept from
      (show (1 : Fin 2) ∈ (List.finRange 2).filter (· ∉ ([0] : List (Fin 2))) by decide))]
    rfl

/-- WHERE A ROW UPDATE LANDS: update `(e, c)` lands on element `(i, c')` exactly when the row number `idx[e, 0]`,
    read signed, is `i` and the columns agree (a row number outside `[0, N)` lands nowhere). -/
theorem scatterRows_resultIdx?_iff (idx : IVec ⟨2, ![E, 1]⟩ w) (e : Fin E) (c c' : Fin C) (i : Fin N) :
    (scatterRows N E C wf).resultIdx? (ix2 e c) idx = some (ix2 i c')
      ↔ (idx (ix2 e 0)).toInt = (i.val : ℤ) ∧ c = c' := by
  rw [resultIdx?_eq_some_iff]
  constructor
  · intro hall
    have a0 := hall (⟨0, Nat.zero_lt_two⟩ : Fin 2)
    have a1 := hall (⟨1, Nat.one_lt_two⟩ : Fin 2)
    rw [scatterRows_start, scatterRows_window] at a0 a1
    simp only [if_true, Nat.cast_zero, add_zero, zero_add, Nat.cast_inj, one_ne_zero, if_false] at a0 a1
    exact ⟨a0, Fin.ext a1⟩
  · rintro ⟨ht, rfl⟩ a
    rw [scatterRows_start, scatterRows_window]
    match a with
    | ⟨0, _⟩ => simpa using ht
    | ⟨1, _⟩ => simp

/-- THE UPDATES THAT LAND ON `(i, c)`, SUMMED: the sum over the updates whose result index is `(i, c)` is the sum,
    over the rows `e` whose row number `idx[e, 0]` is `i`, of the update at `(e, c)` (for any decision procedure
    of the landing condition). -/
theorem scatterRows_sum {M : Type*} [AddCommMonoid M] (idx : IVec ⟨2, ![E, 1]⟩ w)
    (upd : (⟨2, ![E, C]⟩ : Shape).Idx → M) (i : Fin N) (c : Fin C)
    [DecidablePred fun j => (scatterRows N E C wf).resultIdx? j idx = some (ix2 i c)] :
    ∑ j ∈ Finset.univ.filter (fun j => (scatterRows N E C wf).resultIdx? j idx = some (ix2 i c)), upd j
      = ∑ e ∈ Finset.univ.filter (fun e : Fin E => (idx (ix2 e 0)).toInt = (i.val : ℤ)), upd (ix2 e c) := by
  symm
  refine Finset.sum_bij (fun e _ => ix2 e c) ?_ ?_ ?_ ?_
  · intro e he
    rw [Finset.mem_filter] at he ⊢
    exact ⟨Finset.mem_univ _, (scatterRows_resultIdx?_iff wf idx e c c i).mpr ⟨he.2, rfl⟩⟩
  · intro e₁ _ e₂ _ h
    exact congrFun h (⟨0, Nat.zero_lt_two⟩ : Fin 2)
  · intro j hj
    obtain ⟨e', c', rfl⟩ : ∃ e' c', j = ix2 e' c' := ⟨j 0, j 1, eq_ix2 j⟩
    rw [Finset.mem_filter] at hj
    obtain ⟨ht, rfl⟩ := (scatterRows_resultIdx?_iff wf idx e' c' c i).mp hj.2
    exact ⟨e', Finset.mem_filter.mpr ⟨Finset.mem_univ _, ht⟩, rfl⟩
  · intro e _
    rfl

/-- THE ROW SCATTER-ADD READ AT `(i, c)`, at the exact instance: the operand's element plus the sum, over the rows
    `e` whose row number `idx[e, 0]` (read signed) is `i`, of the update at `(e, c)`. -/
theorem scatterAddRows_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (F := Ideal) (φ := φ) (scatterRows N E C wf) x idx upd (ix2 i c)
      = x (ix2 i c) + ∑ e ∈ Finset.univ.filter (fun e : Fin E => (idx (ix2 e 0)).toInt = (i.val : ℤ)), upd (ix2 e c) := by
  unfold Host.scatterAdd
  rw [Ideal.hostScatterAdd_def]
  unfold Ideal.hostScatterAdd
  rw [scatterRows_sum]

end ScatterRows

/-! ## Row gather of a flat array -/

section GatherVec
variable {α : Type}

/-- The gather's dimension numbers for a flat operand `[N]`, start indices `[E, 1]` and result `[E]`; their
    conditions `wf` are decided on a program's literal shapes. -/
abbrev gatherVec (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at position `idx[e, 0]`, read signed and clamped into `[0, N − 1]`. -/
theorem gatherVec_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (clampRow N hN (idx (ix2 e 0)))) := by
  unfold Host.gather
  congr 1
  funext a
  obtain rfl : a = 0 := Subsingleton.elim _ _
  refine Fin.ext ?_
  show (gatherVec N E wf).start (ix1 e) idx 0 + (gatherVec N E wf).batchCoord (ix1 e) 0
    + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end GatherVec

/-! ## Scatter-add into a flat array -/

section ScatterVec

/-- The scatter's dimension numbers for a flat operand `[N]`, scatter indices `[E, 1]` and updates `[E]`; their
    conditions `wf` are decided on a program's literal shapes. -/
abbrev scatterVec (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

/-- The window's start for update `e`: the position `idx[e, 0]` read signed. -/
theorem scatterVec_start (idx : IVec ⟨2, ![E, 1]⟩ w) (e : Fin E) (a : Fin 1) :
    (scatterVec N E wf).start (ix1 e) idx a = (idx (ix2 e 0)).toInt := by
  unfold ScatterDims.start
  match a with
  | ⟨0, h0⟩ =>
    rw [dif_pos (show (⟨0, h0⟩ : Fin 1) ∈ (scatterVec N E wf).scatterDimsToOperandDims from
      List.mem_singleton.mpr rfl)]
    have hsi : (scatterVec N E wf).siIdx (ix1 e)
        ⟨List.idxOf (⟨0, h0⟩ : Fin 1) (scatterVec N E wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]

/-- The window coordinate for update `e` is `0`: the operand's one axis is an inserted one. -/
theorem scatterVec_window (e : Fin E) (a : Fin 1) : (scatterVec N E wf).window (ix1 e) a = 0 := by
  unfold ScatterDims.window
  match a with
  | ⟨0, h0⟩ =>
    rw [dif_neg (show (⟨0, h0⟩ : Fin 1) ∉ (scatterVec N E wf).sKept from
      (show (0 : Fin 1) ∉ (List.finRange 1).filter (· ∉ ([0] : List (Fin 1))) by decide))]

/-- WHERE AN UPDATE LANDS: update `e` lands on element `i` exactly when the position `idx[e, 0]`, read signed, is
    `i` (a position outside `[0, N)` lands nowhere). -/
theorem scatterVec_resultIdx?_iff (idx : IVec ⟨2, ![E, 1]⟩ w) (e : Fin E) (i : Fin N) :
    (scatterVec N E wf).resultIdx? (ix1 e) idx = some (ix1 i) ↔ (idx (ix2 e 0)).toInt = (i.val : ℤ) := by
  rw [resultIdx?_eq_some_iff]
  constructor
  · intro hall
    have a0 := hall (⟨0, Nat.zero_lt_one⟩ : Fin 1)
    rw [scatterVec_start, scatterVec_window] at a0
    simpa using a0
  · intro ht a
    rw [scatterVec_start, scatterVec_window]
    match a with
    | ⟨0, _⟩ => simpa using ht

/-- THE UPDATES THAT LAND ON `i`, SUMMED: the sum over the updates whose result index is `i` is the sum of the
    updates `e` whose position `idx[e, 0]` is `i` (for any decision procedure of the landing condition). -/
theorem scatterVec_sum {M : Type*} [AddCommMonoid M] (idx : IVec ⟨2, ![E, 1]⟩ w)
    (upd : (⟨1, ![E]⟩ : Shape).Idx → M) (i : Fin N)
    [DecidablePred fun j => (scatterVec N E wf).resultIdx? j idx = some (ix1 i)] :
    ∑ j ∈ Finset.univ.filter (fun j => (scatterVec N E wf).resultIdx? j idx = some (ix1 i)), upd j
      = ∑ e ∈ Finset.univ.filter (fun e : Fin E => (idx (ix2 e 0)).toInt = (i.val : ℤ)), upd (ix1 e) := by
  symm
  refine Finset.sum_bij (fun e _ => ix1 e) ?_ ?_ ?_ ?_
  · intro e he
    rw [Finset.mem_filter] at he ⊢
    exact ⟨Finset.mem_univ _, (scatterVec_resultIdx?_iff wf idx e i).mpr he.2⟩
  · intro e₁ _ e₂ _ h
    exact congrFun h (⟨0, Nat.zero_lt_one⟩ : Fin 1)
  · intro j hj
    obtain ⟨e', rfl⟩ : ∃ e', j = ix1 e' := ⟨j 0, eq_ix1 j⟩
    rw [Finset.mem_filter] at hj
    have ht := (scatterVec_resultIdx?_iff wf idx e' i).mp hj.2
    exact ⟨e', Finset.mem_filter.mpr ⟨Finset.mem_univ _, ht⟩, rfl⟩
  · intro e _
    rfl

/-- THE FLAT SCATTER-ADD READ AT `i`, at the exact instance: the operand's element plus the sum of the updates `e`
    whose position `idx[e, 0]` (read signed) is `i`. -/
theorem scatterAddVec_apply {φ : FTy} (x : FVec Ideal ⟨1, ![N]⟩ φ) (idx : IVec ⟨2, ![E, 1]⟩ w)
    (upd : FVec Ideal ⟨1, ![E]⟩ φ) (i : Fin N) :
    Host.scatterAdd (F := Ideal) (φ := φ) (scatterVec N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  rw [scatterVec_sum]

end ScatterVec

end RowGS
-- ==== Proof.KernelSpec.lean ====
import proofs.«130328_j64690797412362_2_alg».proof.Proof.KernelChain
import proofs.«130328_j64690797412362_2_alg».proof.Proof.LibRowGatherScatter
import Idealize.ShloMosaic.Lib.ValueIdx

/-!
The idealized kernel's result as one function of its twelve argument arrays, on the extended reals: two layers, each a
projection of every node's row followed by the neighbourhood sum and a second product, bias and clip at zero; then the head,
one 64-wide projection scaled by the degree norm before and after the neighbourhood sum with self-loops.
-/

noncomputable section

namespace Cert.KernelIdeal.KSpec

open Cert.KernelIdeal Cert.KernelIdeal.Gen Cert.KernelIdeal.Chain
open Idealize.ShloMosaic Idealize.ShloMosaic.ValueIdx

/-- A region that multiplies every node's row by a weight matrix: entry `(r, j)` is `∑ k, x (r, k) * w (k, j)`. -/
def proj {N K C : ℕ} (x : FVec Ideal ⟨2, ![N, K]⟩ .f32) (w : FVec Ideal ⟨2, ![K, C]⟩ .f32) : FVec Ideal ⟨2, ![N, C]⟩ .f32 :=
  fun i => ∑ k : Fin K, x (ix2 (i 0) k) * w (ix2 k (i 1))

/-- A region that closes a layer: the neighbourhood sum plus the node's own row times the root weights, plus the bias,
    clipped at zero. -/
def epi {N K C : ℕ} (a : FVec Ideal ⟨2, ![N, C]⟩ .f32) (h : FVec Ideal ⟨2, ![N, K]⟩ .f32) (w : FVec Ideal ⟨2, ![K, C]⟩ .f32)
    (b : FVec Ideal ⟨2, ![1, C]⟩ .f32) : FVec Ideal ⟨2, ![N, C]⟩ .f32 :=
  fun i => max ((a i + ∑ k : Fin K, h (ix2 (i 0) k) * w (ix2 k (i 1))) + b (ix2 0 (i 1))) (Ideal.ofBits .f32 0x00000000#32)

/-- A bias vector as a one-row matrix. -/
def row96 (a4 : FVec Ideal S96 .f32) : FVec Ideal S1x96 .f32 := fun i => shapeCast S1x96 a4 shapeCasts_S96_S1x96 i
def row64 (a7 : FVec Ideal S64 .f32) : FVec Ideal S1x64 .f32 := fun i => shapeCast S1x64 a7 shapeCasts_S64_S1x64 i

/-- The degree norm: the reciprocal square root of the degree where the degree is positive, zero elsewhere. -/
def dinvK (a1 : IVec S2x600000 32) : FVec Ideal S50000 .f32 :=
  select (cmpf .ogt (degree (F := Ideal) (withLoops (edgeRow1 a1))) (broadcastInDim S50000 ![] bcast_S_S50000 (constant (F := Ideal) S_ .f32 0x00000000#32)))
    (Host.rsqrt (degree (F := Ideal) (withLoops (edgeRow1 a1))))
    (broadcastInDim S50000 ![] bcast_S_S50000 (constant (F := Ideal) S_ .f32 0x00000000#32))

/-- The first layer's output. -/
def h1K (a0 : FVec Ideal S50000x128 .f32) (a1 : IVec S2x600000 32) (a2 a3 : FVec Ideal S128x96 .f32) (a4 : FVec Ideal S96 .f32) :
    FVec Ideal S50000x96 .f32 :=
  epi (nsum96 (F := Ideal) (proj a0 a2) (edgeRow0 a1) (edgeRow1 a1)) a0 a3 (row96 a4)
/-- The second layer's output. -/
def h2K (a0 : FVec Ideal S50000x128 .f32) (a1 : IVec S2x600000 32) (a2 a3 : FVec Ideal S128x96 .f32) (a4 : FVec Ideal S96 .f32)
    (a5 a6 : FVec Ideal S96x64 .f32) (a7 : FVec Ideal S64 .f32) : FVec Ideal S50000x64 .f32 :=
  epi (nsum64 (F := Ideal) (proj (h1K a0 a1 a2 a3 a4) a5) (edgeRow0 a1) (edgeRow1 a1)) (h1K a0 a1 a2 a3 a4) a6 (row64 a7)
/-- The two head weight matrices side by side, and the two head biases end to end. -/
def wcat (a8 a10 : FVec Ideal S64x32 .f32) : FVec Ideal S64x64 .f32 :=
  concatenate S64x64 1 [⟨S64x32, a8⟩, ⟨S64x32, a10⟩] concatenates_S64x32_S64x32_S64x64_d1
def bcat (a9 a11 : FVec Ideal S32 .f32) : FVec Ideal S64 .f32 :=
  concatenate S64 0 [⟨S32, a9⟩, ⟨S32, a11⟩] concatenates_S32_S32_S64_d0
/-- The head's 64-wide output; its left half is the first result and its right half the second. -/
def outK (a0 : FVec Ideal S50000x128 .f32) (a1 : IVec S2x600000 32) (a2 a3 : FVec Ideal S128x96 .f32) (a4 : FVec Ideal S96 .f32)
    (a5 a6 : FVec Ideal S96x64 .f32) (a7 : FVec Ideal S64 .f32) (a8 : FVec Ideal S64x32 .f32) (a9 : FVec Ideal S32 .f32)
    (a10 : FVec Ideal S64x32 .f32) (a11 : FVec Ideal S32 .f32) : FVec Ideal S50000x64 .f32 :=
  head (F := Ideal) (dinvK a1) (proj (h2K a0 a1 a2 a3 a4 a5 a6 a7) (wcat a8 a10)) (withLoops (edgeRow0 a1)) (withLoops (edgeRow1 a1))
    (bcat a9 a11)

end Cert.KernelIdeal.KSpec

end
-- ==== Proof.KernelPass.lean ====
import proofs.«130328_j64690797412362_2_alg».proof.Proof.Gen.KernelIdeal.Frame
import Idealize.ShloMosaic.Lib.StableHlo.Run

/-!
Buffers that a stretch of host operations or a pipelined region does not write keep their contents: each lemma walks one
buffer back from a later segment boundary to the boundary where it was last written (or to the launch memory).
-/

set_option maxRecDepth 16384

noncomputable section

namespace Cert.KernelIdeal.Pass

open Cert.KernelIdeal Cert.KernelIdeal.Gen
open Idealize.ShloMosaic Idealize.ShloMosaic.TcCoe Idealize.SL.Sem Idealize.ShloMosaic.StableHlo
open Idealize.ShloMosaic.Pipeline (Dat Cfg Window BodyObligation cellOf)

variable {F : FTy → Type} [FloatOps F]
variable (m : (ℓ : Loc nD τ sig) → Buf (Elt F) ℓ) (ρ : Dev nD → PrngReg)

/-- No operation of the named stretch writes the buffer, so the stretch leaves it as it found it. -/
macro "host_pass " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem W1_arg0_from0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by host_pass hostOps0
theorem W1_arg2_from0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := by host_pass hostOps0
theorem W3_arg0_from0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_pass hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_pass hostOps0
theorem W3_arg3_from0 (c : Dev nD) : W3 m ρ c (Proc.devRef .tc main_arg3) = W0 m ρ c (Proc.devRef .tc main_arg3) :=
  calc W3 m ρ c (Proc.devRef .tc main_arg3)
    _ = W2 m ρ c (Proc.devRef .tc main_arg3) := by host_pass hostOps1
    _ = W1 m ρ c (Proc.devRef .tc main_arg3) := W2_of_ne m ρ c main_arg3 (by decide)
    _ = W0 m ρ c (Proc.devRef .tc main_arg3) := by host_pass hostOps0
theorem W2_arg4_from0 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_pass hostOps0
theorem W4_arg5_from0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_pass hostOps1
    _ = W1 m ρ c (Proc.devRef .tc main_arg5) := W2_of_ne m ρ c main_arg5 (by decide)
    _ = W0 m ρ c (Proc.devRef .tc main_arg5) := by host_pass hostOps0
theorem W6_arg6_from0 (c : Dev nD) : W6 m ρ c (Proc.devRef .tc main_arg6) = W0 m ρ c (Proc.devRef .tc main_arg6) :=
  calc W6 m ρ c (Proc.devRef .tc main_arg6)
    _ = W5 m ρ c (Proc.devRef .tc main_arg6) := by host_pass hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_pass hostOps1
    _ = W1 m ρ c (Proc.devRef .tc main_arg6) := W2_of_ne m ρ c main_arg6 (by decide)
    _ = W0 m ρ c (Proc.devRef .tc main_arg6) := by host_pass hostOps0
theorem W5_arg7_from0 (c : Dev nD) : W5 m ρ c (Proc.devRef .tc main_arg7) = W0 m ρ c (Proc.devRef .tc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_pass hostOps1
    _ = W1 m ρ c (Proc.devRef .tc main_arg7) := W2_of_ne m ρ c main_arg7 (by decide)
    _ = W0 m ρ c (Proc.devRef .tc main_arg7) := by host_pass hostOps0
theorem W9_arg8_from0 (c : Dev nD) : W9 m ρ c (Proc.devRef .tc main_arg8) = W0 m ρ c (Proc.devRef .tc main_arg8) :=
  calc W9 m ρ c (Proc.devRef .tc main_arg8)
    _ = W8 m ρ c (Proc.devRef .tc main_arg8) := by host_pass hostOps4_1
    _ = W7 m ρ c (Proc.devRef .tc main_arg8) := by host_pass hostOps4
    _ = W6 m ρ c (Proc.devRef .tc main_arg8) := W7_of_ne m ρ c main_arg8 (by decide)
    _ = W5 m ρ c (Proc.devRef .tc main_arg8) := by host_pass hostOps3
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_pass hostOps1
    _ = W1 m ρ c (Proc.devRef .tc main_arg8) := W2_of_ne m ρ c main_arg8 (by decide)
    _ = W0 m ρ c (Proc.devRef .tc main_arg8) := by host_pass hostOps0
theorem W9_arg9_from0 (c : Dev nD) : W9 m ρ c (Proc.devRef .tc main_arg9) = W0 m ρ c (Proc.devRef .tc main_arg9) :=
  calc W9 m ρ c (Proc.devRef .tc main_arg9)
    _ = W8 m ρ c (Proc.devRef .tc main_arg9) := by host_pass hostOps4_1
    _ = W7 m ρ c (Proc.devRef .tc main_arg9) := by host_pass hostOps4
    _ = W6 m ρ c (Proc.devRef .tc main_arg9) := W7_of_ne m ρ c main_arg9 (by decide)
    _ = W5 m ρ c (Proc.devRef .tc main_arg9) := by host_pass hostOps3
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_pass hostOps1
    _ = W1 m ρ c (Proc.devRef .tc main_arg9) := W2_of_ne m ρ c main_arg9 (by decide)
    _ = W0 m ρ c (Proc.devRef .tc main_arg9) := by host_pass hostOps0
theorem W9_arg10_from0 (c : Dev nD) : W9 m ρ c (Proc.devRef .tc main_arg10) = W0 m ρ c (Proc.devRef .tc main_arg10) :=
  calc W9 m ρ c (Proc.devRef .tc main_arg10)
    _ = W8 m ρ c (Proc.devRef .tc main_arg10) := by host_pass hostOps4_1
    _ = W7 m ρ c (Proc.devRef .tc main_arg10) := by host_pass hostOps4
    _ = W6 m ρ c (Proc.devRef .tc main_arg10) := W7_of_ne m ρ c main_arg10 (by decide)
    _ = W5 m ρ c (Proc.devRef .tc main_arg10) := by host_pass hostOps3
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by host_pass hostOps1
    _ = W1 m ρ c (Proc.devRef .tc main_arg10) := W2_of_ne m ρ c main_arg10 (by decide)
    _ = W0 m ρ c (Proc.devRef .tc main_arg10) := by host_pass hostOps0
theorem W9_arg11_from0 (c : Dev nD) : W9 m ρ c (Proc.devRef .tc main_arg11) = W0 m ρ c (Proc.devRef .tc main_arg11) :=
  calc W9 m ρ c (Proc.devRef .tc main_arg11)
    _ = W8 m ρ c (Proc.devRef .tc main_arg11) := by host_pass hostOps4_1
    _ = W7 m ρ c (Proc.devRef .tc main_arg11) := by host_pass hostOps4
    _ = W6 m ρ c (Proc.devRef .tc main_arg11) := W7_of_ne m ρ c main_arg11 (by decide)
    _ = W5 m ρ c (Proc.devRef .tc main_arg11) := by host_pass hostOps3
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := by host_pass hostOps1
    _ = W1 m ρ c (Proc.devRef .tc main_arg11) := W2_of_ne m ρ c main_arg11 (by decide)
    _ = W0 m ρ c (Proc.devRef .tc main_arg11) := by host_pass hostOps0
theorem W2_v1_from1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem W2_v3_from1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem W5_v1_from1 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by host_pass hostOps1
    _ = W1 m ρ c (Proc.devRef .tc main_v1) := W2_of_ne m ρ c main_v1 (by decide)
theorem W5_v3_from1 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_pass hostOps1
    _ = W1 m ρ c (Proc.devRef .tc main_v3) := W2_of_ne m ρ c main_v3 (by decide)
theorem W7_v1_from1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := by host_pass hostOps3
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by host_pass hostOps1
    _ = W1 m ρ c (Proc.devRef .tc main_v1) := W2_of_ne m ρ c main_v1 (by decide)
theorem W7_v3_from1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by host_pass hostOps3
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_pass hostOps1
    _ = W1 m ρ c (Proc.devRef .tc main_v3) := W2_of_ne m ρ c main_v3 (by decide)
theorem W6_v16_from4 (c : Dev nD) : W6 m ρ c (Proc.devRef .tc main_v16) = W4 m ρ c (Proc.devRef .tc main_v16) :=
  calc W6 m ρ c (Proc.devRef .tc main_v16)
    _ = W5 m ρ c (Proc.devRef .tc main_v16) := by host_pass hostOps3
    _ = W4 m ρ c (Proc.devRef .tc main_v16) := (W5_arr m ρ c 0).trans (((dat2 (V4 m ρ) c).arrAt_in 0 rfl _).trans (A_eq2 (V4 m ρ) c 0))
theorem W10_v29_from7 (c : Dev nD) : W10 m ρ c (Proc.devRef .tc main_v29) = W7 m ρ c (Proc.devRef .tc main_v29) :=
  calc W10 m ρ c (Proc.devRef .tc main_v29)
    _ = W9 m ρ c (Proc.devRef .tc main_v29) := by host_pass hostOps4_2
    _ = W8 m ρ c (Proc.devRef .tc main_v29) := by host_pass hostOps4_1
    _ = W7 m ρ c (Proc.devRef .tc main_v29) := by host_pass hostOps4
theorem W11_v40_from9 (c : Dev nD) : W11 m ρ c (Proc.devRef .tc main_v40) = W9 m ρ c (Proc.devRef .tc main_v40) :=
  calc W11 m ρ c (Proc.devRef .tc main_v40)
    _ = W10 m ρ c (Proc.devRef .tc main_v40) := W11_of_ne m ρ c main_v40 (by decide)
    _ = W9 m ρ c (Proc.devRef .tc main_v40) := by host_pass hostOps4_2
theorem W11_v31_from8 (c : Dev nD) : W11 m ρ c (Proc.devRef .tc main_v31) = W8 m ρ c (Proc.devRef .tc main_v31) :=
  calc W11 m ρ c (Proc.devRef .tc main_v31)
    _ = W10 m ρ c (Proc.devRef .tc main_v31) := W11_of_ne m ρ c main_v31 (by decide)
    _ = W9 m ρ c (Proc.devRef .tc main_v31) := by host_pass hostOps4_2
    _ = W8 m ρ c (Proc.devRef .tc main_v31) := by host_pass hostOps4_1
theorem W11_v32_from8 (c : Dev nD) : W11 m ρ c (Proc.devRef .tc main_v32) = W8 m ρ c (Proc.devRef .tc main_v32) :=
  calc W11 m ρ c (Proc.devRef .tc main_v32)
    _ = W10 m ρ c (Proc.devRef .tc main_v32) := W11_of_ne m ρ c main_v32 (by decide)
    _ = W9 m ρ c (Proc.devRef .tc main_v32) := by host_pass hostOps4_2
    _ = W8 m ρ c (Proc.devRef .tc main_v32) := by host_pass hostOps4_1
theorem W11_v42_from10 (c : Dev nD) : W11 m ρ c (Proc.devRef .tc main_v42) = W10 m ρ c (Proc.devRef .tc main_v42) :=
  calc W11 m ρ c (Proc.devRef .tc main_v42)
    _ = W10 m ρ c (Proc.devRef .tc main_v42) := W11_of_ne m ρ c main_v42 (by decide)

end Cert.KernelIdeal.Pass

end
-- ==== Proof.KRegionLib.lean ====
/- The shared vocabulary of the five region-value modules: the zero offsets of a whole-block access, the three
   contractions the bodies use (a [5000, K] block times a [K, N] matrix, one contracted axis) read at an index as
   sums over `Fin K`, and the bias row's broadcast read at an index. -/
import proofs.«130328_j64690797412362_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as a constant function. -/
theorem hz : (![0, 0] : Fin 2 → Nat) = fun _ => 0 := funext fun a => by fin_cases a <;> rfl

/-! ## The contraction of `dot_S5000x128_S128x96_S5000x96_1_0_0_1_n_n`: left operand [rows, 128], right operand [128, columns], one contracted axis -/

/-- The left operand's row coordinate is the output's. -/
theorem lhsA_0 (i : S5000x96.Idx) (q : dot_S5000x128_S128x96_S5000x96_1_0_0_1_n_n.contr.Idx) :
    (dot_S5000x128_S128x96_S5000x96_1_0_0_1_n_n.lhsIdx i q 0).val = (i 0).val := by
  unfold DotDims.lhsIdx
  rw [dif_neg (show ¬(0 : Fin S5000x128.rank) ∈ dot_S5000x128_S128x96_S5000x96_1_0_0_1_n_n.lhsBatch by decide), dif_pos (show (0 : Fin S5000x128.rank) ∈ dot_S5000x128_S128x96_S5000x96_1_0_0_1_n_n.lhsNonContracting by decide)]
  rfl
/-- The left operand's column coordinate is the contraction index. -/
theorem lhsA_1 (i : S5000x96.Idx) (q : dot_S5000x128_S128x96_S5000x96_1_0_0_1_n_n.contr.Idx) :
    (dot_S5000x128_S128x96_S5000x96_1_0_0_1_n_n.lhsIdx i q 1).val = (q ⟨0, by decide⟩).val :=
  dot_S5000x128_S128x96_S5000x96_1_0_0_1_n_n.lhsIdx_val_of_single rfl i q
/-- The right operand's row coordinate is the contraction index. -/
theorem rhsA_0 (i : S5000x96.Idx) (q : dot_S5000x128_S128x96_S5000x96_1_0_0_1_n_n.contr.Idx) :
    (dot_S5000x128_S128x96_S5000x96_1_0_0_1_n_n.rhsIdx i q 0).val = (q ⟨0, by decide⟩).val :=
  dot_S5000x128_S128x96_S5000x96_1_0_0_1_n_n.rhsIdx_val_of_single rfl i q
/-- The right operand's column coordinate is the output's. -/
theorem rhsA_1 (i : S5000x96.Idx) (q : dot_S5000x128_S128x96_S5000x96_1_0_0_1_n_n.contr.Idx) :
    (dot_S5000x128_S128x96_S5000x96_1_0_0_1_n_n.rhsIdx i q 1).val = (i 1).val := by
  unfold DotDims.rhsIdx
  rw [dif_neg (show ¬(1 : Fin S128x96.rank) ∈ dot_S5000x128_S128x96_S5000x96_1_0_0_1_n_n.rhsBatch by decide), dif_pos (show (1 : Fin S128x96.rank) ∈ dot_S5000x128_S128x96_S5000x96_1_0_0_1_n_n.rhsNonContracting by decide)]
  rfl

/-- The product of a [5000, 128] block and a [128, 96] matrix with a zero accumulator, at the ideal values, read at
    row `p` and column `q`: the sum over the contracted axis of the products. -/
theorem matmulA_apply (x : FVec Ideal S5000x128 .bf16) (w : FVec Ideal S128x96 .bf16) (p : Fin 5000) (q : Fin 96) :
    FloatOps.matmul dot_S5000x128_S128x96_S5000x96_1_0_0_1_n_n none x w (constant (F := Ideal) S5000x96 .f32 0x00000000#32) (ix2 p q)
      = ∑ k : Fin 128, x (ix2 p k) * w (ix2 k q) := by
  rw [Ideal.matmul_constant_zero_apply, ← Equiv.sum_comp (ValueIdx.contrEquiv1 dot_S5000x128_S128x96_S5000x96_1_0_0_1_n_n 128 rfl rfl).symm]
  refine Finset.sum_congr rfl fun k _ => ?_
  have hk := ValueIdx.contrEquiv1_symm_val dot_S5000x128_S128x96_S5000x96_1_0_0_1_n_n 128 rfl rfl k
  have el : dot_S5000x128_S128x96_S5000x96_1_0_0_1_n_n.lhsIdx (ix2 p q) ((ValueIdx.contrEquiv1 dot_S5000x128_S128x96_S5000x96_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x96_S5000x96_1_0_0_1_n_n.rhsIdx (ix2 p q) ((ValueIdx.contrEquiv1 dot_S5000x128_S128x96_S5000x96_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The contraction of `dot_S5000x96_S96x64_S5000x64_1_0_0_1_n_n`: left operand [rows, 96], right operand [96, columns], one contracted axis -/

/-- The left operand's row coordinate is the output's. -/
theorem lhsB_0 (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
/-- The left operand's column coordinate is the contraction index. -/
theorem lhsB_1 (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q
/-- The right operand's row coordinate is the contraction index. -/
theorem rhsB_0 (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q
/-- The right operand's column coordinate is the output's. -/
theorem rhsB_1 (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- The product of a [5000, 96] block and a [96, 64] matrix with a zero accumulator, at the ideal values, read at
    row `p` and column `q`: the sum over the contracted axis of the products. -/
theorem matmulB_apply (x : FVec Ideal S5000x96 .bf16) (w : FVec Ideal S96x64 .bf16) (p : Fin 5000) (q : Fin 64) :
    FloatOps.matmul dot_S5000x96_S96x64_S5000x64_1_0_0_1_n_n none x w (constant (F := Ideal) S5000x64 .f32 0x00000000#32) (ix2 p q)
      = ∑ k : Fin 96, x (ix2 p k) * w (ix2 k q) := by
  rw [Ideal.matmul_constant_zero_apply, ← Equiv.sum_comp (ValueIdx.contrEquiv1 dot_S5000x96_S96x64_S5000x64_1_0_0_1_n_n 96 rfl rfl).symm]
  refine Finset.sum_congr rfl fun k _ => ?_
  have hk := ValueIdx.contrEquiv1_symm_val dot_S5000x96_S96x64_S5000x64_1_0_0_1_n_n 96 rfl rfl k
  have el : dot_S5000x96_S96x64_S5000x64_1_0_0_1_n_n.lhsIdx (ix2 p q) ((ValueIdx.contrEquiv1 dot_S5000x96_S96x64_S5000x64_1_0_0_1_n_n 96 rfl rfl).symm k) = ix2 p k := funext fun a => Fin.ext (by
    match a with
    | ⟨0, _⟩ => exact lhsB_0 _ _
    | ⟨1, _⟩ => exact (lhsB_1 _ _).trans hk)
  have er : dot_S5000x96_S96x64_S5000x64_1_0_0_1_n_n.rhsIdx (ix2 p q) ((ValueIdx.contrEquiv1 dot_S5000x96_S96x64_S5000x64_1_0_0_1_n_n 96 rfl rfl).symm k) = ix2 k q := funext fun a => Fin.ext (by
    match a with
    | ⟨0, _⟩ => exact (rhsB_0 _ _).trans hk
    | ⟨1, _⟩ => exact rhsB_1 _ _)
  rw [el, er]

/-! ## The contraction of `dot_S5000x64_S64x64_S5000x64_1_0_0_1_n_n`: left operand [rows, 64], right operand [64, columns], one contracted axis -/

/-- The left operand's row coordinate is the output's. -/
theorem lhsC_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction index. -/
theorem lhsC_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction index. -/
theorem rhsC_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's. -/
theorem rhsC_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a [5000, 64] block and a [64, 64] matrix with a zero accumulator, at the ideal values, read at
    row `p` and column `q`: the sum over the contracted axis of the products. -/
theorem matmulC_apply (x : FVec Ideal S5000x64 .bf16) (w : FVec Ideal S64x64 .bf16) (p : Fin 5000) (q : Fin 64) :
    FloatOps.matmul dot_S5000x64_S64x64_S5000x64_1_0_0_1_n_n none x w (constant (F := Ideal) S5000x64 .f32 0x00000000#32) (ix2 p q)
      = ∑ k : Fin 64, x (ix2 p k) * w (ix2 k q) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhsC_0 _ _
    | ⟨1, _⟩ => exact (lhsC_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhsC_0 _ _).trans hk
    | ⟨1, _⟩ => exact rhsC_1 _ _)
  rw [el, er]

/-! ## The bias row's broadcast -/

/-- A [1, 96] row broadcast to [5000, 96], read at row `p`, column `q`: the row's column `q`. -/
theorem bcast96_apply {α : Type} (b : S1x96.Idx → α) (h : S1x96.Broadcasts S5000x96) (p : Fin 5000) (q : Fin 96) :
    broadcastTo S5000x96 b h (ix2 p q) = b (ix2 (0 : Fin 1) q) :=
  broadcastTo_apply b h (ix2 p q) (ix2 (0 : Fin 1) q) fun a => by
    match a with
    | ⟨0, _⟩ => rfl
    | ⟨1, _⟩ => rfl

/-- A [1, 64] row broadcast to [5000, 64], read at row `p`, column `q`: the row's column `q`. -/
theorem bcast64_apply {α : Type} (b : S1x64.Idx → α) (h : S1x64.Broadcasts S5000x64) (p : Fin 5000) (q : Fin 64) :
    broadcastTo S5000x64 b h (ix2 p q) = b (ix2 (0 : Fin 1) q) :=
  broadcastTo_apply b h (ix2 p q) (ix2 (0 : Fin 1) q) fun a => by
    match a with
    | ⟨0, _⟩ => rfl
    | ⟨1, _⟩ => rfl

end Cert.KernelIdeal.RegionValue

end
-- ==== Proof.KRegion0.lean ====
/- Region 0 of the idealized kernel: the projection of the 50000 rows of a [50000, 128] array by a [128, 96] weight, computed
   in ten blocks of 5000 rows. The body's payload at an index is the sum over the contracted axis of the products (the narrowing
   format changes are the identity at the ideal values); each point writes back block `t` of one whole-array
   function `G0`; the ten blocks cover the output array, so it ends holding `G0` of the arrays as the region finds them. -/
import proofs.«130328_j64690797412362_2_alg».proof.Proof.KRegionLib

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- What the region's output array ends holding, as one function of the input array and the weight, index by index. -/
abbrev G0 (A0 : S50000x128.Idx → EReal) (A1 : S128x96.Idx → EReal) : S50000x96.Idx → EReal :=
  fun i => ∑ k : Fin 128, A0 (ix2 (i 0) k) * A1 (ix2 k (i 1))

/-- The body's payload at row `p`, column `q` of its block: the sum over `k` of the input block's row times the weight's column. -/
theorem pay0_apply (x : Vec Ideal S5000x128 .f32) (w : Vec Ideal S128x96 .f32) (p : Fin 5000) (q : Fin 96) :
    k0_pay1 (F := Ideal) x w (ix2 p q) = ∑ k : Fin 128, x (ix2 p k) * w (ix2 k q) := by
  unfold k0_pay1
  exact matmulA_apply _ _ p q

/-- Window 0's printed index map, decided over the grid: block `(t, 0)` at point `t`. -/
theorem idx0_0 : ∀ t : Fin cfg0.N, win0_0.index t (0 : Fin 2) = t.val ∧ win0_0.index t (1 : Fin 2) = 0 :=
  (by decide +kernel : ∀ t : Fin grid0.N, _)

/-- Window 0's block at point `t` is rows `5000 t … 5000 t + 4999` of its array. -/
theorem iblk0_0_apply (c : Dev nD) (t : Fin cfg0.N) (p : Fin 5000) (k : Fin 128) (r : Fin 50000)
    (hr : r.val = t.val * 5000 + p.val) :
    (iblk0 V c 0 t : Vec Ideal S5000x128 .f32) (ix2 p k) = (V c (Pipeline.arrRef spec0 0) : S50000x128.Idx → EReal) (ix2 r k) := by
  obtain ⟨e0, e1⟩ := idx0_0 t
  unfold iblk0
  rw [View.read_apply, cast_eq]
  refine congrArg (V c (Pipeline.arrRef spec0 0)) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Window 1's printed index map, decided over the grid: block `(0, 0)` at point `t`. -/
theorem idx0_1 : ∀ t : Fin cfg0.N, win0_1.index t (0 : Fin 2) = 0 ∧ win0_1.index t (1 : Fin 2) = 0 :=
  (by decide +kernel : ∀ t : Fin grid0.N, _)

/-- Window 1's block at every point is its whole [128, 96] array. -/
theorem iblk0_1_apply (c : Dev nD) (t : Fin cfg0.N) (k : Fin 128) (q : Fin 96) :
    (iblk0 V c 1 t : Vec Ideal S128x96 .f32) (ix2 k q) = (V c (Pipeline.arrRef spec0 1) : S128x96.Idx → EReal) (ix2 k q) := by
  obtain ⟨e0, e1⟩ := idx0_1 t
  unfold iblk0
  rw [View.read_apply, cast_eq]
  refine congrArg (V c (Pipeline.arrRef spec0 1)) (funext fun a => Fin.ext ?_)
  match a with
  | ⟨0, _⟩ => show win0_1.index t (0 : Fin 2) * 128 + 1 * k.val = k.val; omega
  | ⟨1, _⟩ => show win0_1.index t (1 : Fin 2) * 96 + 1 * q.val = q.val; omega

/-- The payload of blocks that are row `r` of `A0` at block row `p` and all of `A1`, at row `p`, column `q`: `G0` at
    row `r`. Stated over variables of the block types; instantiated at a point's blocks below. -/
theorem point0 (A0 : S50000x128.Idx → EReal) (A1 : S128x96.Idx → EReal)
    (x0 : Vec Ideal S5000x128 .f32) (x1 : Vec Ideal S128x96 .f32) (p : Fin 5000) (q : Fin 96) (r : Fin 50000)
    (h0 : ∀ k : Fin 128, x0 (ix2 p k) = A0 (ix2 r k))
    (h1 : ∀ k : Fin 128, x1 (ix2 k q) = A1 (ix2 k q)) :
    k0_pay1 (F := Ideal) x0 x1 (ix2 p q) = G0 A0 A1 (ix2 r q) := by
  rw [pay0_apply]
  exact Finset.sum_congr rfl fun k _ => by rw [h0 k, h1 k]

/-- Window 2's printed index map, decided over the grid: block `(t, 0)` at point `t`. -/
theorem idx0_2 : ∀ t : Fin cfg0.N, win0_2.index t (0 : Fin 2) = t.val ∧ win0_2.index t (1 : Fin 2) = 0 :=
  (by decide +kernel : ∀ t : Fin grid0.N, _)

/-- An index of the array is in point `t`'s block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v4).slice (win0_2.rect t)).set ↔ _
  rw [View.set_slice_whole, Rect.mem_set_unit]
  exact Iff.rfl

/-- Every row is in the block of the point `row / 5000`: the ten blocks cover the array. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have hN : cfg0.N = 10 := N_0
  let t : Fin cfg0.N := ⟨(i 0).val / 5000, by rw [hN]; omega⟩
  have htv : t.val = (i 0).val / 5000 := rfl
  obtain ⟨e0, e1⟩ := idx0_2 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- WHAT POINT `t` WRITES BACK is block `t` of `G0` of the arrays as the region finds them. -/
theorem flushed0_eq (c : Dev nD) (t : Fin cfg0.N) :
    (dat0 (F := Ideal) V c).flushed 2 t
      = ((cfg0.win 2).blk t).view.read (Elt Ideal) (G0 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x96) hz]
  obtain ⟨e0, e1⟩ := idx0_2 t
  funext j
  rw [View.read_apply, cast_eq]
  have hj0 : (j 0).val < 5000 := (j 0).isLt
  have hj1 : (j 1).val < 96 := (j 1).isLt
  have ht : t.val < 10 := t.isLt
  have hx : (cfg0.win 2).xinj (grid0.coords t) j = ix2 (⟨(j 0).val, hj0⟩ : Fin 5000) (⟨(j 1).val, hj1⟩ : Fin 96) :=
    funext fun a => Fin.ext (by match a with | ⟨0, _⟩ => rfl | ⟨1, _⟩ => rfl)
  have hy : ((cfg0.win 2).blk t).view.emb j
      = ix2 (⟨t.val * 5000 + (j 0).val, by omega⟩ : Fin 50000) (⟨(j 1).val, hj1⟩ : Fin 96) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 96 + 1 * (j 1).val = (j 1).val; omega)
  refine (congrArg (k0_pay1 (F := Ideal) (iblk0 V c 0 t) (iblk0 V c 1 t)) hx).trans ?_
  refine Eq.trans ?_ (congrArg (G0 (V c (Pipeline.arrRef spec0 0)) (V c (Pipeline.arrRef spec0 1))) hy).symm
  exact point0 _ _ (iblk0 V c 0 t) (iblk0 V c 1 t) _ _ _
    (fun k => iblk0_0_apply V c t _ k _ rfl) (fun k => iblk0_1_apply V c t k _)

/-- THE ARRAY after region 0: the projection of the input array by the weight, index by index. -/
theorem region0_value (c : Dev nD) :
    (dat0 (F := Ideal) V c).arrAt 2 cfg0.N = G0 (V c (Pipeline.arrRef spec0 0)) (V c (Pipeline.arrRef spec0 1)) :=
  (dat0 (F := Ideal) V c).arrAt_eq_of_cover 2 (G0 (V c (Pipeline.arrRef spec0 0)) (V c (Pipeline.arrRef spec0 1)))
    (fun t _ => flushed0_eq V c t) cover0

end Cert.KernelIdeal.RegionValue

end
-- ==== Proof.KRegion1.lean ====
/- Region 1 of the idealized kernel: the epilogue `max((agg + h · w) + b, 0)` on the 50000 rows — `agg` a [50000, 96] array,
   `h` a [50000, 128] array, `w` a [128, 96] weight, `b` a [1, 96] bias row broadcast down the rows — computed in ten blocks of
   5000 rows. The body's payload at an index keeps the body's association and operand order; the zero it compares with is kept as
   the word the body's literal encodes (`G1_zero` rewrites it to the extended real 0). Each point writes back block `t` of one
   whole-array function `G1`; the ten blocks cover the output array. -/
import proofs.«130328_j64690797412362_2_alg».proof.Proof.KRegionLib

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- What the region's output array ends holding, as one function of the four arrays, index by index. -/
abbrev G1 (A0 : S50000x96.Idx → EReal) (A1 : S50000x128.Idx → EReal) (A2 : S128x96.Idx → EReal) (A3 : S1x96.Idx → EReal) :
    S50000x96.Idx → EReal :=
  fun i => max ((A0 i + ∑ k : Fin 128, A1 (ix2 (i 0) k) * A2 (ix2 k (i 1))) + A3 (ix2 (0 : Fin 1) (i 1))) (Ideal.ofBits .f32 0x00000000#32)

/-- The same function with the zero word read as the extended real 0. -/
theorem G1_zero (A0 : S50000x96.Idx → EReal) (A1 : S50000x128.Idx → EReal) (A2 : S128x96.Idx → EReal) (A3 : S1x96.Idx → EReal) :
    G1 A0 A1 A2 A3
      = fun i => max ((A0 i + ∑ k : Fin 128, A1 (ix2 (i 0) k) * A2 (ix2 k (i 1))) + A3 (ix2 (0 : Fin 1) (i 1))) (0 : EReal) := by
  funext i
  show max _ (Ideal.ofBits .f32 0x00000000#32) = _
  rw [Ideal.ofBits_zero_f32]

/-- The body's payload at row `p`, column `q` of its block. -/
theorem pay1_apply (a : Vec Ideal S5000x96 .f32) (x : Vec Ideal S5000x128 .f32) (w : Vec Ideal S128x96 .f32)
    (b : Vec Ideal S1x96 .f32) (p : Fin 5000) (q : Fin 96) :
    k1_pay1 (F := Ideal) a x w b (ix2 p q)
      = max ((a (ix2 p q) + ∑ k : Fin 128, x (ix2 p k) * w (ix2 k q)) + b (ix2 (0 : Fin 1) q)) (Ideal.ofBits .f32 0x00000000#32) := by
  unfold k1_pay1
  simp only [shapeCast_self]
  show max ((a (ix2 p q)
        + FloatOps.matmul dot_S5000x128_S128x96_S5000x96_1_0_0_1_n_n none (truncf .bf16 x _ : FVec Ideal S5000x128 .bf16) (truncf .bf16 w _ : FVec Ideal S128x96 .bf16)
            (constant (F := Ideal) S5000x96 .f32 0x00000000#32) (ix2 p q))
      + broadcastTo S5000x96 b _ (ix2 p q)) (Ideal.ofBits .f32 0x00000000#32) = _
  rw [matmulA_apply, bcast96_apply] <;> rfl

/-- Window 0's printed index map, decided over the grid: block `(t, 0)` at point `t`. -/
theorem idx1_0 : ∀ t : Fin cfg1.N, win1_0.index t (0 : Fin 2) = t.val ∧ win1_0.index t (1 : Fin 2) = 0 :=
  (by decide +kernel : ∀ t : Fin grid1.N, _)

/-- Window 0's block at point `t` is rows `5000 t … 5000 t + 4999` of its array. -/
theorem iblk1_0_apply (c : Dev nD) (t : Fin cfg1.N) (p : Fin 5000) (k : Fin 96) (r : Fin 50000)
    (hr : r.val = t.val * 5000 + p.val) :
    (iblk1 V c 0 t : Vec Ideal S5000x96 .f32) (ix2 p k) = (V c (Pipeline.arrRef spec1 0) : S50000x96.Idx → EReal) (ix2 r k) := by
  obtain ⟨e0, e1⟩ := idx1_0 t
  unfold iblk1
  rw [View.read_apply, cast_eq]
  refine congrArg (V c (Pipeline.arrRef spec1 0)) (funext fun a => Fin.ext ?_)
  match a with
  | ⟨0, _⟩ => show win1_0.index t (0 : Fin 2) * 5000 + 1 * p.val = r.val; omega
  | ⟨1, _⟩ => show win1_0.index t (1 : Fin 2) * 96 + 1 * k.val = k.val; omega

/-- Window 1's printed index map, decided over the grid: block `(t, 0)` at point `t`. -/
theorem idx1_1 : ∀ t : Fin cfg1.N, win1_1.index t (0 : Fin 2) = t.val ∧ win1_1.index t (1 : Fin 2) = 0 :=
  (by decide +kernel : ∀ t : Fin grid1.N, _)

/-- Window 1's block at point `t` is rows `5000 t … 5000 t + 4999` of its array. -/
theorem iblk1_1_apply (c : Dev nD) (t : Fin cfg1.N) (p : Fin 5000) (k : Fin 128) (r : Fin 50000)
    (hr : r.val = t.val * 5000 + p.val) :
    (iblk1 V c 1 t : Vec Ideal S5000x128 .f32) (ix2 p k) = (V c (Pipeline.arrRef spec1 1) : S50000x128.Idx → EReal) (ix2 r k) := by
  obtain ⟨e0, e1⟩ := idx1_1 t
  unfold iblk1
  rw [View.read_apply, cast_eq]
  refine congrArg (V c (Pipeline.arrRef spec1 1)) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Window 2's printed index map, decided over the grid: block `(0, 0)` at point `t`. -/
theorem idx1_2 : ∀ t : Fin cfg1.N, win1_2.index t (0 : Fin 2) = 0 ∧ win1_2.index t (1 : Fin 2) = 0 :=
  (by decide +kernel : ∀ t : Fin grid1.N, _)

/-- Window 2's block at every point is its whole [128, 96] array. -/
theorem iblk1_2_apply (c : Dev nD) (t : Fin cfg1.N) (k : Fin 128) (q : Fin 96) :
    (iblk1 V c 2 t : Vec Ideal S128x96 .f32) (ix2 k q) = (V c (Pipeline.arrRef spec1 2) : S128x96.Idx → EReal) (ix2 k q) := by
  obtain ⟨e0, e1⟩ := idx1_2 t
  unfold iblk1
  rw [View.read_apply, cast_eq]
  refine congrArg (V c (Pipeline.arrRef spec1 2)) (funext fun a => Fin.ext ?_)
  match a with
  | ⟨0, _⟩ => show win1_2.index t (0 : Fin 2) * 128 + 1 * k.val = k.val; omega
  | ⟨1, _⟩ => show win1_2.index t (1 : Fin 2) * 96 + 1 * q.val = q.val; omega

/-- Window 3's printed index map, decided over the grid: block `(0, 0)` at point `t`. -/
theorem idx1_3 : ∀ t : Fin cfg1.N, win1_3.index t (0 : Fin 2) = 0 ∧ win1_3.index t (1 : Fin 2) = 0 :=
  (by decide +kernel : ∀ t : Fin grid1.N, _)

/-- Window 3's block at every point is its whole [1, 96] array. -/
theorem iblk1_3_apply (c : Dev nD) (t : Fin cfg1.N) (k : Fin 1) (q : Fin 96) :
    (iblk1 V c 3 t : Vec Ideal S1x96 .f32) (ix2 k q) = (V c (Pipeline.arrRef spec1 3) : S1x96.Idx → EReal) (ix2 k q) := by
  obtain ⟨e0, e1⟩ := idx1_3 t
  unfold iblk1
  rw [View.read_apply, cast_eq]
  refine congrArg (V c (Pipeline.arrRef spec1 3)) (funext fun a => Fin.ext ?_)
  match a with
  | ⟨0, _⟩ => show win1_3.index t (0 : Fin 2) * 1 + 1 * k.val = k.val; omega
  | ⟨1, _⟩ => show win1_3.index t (1 : Fin 2) * 96 + 1 * q.val = q.val; omega

/-- The payload of blocks that are row `r` of `A0` and of `A1` at block row `p`, all of `A2` and all of `A3`, at row `p`,
    column `q`: `G1` at row `r`. Stated over variables of the block types; instantiated at a point's blocks below. -/
theorem point1 (A0 : S50000x96.Idx → EReal) (A1 : S50000x128.Idx → EReal) (A2 : S128x96.Idx → EReal) (A3 : S1x96.Idx → EReal)
    (x0 : Vec Ideal S5000x96 .f32) (x1 : Vec Ideal S5000x128 .f32) (x2 : Vec Ideal S128x96 .f32) (x3 : Vec Ideal S1x96 .f32)
    (p : Fin 5000) (q : Fin 96) (r : Fin 50000)
    (h0 : x0 (ix2 p q) = A0 (ix2 r q))
    (h1 : ∀ k : Fin 128, x1 (ix2 p k) = A1 (ix2 r k))
    (h2 : ∀ k : Fin 128, x2 (ix2 k q) = A2 (ix2 k q))
    (h3 : x3 (ix2 (0 : Fin 1) q) = A3 (ix2 (0 : Fin 1) q)) :
    k1_pay1 (F := Ideal) x0 x1 x2 x3 (ix2 p q) = G1 A0 A1 A2 A3 (ix2 r q) := by
  have hs : ∑ k : Fin 128, x1 (ix2 p k) * x2 (ix2 k q) = ∑ k : Fin 128, A1 (ix2 r k) * A2 (ix2 k q) :=
    Finset.sum_congr rfl fun k _ => by rw [h1 k, h2 k]
  rw [pay1_apply, h0, h3, hs] <;> rfl

/-- Window 4's printed index map, decided over the grid: block `(t, 0)` at point `t`. -/
theorem idx1_4 : ∀ t : Fin cfg1.N, win1_4.index t (0 : Fin 2) = t.val ∧ win1_4.index t (1 : Fin 2) = 0 :=
  (by decide +kernel : ∀ t : Fin grid1.N, _)

/-- An index of the array is in point `t`'s block iff each coordinate is in the block's range on its axis. -/
theorem mem_blk1 (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v16).slice (win1_4.rect t)).set ↔ _
  rw [View.set_slice_whole, Rect.mem_set_unit]
  exact Iff.rfl

/-- Every row is in the block of the point `row / 5000`: the ten blocks cover the array. -/
theorem cover1 (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  have hN : cfg1.N = 10 := N_1
  let t : Fin cfg1.N := ⟨(i 0).val / 5000, by rw [hN]; omega⟩
  have htv : t.val = (i 0).val / 5000 := rfl
  obtain ⟨e0, e1⟩ := idx1_4 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 96 ≤ (i 1).val ∧ (i 1).val < win1_4.index t (1 : Fin 2) * 96 + 96; omega

/-- WHAT POINT `t` WRITES BACK is block `t` of `G1` of the arrays as the region finds them. -/
theorem flushed1_eq (c : Dev nD) (t : Fin cfg1.N) :
    (dat1 (F := Ideal) V c).flushed 4 t
      = ((cfg1.win 4).blk t).view.read (Elt Ideal) (G1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x96) hz, View.ld_unit_zero (S := S5000x128) hz, View.ld_unit_zero (S := S128x96) hz, View.ld_unit_zero (S := S1x96) hz]
  obtain ⟨e0, e1⟩ := idx1_4 t
  funext j
  rw [View.read_apply, cast_eq]
  have hj0 : (j 0).val < 5000 := (j 0).isLt
  have hj1 : (j 1).val < 96 := (j 1).isLt
  have ht : t.val < 10 := t.isLt
  have hx : (cfg1.win 4).xinj (grid1.coords t) j = ix2 (⟨(j 0).val, hj0⟩ : Fin 5000) (⟨(j 1).val, hj1⟩ : Fin 96) :=
    funext fun a => Fin.ext (by match a with | ⟨0, _⟩ => rfl | ⟨1, _⟩ => rfl)
  have hy : ((cfg1.win 4).blk t).view.emb j
      = ix2 (⟨t.val * 5000 + (j 0).val, by omega⟩ : Fin 50000) (⟨(j 1).val, hj1⟩ : Fin 96) :=
    funext fun a => Fin.ext (by
      match a with
      | ⟨0, _⟩ => show win1_4.index t (0 : Fin 2) * 5000 + 1 * (j 0).val = t.val * 5000 + (j 0).val; omega
      | ⟨1, _⟩ => show win1_4.index t (1 : Fin 2) * 96 + 1 * (j 1).val = (j 1).val; omega)
  refine (congrArg (k1_pay1 (F := Ideal) (iblk1 V c 0 t) (iblk1 V c 1 t) (iblk1 V c 2 t) (iblk1 V c 3 t)) hx).trans ?_
  refine Eq.trans ?_ (congrArg (G1 (V c (Pipeline.arrRef spec1 0)) (V c (Pipeline.arrRef spec1 1)) (V c (Pipeline.arrRef spec1 2)) (V c (Pipeline.arrRef spec1 3))) hy).symm
  exact point1 _ _ _ _ (iblk1 V c 0 t) (iblk1 V c 1 t) (iblk1 V c 2 t) (iblk1 V c 3 t) _ _ _
    (iblk1_0_apply V c t _ _ _ rfl) (fun k => iblk1_1_apply V c t _ k _ rfl) (fun k => iblk1_2_apply V c t k _) (iblk1_3_apply V c t _ _)

/-- THE ARRAY after region 1: `max((agg + h · w) + b, zero word)`, index by index. -/
theorem region1_value (c : Dev nD) :
    (dat1 (F := Ideal) V c).arrAt 4 cfg1.N = G1 (V c (Pipeline.arrRef spec1 0)) (V c (Pipeline.arrRef spec1 1)) (V c (Pipeline.arrRef spec1 2)) (V c (Pipeline.arrRef spec1 3)) :=
  (dat1 (F := Ideal) V c).arrAt_eq_of_cover 4 (G1 (V c (Pipeline.arrRef spec1 0)) (V c (Pipeline.arrRef spec1 1)) (V c (Pipeline.arrRef spec1 2)) (V c (Pipeline.arrRef spec1 3)))
    (fun t _ => flushed1_eq V c t) cover1

end Cert.KernelIdeal.RegionValue

end
-- ==== Proof.KRegion2.lean ====
/- Region 2 of the idealized kernel: the projection of the 50000 rows of a [50000, 96] array by a [96, 64] weight, computed
   in ten blocks of 5000 rows. The body's payload at an index is the sum over the contracted axis of the products (the narrowing
   format changes are the identity at the ideal values; the same-shape casts are the identity); each point writes back block `t` of one whole-array
   function `G2`; the ten blocks cover the output array, so it ends holding `G2` of the arrays as the region finds them. -/
import proofs.«130328_j64690797412362_2_alg».proof.Proof.KRegionLib

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- What the region's output array ends holding, as one function of the input array and the weight, index by index. -/
abbrev G2 (A0 : S50000x96.Idx → EReal) (A1 : S96x64.Idx → EReal) : S50000x64.Idx → EReal :=
  fun i => ∑ k : Fin 96, A0 (ix2 (i 0) k) * A1 (ix2 k (i 1))

/-- The body's payload at row `p`, column `q` of its block: the sum over `k` of the input block's row times the weight's column. -/
theorem pay2_apply (x : Vec Ideal S5000x96 .f32) (w : Vec Ideal S96x64 .f32) (p : Fin 5000) (q : Fin 64) :
    k2_pay1 (F := Ideal) x w (ix2 p q) = ∑ k : Fin 96, x (ix2 p k) * w (ix2 k q) := by
  unfold k2_pay1
  simp only [shapeCast_self]
  exact matmulB_apply _ _ p q

/-- Window 0's printed index map, decided over the grid: block `(t, 0)` at point `t`. -/
theorem idx2_0 : ∀ t : Fin cfg2.N, win2_0.index t (0 : Fin 2) = t.val ∧ win2_0.index t (1 : Fin 2) = 0 :=
  (by decide +kernel : ∀ t : Fin grid2.N, _)

/-- Window 0's block at point `t` is rows `5000 t … 5000 t + 4999` of its array. -/
theorem iblk2_0_apply (c : Dev nD) (t : Fin cfg2.N) (p : Fin 5000) (k : Fin 96) (r : Fin 50000)
    (hr : r.val = t.val * 5000 + p.val) :
    (iblk2 V c 0 t : Vec Ideal S5000x96 .f32) (ix2 p k) = (V c (Pipeline.arrRef spec2 0) : S50000x96.Idx → EReal) (ix2 r k) := by
  obtain ⟨e0, e1⟩ := idx2_0 t
  unfold iblk2
  rw [View.read_apply, cast_eq]
  refine congrArg (V c (Pipeline.arrRef spec2 0)) (funext fun a => Fin.ext ?_)
  match a with
  | ⟨0, _⟩ => show win2_0.index t (0 : Fin 2) * 5000 + 1 * p.val = r.val; omega
  | ⟨1, _⟩ => show win2_0.index t (1 : Fin 2) * 96 + 1 * k.val = k.val; omega

/-- Window 1's printed index map, decided over the grid: block `(0, 0)` at point `t`. -/
theorem idx2_1 : ∀ t : Fin cfg2.N, win2_1.index t (0 : Fin 2) = 0 ∧ win2_1.index t (1 : Fin 2) = 0 :=
  (by decide +kernel : ∀ t : Fin grid2.N, _)

/-- Window 1's block at every point is its whole [96, 64] array. -/
theorem iblk2_1_apply (c : Dev nD) (t : Fin cfg2.N) (k : Fin 96) (q : Fin 64) :
    (iblk2 V c 1 t : Vec Ideal S96x64 .f32) (ix2 k q) = (V c (Pipeline.arrRef spec2 1) : S96x64.Idx → EReal) (ix2 k q) := by
  obtain ⟨e0, e1⟩ := idx2_1 t
  unfold iblk2
  rw [View.read_apply, cast_eq]
  refine congrArg (V c (Pipeline.arrRef spec2 1)) (funext fun a => Fin.ext ?_)
  match a with
  | ⟨0, _⟩ => show win2_1.index t (0 : Fin 2) * 96 + 1 * k.val = k.val; omega
  | ⟨1, _⟩ => show win2_1.index t (1 : Fin 2) * 64 + 1 * q.val = q.val; omega

/-- The payload of blocks that are row `r` of `A0` at block row `p` and all of `A1`, at row `p`, column `q`: `G2` at
    row `r`. Stated over variables of the block types; instantiated at a point's blocks below. -/
theorem point2 (A0 : S50000x96.Idx → EReal) (A1 : S96x64.Idx → EReal)
    (x0 : Vec Ideal S5000x96 .f32) (x1 : Vec Ideal S96x64 .f32) (p : Fin 5000) (q : Fin 64) (r : Fin 50000)
    (h0 : ∀ k : Fin 96, x0 (ix2 p k) = A0 (ix2 r k))
    (h1 : ∀ k : Fin 96, x1 (ix2 k q) = A1 (ix2 k q)) :
    k2_pay1 (F := Ideal) x0 x1 (ix2 p q) = G2 A0 A1 (ix2 r q) := by
  rw [pay2_apply]
  exact Finset.sum_congr rfl fun k _ => by rw [h0 k, h1 k]

/-- Window 2's printed index map, decided over the grid: block `(t, 0)` at point `t`. -/
theorem idx2_2 : ∀ t : Fin cfg2.N, win2_2.index t (0 : Fin 2) = t.val ∧ win2_2.index t (1 : Fin 2) = 0 :=
  (by decide +kernel : ∀ t : Fin grid2.N, _)

/-- An index of the array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v17).slice (win2_2.rect t)).set ↔ _
  rw [View.set_slice_whole, Rect.mem_set_unit]
  exact Iff.rfl

/-- Every row is in the block of the point `row / 5000`: the ten blocks cover the array. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have htv : t.val = (i 0).val / 5000 := rfl
  obtain ⟨e0, e1⟩ := idx2_2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- WHAT POINT `t` WRITES BACK is block `t` of `G2` of the arrays as the region finds them. -/
theorem flushed2_eq (c : Dev nD) (t : Fin cfg2.N) :
    (dat2 (F := Ideal) V c).flushed 2 t
      = ((cfg2.win 2).blk t).view.read (Elt Ideal) (G2 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x96) hz, View.ld_unit_zero (S := S96x64) hz]
  obtain ⟨e0, e1⟩ := idx2_2 t
  funext j
  rw [View.read_apply, cast_eq]
  have hj0 : (j 0).val < 5000 := (j 0).isLt
  have hj1 : (j 1).val < 64 := (j 1).isLt
  have ht : t.val < 10 := t.isLt
  have hx : (cfg2.win 2).xinj (grid2.coords t) j = ix2 (⟨(j 0).val, hj0⟩ : Fin 5000) (⟨(j 1).val, hj1⟩ : Fin 64) :=
    funext fun a => Fin.ext (by match a with | ⟨0, _⟩ => rfl | ⟨1, _⟩ => rfl)
  have hy : ((cfg2.win 2).blk t).view.emb j
      = ix2 (⟨t.val * 5000 + (j 0).val, by omega⟩ : Fin 50000) (⟨(j 1).val, hj1⟩ : Fin 64) :=
    funext fun a => Fin.ext (by
      match a with
      | ⟨0, _⟩ => show win2_2.index t (0 : Fin 2) * 5000 + 1 * (j 0).val = t.val * 5000 + (j 0).val; omega
      | ⟨1, _⟩ => show win2_2.index t (1 : Fin 2) * 64 + 1 * (j 1).val = (j 1).val; omega)
  refine (congrArg (k2_pay1 (F := Ideal) (iblk2 V c 0 t) (iblk2 V c 1 t)) hx).trans ?_
  refine Eq.trans ?_ (congrArg (G2 (V c (Pipeline.arrRef spec2 0)) (V c (Pipeline.arrRef spec2 1))) hy).symm
  exact point2 _ _ (iblk2 V c 0 t) (iblk2 V c 1 t) _ _ _
    (fun k => iblk2_0_apply V c t _ k _ rfl) (fun k => iblk2_1_apply V c t k _)

/-- THE ARRAY after region 2: the projection of the input array by the weight, index by index. -/
theorem region2_value (c : Dev nD) :
    (dat2 (F := Ideal) V c).arrAt 2 cfg2.N = G2 (V c (Pipeline.arrRef spec2 0)) (V c (Pipeline.arrRef spec2 1)) :=
  (dat2 (F := Ideal) V c).arrAt_eq_of_cover 2 (G2 (V c (Pipeline.arrRef spec2 0)) (V c (Pipeline.arrRef spec2 1)))
    (fun t _ => flushed2_eq V c t) cover2

end Cert.KernelIdeal.RegionValue

end
-- ==== Proof.KRegion3.lean ====
/- Region 3 of the idealized kernel: the epilogue `max((agg + h · w) + b, 0)` on the 50000 rows — `agg` a [50000, 64] array,
   `h` a [50000, 96] array, `w` a [96, 64] weight, `b` a [1, 64] bias row broadcast down the rows — computed in ten blocks of
   5000 rows. The body's payload at an index keeps the body's association and operand order; the zero it compares with is kept as
   the word the body's literal encodes (`G3_zero` rewrites it to the extended real 0). Each point writes back block `t` of one
   whole-array function `G3`; the ten blocks cover the output array. -/
import proofs.«130328_j64690797412362_2_alg».proof.Proof.KRegionLib

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- What the region's output array ends holding, as one function of the four arrays, index by index. -/
abbrev G3 (A0 : S50000x64.Idx → EReal) (A1 : S50000x96.Idx → EReal) (A2 : S96x64.Idx → EReal) (A3 : S1x64.Idx → EReal) :
    S50000x64.Idx → EReal :=
  fun i => max ((A0 i + ∑ k : Fin 96, A1 (ix2 (i 0) k) * A2 (ix2 k (i 1))) + A3 (ix2 (0 : Fin 1) (i 1))) (Ideal.ofBits .f32 0x00000000#32)

/-- The same function with the zero word read as the extended real 0. -/
theorem G3_zero (A0 : S50000x64.Idx → EReal) (A1 : S50000x96.Idx → EReal) (A2 : S96x64.Idx → EReal) (A3 : S1x64.Idx → EReal) :
    G3 A0 A1 A2 A3
      = fun i => max ((A0 i + ∑ k : Fin 96, A1 (ix2 (i 0) k) * A2 (ix2 k (i 1))) + A3 (ix2 (0 : Fin 1) (i 1))) (0 : EReal) := by
  funext i
  show max _ (Ideal.ofBits .f32 0x00000000#32) = _
  rw [Ideal.ofBits_zero_f32]

/-- The body's payload at row `p`, column `q` of its block. -/
theorem pay3_apply (a : Vec Ideal S5000x64 .f32) (x : Vec Ideal S5000x96 .f32) (w : Vec Ideal S96x64 .f32)
    (b : Vec Ideal S1x64 .f32) (p : Fin 5000) (q : Fin 64) :
    k3_pay1 (F := Ideal) a x w b (ix2 p q)
      = max ((a (ix2 p q) + ∑ k : Fin 96, x (ix2 p k) * w (ix2 k q)) + b (ix2 (0 : Fin 1) q)) (Ideal.ofBits .f32 0x00000000#32) := by
  unfold k3_pay1
  simp only [shapeCast_self]
  show max ((a (ix2 p q)
        + FloatOps.matmul dot_S5000x96_S96x64_S5000x64_1_0_0_1_n_n none (truncf .bf16 x _ : FVec Ideal S5000x96 .bf16) (truncf .bf16 w _ : FVec Ideal S96x64 .bf16)
            (constant (F := Ideal) S5000x64 .f32 0x00000000#32) (ix2 p q))
      + broadcastTo S5000x64 b _ (ix2 p q)) (Ideal.ofBits .f32 0x00000000#32) = _
  rw [matmulB_apply, bcast64_apply] <;> rfl

/-- Window 0's printed index map, decided over the grid: block `(t, 0)` at point `t`. -/
theorem idx3_0 : ∀ t : Fin cfg3.N, win3_0.index t (0 : Fin 2) = t.val ∧ win3_0.index t (1 : Fin 2) = 0 :=
  (by decide +kernel : ∀ t : Fin grid3.N, _)

/-- Window 0's block at point `t` is rows `5000 t … 5000 t + 4999` of its array. -/
theorem iblk3_0_apply (c : Dev nD) (t : Fin cfg3.N) (p : Fin 5000) (k : Fin 64) (r : Fin 50000)
    (hr : r.val = t.val * 5000 + p.val) :
    (iblk3 V c 0 t : Vec Ideal S5000x64 .f32) (ix2 p k) = (V c (Pipeline.arrRef spec3 0) : S50000x64.Idx → EReal) (ix2 r k) := by
  obtain ⟨e0, e1⟩ := idx3_0 t
  unfold iblk3
  rw [View.read_apply, cast_eq]
  refine congrArg (V c (Pipeline.arrRef spec3 0)) (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- Window 1's printed index map, decided over the grid: block `(t, 0)` at point `t`. -/
theorem idx3_1 : ∀ t : Fin cfg3.N, win3_1.index t (0 : Fin 2) = t.val ∧ win3_1.index t (1 : Fin 2) = 0 :=
  (by decide +kernel : ∀ t : Fin grid3.N, _)

/-- Window 1's block at point `t` is rows `5000 t … 5000 t + 4999` of its array. -/
theorem iblk3_1_apply (c : Dev nD) (t : Fin cfg3.N) (p : Fin 5000) (k : Fin 96) (r : Fin 50000)
    (hr : r.val = t.val * 5000 + p.val) :
    (iblk3 V c 1 t : Vec Ideal S5000x96 .f32) (ix2 p k) = (V c (Pipeline.arrRef spec3 1) : S50000x96.Idx → EReal) (ix2 r k) := by
  obtain ⟨e0, e1⟩ := idx3_1 t
  unfold iblk3
  rw [View.read_apply, cast_eq]
  refine congrArg (V c (Pipeline.arrRef spec3 1)) (funext fun a => Fin.ext ?_)
  match a with
  | ⟨0, _⟩ => show win3_1.index t (0 : Fin 2) * 5000 + 1 * p.val = r.val; omega
  | ⟨1, _⟩ => show win3_1.index t (1 : Fin 2) * 96 + 1 * k.val = k.val; omega

/-- Window 2's printed index map, decided over the grid: block `(0, 0)` at point `t`. -/
theorem idx3_2 : ∀ t : Fin cfg3.N, win3_2.index t (0 : Fin 2) = 0 ∧ win3_2.index t (1 : Fin 2) = 0 :=
  (by decide +kernel : ∀ t : Fin grid3.N, _)

/-- Window 2's block at every point is its whole [96, 64] array. -/
theorem iblk3_2_apply (c : Dev nD) (t : Fin cfg3.N) (k : Fin 96) (q : Fin 64) :
    (iblk3 V c 2 t : Vec Ideal S96x64 .f32) (ix2 k q) = (V c (Pipeline.arrRef spec3 2) : S96x64.Idx → EReal) (ix2 k q) := by
  obtain ⟨e0, e1⟩ := idx3_2 t
  unfold iblk3
  rw [View.read_apply, cast_eq]
  refine congrArg (V c (Pipeline.arrRef spec3 2)) (funext fun a => Fin.ext ?_)
  match a with
  | ⟨0, _⟩ => show win3_2.index t (0 : Fin 2) * 96 + 1 * k.val = k.val; omega
  | ⟨1, _⟩ => show win3_2.index t (1 : Fin 2) * 64 + 1 * q.val = q.val; omega

/-- Window 3's printed index map, decided over the grid: block `(0, 0)` at point `t`. -/
theorem idx3_3 : ∀ t : Fin cfg3.N, win3_3.index t (0 : Fin 2) = 0 ∧ win3_3.index t (1 : Fin 2) = 0 :=
  (by decide +kernel : ∀ t : Fin grid3.N, _)

/-- Window 3's block at every point is its whole [1, 64] array. -/
theorem iblk3_3_apply (c : Dev nD) (t : Fin cfg3.N) (k : Fin 1) (q : Fin 64) :
    (iblk3 V c 3 t : Vec Ideal S1x64 .f32) (ix2 k q) = (V c (Pipeline.arrRef spec3 3) : S1x64.Idx → EReal) (ix2 k q) := by
  obtain ⟨e0, e1⟩ := idx3_3 t
  unfold iblk3
  rw [View.read_apply, cast_eq]
  refine congrArg (V c (Pipeline.arrRef spec3 3)) (funext fun a => Fin.ext ?_)
  match a with
  | ⟨0, _⟩ => show win3_3.index t (0 : Fin 2) * 1 + 1 * k.val = k.val; omega
  | ⟨1, _⟩ => show win3_3.index t (1 : Fin 2) * 64 + 1 * q.val = q.val; omega

/-- The payload of blocks that are row `r` of `A0` and of `A1` at block row `p`, all of `A2` and all of `A3`, at row `p`,
    column `q`: `G3` at row `r`. Stated over variables of the block types; instantiated at a point's blocks below. -/
theorem point3 (A0 : S50000x64.Idx → EReal) (A1 : S50000x96.Idx → EReal) (A2 : S96x64.Idx → EReal) (A3 : S1x64.Idx → EReal)
    (x0 : Vec Ideal S5000x64 .f32) (x1 : Vec Ideal S5000x96 .f32) (x2 : Vec Ideal S96x64 .f32) (x3 : Vec Ideal S1x64 .f32)
    (p : Fin 5000) (q : Fin 64) (r : Fin 50000)
    (h0 : x0 (ix2 p q) = A0 (ix2 r q))
    (h1 : ∀ k : Fin 96, x1 (ix2 p k) = A1 (ix2 r k))
    (h2 : ∀ k : Fin 96, x2 (ix2 k q) = A2 (ix2 k q))
    (h3 : x3 (ix2 (0 : Fin 1) q) = A3 (ix2 (0 : Fin 1) q)) :
    k3_pay1 (F := Ideal) x0 x1 x2 x3 (ix2 p q) = G3 A0 A1 A2 A3 (ix2 r q) := by
  have hs : ∑ k : Fin 96, x1 (ix2 p k) * x2 (ix2 k q) = ∑ k : Fin 96, A1 (ix2 r k) * A2 (ix2 k q) :=
    Finset.sum_congr rfl fun k _ => by rw [h1 k, h2 k]
  rw [pay3_apply, h0, h3, hs] <;> rfl

/-- Window 4's printed index map, decided over the grid: block `(t, 0)` at point `t`. -/
theorem idx3_4 : ∀ t : Fin cfg3.N, win3_4.index t (0 : Fin 2) = t.val ∧ win3_4.index t (1 : Fin 2) = 0 :=
  (by decide +kernel : ∀ t : Fin grid3.N, _)

/-- An index of the array is in point `t`'s block iff each coordinate is in the block's range on its axis. -/
theorem mem_blk3 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v29).slice (win3_4.rect t)).set ↔ _
  rw [View.set_slice_whole, Rect.mem_set_unit]
  exact Iff.rfl

/-- Every row is in the block of the point `row / 5000`: the ten blocks cover the array. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  have htv : t.val = (i 0).val / 5000 := rfl
  obtain ⟨e0, e1⟩ := idx3_4 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- WHAT POINT `t` WRITES BACK is block `t` of `G3` of the arrays as the region finds them. -/
theorem flushed3_eq (c : Dev nD) (t : Fin cfg3.N) :
    (dat3 (F := Ideal) V c).flushed 4 t
      = ((cfg3.win 4).blk t).view.read (Elt Ideal) (G3 (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x96) hz, View.ld_unit_zero (S := S96x64) hz, View.ld_unit_zero (S := S1x64) hz]
  obtain ⟨e0, e1⟩ := idx3_4 t
  funext j
  rw [View.read_apply, cast_eq]
  have hj0 : (j 0).val < 5000 := (j 0).isLt
  have hj1 : (j 1).val < 64 := (j 1).isLt
  have ht : t.val < 10 := t.isLt
  have hx : (cfg3.win 4).xinj (grid3.coords t) j = ix2 (⟨(j 0).val, hj0⟩ : Fin 5000) (⟨(j 1).val, hj1⟩ : Fin 64) :=
    funext fun a => Fin.ext (by match a with | ⟨0, _⟩ => rfl | ⟨1, _⟩ => rfl)
  have hy : ((cfg3.win 4).blk t).view.emb j
      = ix2 (⟨t.val * 5000 + (j 0).val, by omega⟩ : Fin 50000) (⟨(j 1).val, hj1⟩ : Fin 64) :=
    funext fun a => Fin.ext (by
      match a with
      | ⟨0, _⟩ => show win3_4.index t (0 : Fin 2) * 5000 + 1 * (j 0).val = t.val * 5000 + (j 0).val; omega
      | ⟨1, _⟩ => show win3_4.index t (1 : Fin 2) * 64 + 1 * (j 1).val = (j 1).val; omega)
  refine (congrArg (k3_pay1 (F := Ideal) (iblk3 V c 0 t) (iblk3 V c 1 t) (iblk3 V c 2 t) (iblk3 V c 3 t)) hx).trans ?_
  refine Eq.trans ?_ (congrArg (G3 (V c (Pipeline.arrRef spec3 0)) (V c (Pipeline.arrRef spec3 1)) (V c (Pipeline.arrRef spec3 2)) (V c (Pipeline.arrRef spec3 3))) hy).symm
  exact point3 _ _ _ _ (iblk3 V c 0 t) (iblk3 V c 1 t) (iblk3 V c 2 t) (iblk3 V c 3 t) _ _ _
    (iblk3_0_apply V c t _ _ _ rfl) (fun k => iblk3_1_apply V c t _ k _ rfl) (fun k => iblk3_2_apply V c t k _) (iblk3_3_apply V c t _ _)

/-- THE ARRAY after region 3: `max((agg + h · w) + b, zero word)`, index by index. -/
theorem region3_value (c : Dev nD) :
    (dat3 (F := Ideal) V c).arrAt 4 cfg3.N = G3 (V c (Pipeline.arrRef spec3 0)) (V c (Pipeline.arrRef spec3 1)) (V c (Pipeline.arrRef spec3 2)) (V c (Pipeline.arrRef spec3 3)) :=
  (dat3 (F := Ideal) V c).arrAt_eq_of_cover 4 (G3 (V c (Pipeline.arrRef spec3 0)) (V c (Pipeline.arrRef spec3 1)) (V c (Pipeline.arrRef spec3 2)) (V c (Pipeline.arrRef spec3 3)))
    (fun t _ => flushed3_eq V c t) cover3

end Cert.KernelIdeal.RegionValue

end
-- ==== Proof.KRegion4.lean ====
/- Region 4 of the idealized kernel: the projection of the 50000 rows of a [50000, 64] array by a [64, 64] weight, computed
   in ten blocks of 5000 rows. The body's payload at an index is the sum over the contracted axis of the products (the narrowing
   format changes are the identity at the ideal values; the same-shape casts are the identity); each point writes back block `t` of one whole-array
   function `G4`; the ten blocks cover the output array, so it ends holding `G4` of the arrays as the region finds them. -/
import proofs.«130328_j64690797412362_2_alg».proof.Proof.KRegionLib

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- What the region's output array ends holding, as one function of the input array and the weight, index by index. -/
abbrev G4 (A0 : S50000x64.Idx → EReal) (A1 : S64x64.Idx → EReal) : S50000x64.Idx → EReal :=
  fun i => ∑ k : Fin 64, A0 (ix2 (i 0) k) * A1 (ix2 k (i 1))

/-- The body's payload at row `p`, column `q` of its block: the sum over `k` of the input block's row times the weight's column. -/
theorem pay4_apply (x : Vec Ideal S5000x64 .f32) (w : Vec Ideal S64x64 .f32) (p : Fin 5000) (q : Fin 64) :
    k4_pay1 (F := Ideal) x w (ix2 p q) = ∑ k : Fin 64, x (ix2 p k) * w (ix2 k q) := by
  unfold k4_pay1
  simp only [shapeCast_self]
  exact matmulC_apply _ _ p q

/-- Window 0's printed index map, decided over the grid: block `(t, 0)` at point `t`. -/
theorem idx4_0 : ∀ t : Fin cfg4.N, win4_0.index t (0 : Fin 2) = t.val ∧ win4_0.index t (1 : Fin 2) = 0 :=
  (by decide +kernel : ∀ t : Fin grid4.N, _)

/-- Window 0's block at point `t` is rows `5000 t … 5000 t + 4999` of its array. -/
theorem iblk4_0_apply (c : Dev nD) (t : Fin cfg4.N) (p : Fin 5000) (k : Fin 64) (r : Fin 50000)
    (hr : r.val = t.val * 5000 + p.val) :
    (iblk4 V c 0 t : Vec Ideal S5000x64 .f32) (ix2 p k) = (V c (Pipeline.arrRef spec4 0) : S50000x64.Idx → EReal) (ix2 r k) := by
  obtain ⟨e0, e1⟩ := idx4_0 t
  unfold iblk4
  rw [View.read_apply, cast_eq]
  refine congrArg (V c (Pipeline.arrRef spec4 0)) (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- Window 1's printed index map, decided over the grid: block `(0, 0)` at point `t`. -/
theorem idx4_1 : ∀ t : Fin cfg4.N, win4_1.index t (0 : Fin 2) = 0 ∧ win4_1.index t (1 : Fin 2) = 0 :=
  (by decide +kernel : ∀ t : Fin grid4.N, _)

/-- Window 1's block at every point is its whole [64, 64] array. -/
theorem iblk4_1_apply (c : Dev nD) (t : Fin cfg4.N) (k : Fin 64) (q : Fin 64) :
    (iblk4 V c 1 t : Vec Ideal S64x64 .f32) (ix2 k q) = (V c (Pipeline.arrRef spec4 1) : S64x64.Idx → EReal) (ix2 k q) := by
  obtain ⟨e0, e1⟩ := idx4_1 t
  unfold iblk4
  rw [View.read_apply, cast_eq]
  refine congrArg (V c (Pipeline.arrRef spec4 1)) (funext fun a => Fin.ext ?_)
  match a with
  | ⟨0, _⟩ => show win4_1.index t (0 : Fin 2) * 64 + 1 * k.val = k.val; omega
  | ⟨1, _⟩ => show win4_1.index t (1 : Fin 2) * 64 + 1 * q.val = q.val; omega

/-- The payload of blocks that are row `r` of `A0` at block row `p` and all of `A1`, at row `p`, column `q`: `G4` at
    row `r`. Stated over variables of the block types; instantiated at a point's blocks below. -/
theorem point4 (A0 : S50000x64.Idx → EReal) (A1 : S64x64.Idx → EReal)
    (x0 : Vec Ideal S5000x64 .f32) (x1 : Vec Ideal S64x64 .f32) (p : Fin 5000) (q : Fin 64) (r : Fin 50000)
    (h0 : ∀ k : Fin 64, x0 (ix2 p k) = A0 (ix2 r k))
    (h1 : ∀ k : Fin 64, x1 (ix2 k q) = A1 (ix2 k q)) :
    k4_pay1 (F := Ideal) x0 x1 (ix2 p q) = G4 A0 A1 (ix2 r q) := by
  rw [pay4_apply]
  exact Finset.sum_congr rfl fun k _ => by rw [h0 k, h1 k]

/-- Window 2's printed index map, decided over the grid: block `(t, 0)` at point `t`. -/
theorem idx4_2 : ∀ t : Fin cfg4.N, win4_2.index t (0 : Fin 2) = t.val ∧ win4_2.index t (1 : Fin 2) = 0 :=
  (by decide +kernel : ∀ t : Fin grid4.N, _)

/-- An index of the array is in point `t`'s block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v43).slice (win4_2.rect t)).set ↔ _
  rw [View.set_slice_whole, Rect.mem_set_unit]
  exact Iff.rfl

/-- Every row is in the block of the point `row / 5000`: the ten blocks cover the array. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  have htv : t.val = (i 0).val / 5000 := rfl
  obtain ⟨e0, e1⟩ := idx4_2 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- WHAT POINT `t` WRITES BACK is block `t` of `G4` of the arrays as the region finds them. -/
theorem flushed4_eq (c : Dev nD) (t : Fin cfg4.N) :
    (dat4 (F := Ideal) V c).flushed 2 t
      = ((cfg4.win 2).blk t).view.read (Elt Ideal) (G4 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1⟩ := idx4_2 t
  funext j
  rw [View.read_apply, cast_eq]
  have hj0 : (j 0).val < 5000 := (j 0).isLt
  have hj1 : (j 1).val < 64 := (j 1).isLt
  have ht : t.val < 10 := t.isLt
  have hx : (cfg4.win 2).xinj (grid4.coords t) j = ix2 (⟨(j 0).val, hj0⟩ : Fin 5000) (⟨(j 1).val, hj1⟩ : Fin 64) :=
    funext fun a => Fin.ext (by match a with | ⟨0, _⟩ => rfl | ⟨1, _⟩ => rfl)
  have hy : ((cfg4.win 2).blk t).view.emb j
      = ix2 (⟨t.val * 5000 + (j 0).val, by omega⟩ : Fin 50000) (⟨(j 1).val, hj1⟩ : Fin 64) :=
    funext fun a => Fin.ext (by
      match a with
      | ⟨0, _⟩ => show win4_2.index t (0 : Fin 2) * 5000 + 1 * (j 0).val = t.val * 5000 + (j 0).val; omega
      | ⟨1, _⟩ => show win4_2.index t (1 : Fin 2) * 64 + 1 * (j 1).val = (j 1).val; omega)
  refine (congrArg (k4_pay1 (F := Ideal) (iblk4 V c 0 t) (iblk4 V c 1 t)) hx).trans ?_
  refine Eq.trans ?_ (congrArg (G4 (V c (Pipeline.arrRef spec4 0)) (V c (Pipeline.arrRef spec4 1))) hy).symm
  exact point4 _ _ (iblk4 V c 0 t) (iblk4 V c 1 t) _ _ _
    (fun k => iblk4_0_apply V c t _ k _ rfl) (fun k => iblk4_1_apply V c t k _)

/-- THE ARRAY after region 4: the projection of the input array by the weight, index by index. -/
theorem region4_value (c : Dev nD) :
    (dat4 (F := Ideal) V c).arrAt 2 cfg4.N = G4 (V c (Pipeline.arrRef spec4 0)) (V c (Pipeline.arrRef spec4 1)) :=
  (dat4 (F := Ideal) V c).arrAt_eq_of_cover 2 (G4 (V c (Pipeline.arrRef spec4 0)) (V c (Pipeline.arrRef spec4 1)))
    (fun t _ => flushed4_eq V c t) cover4

end Cert.KernelIdeal.RegionValue

end
-- ==== Proof.KernelValue.lean ====
import proofs.«130328_j64690797412362_2_alg».proof.Proof.KernelSpec
import proofs.«130328_j64690797412362_2_alg».proof.Proof.KernelPass
import proofs.«130328_j64690797412362_2_alg».proof.Proof.KernelRun
import proofs.«130328_j64690797412362_2_alg».proof.Proof.KRegion0
import proofs.«130328_j64690797412362_2_alg».proof.Proof.KRegion1
import proofs.«130328_j64690797412362_2_alg».proof.Proof.KRegion2
import proofs.«130328_j64690797412362_2_alg».proof.Proof.KRegion3
import proofs.«130328_j64690797412362_2_alg».proof.Proof.KRegion4

/-!
The contents of the idealized kernel's buffers at the segment boundaries, walked forward from the launch memory: each
stretch's operations applied to what the previous boundary holds, each region's output array at the region's function of
its input arrays. At the last boundary the two results are the two halves of the head's output.
-/

set_option maxRecDepth 16384

noncomputable section

namespace Cert.KernelIdeal.KValue

open Cert.KernelIdeal Cert.KernelIdeal.Gen Cert.KernelIdeal.Chain Cert.KernelIdeal.Pass Cert.KernelIdeal.KSpec
open Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem src1 : W1 m ρ c (Proc.devRef .tc main_v1) = edgeRow0 (m ((c : Thread nD τ).loc main_arg1)) :=
  stretch0_v1 (W0 m ρ c)
theorem dst1 : W1 m ρ c (Proc.devRef .tc main_v3) = edgeRow1 (m ((c : Thread nD τ).loc main_arg1)) :=
  stretch0_v3 (W0 m ρ c)

theorem p1 : W2 m ρ c (Proc.devRef .tc main_v4)
    = proj (m ((c : Thread nD τ).loc main_arg0)) (m ((c : Thread nD τ).loc main_arg2)) := by
  refine (W2_arr m ρ c 2).trans ((region0_value (V1 m ρ) c).trans ?_)
  show G0 (W1 m ρ c (Proc.devRef .tc main_arg0)) (W1 m ρ c (Proc.devRef .tc main_arg2)) = _
  rw [W1_arg0_from0 m ρ c, W1_arg2_from0 m ρ c]
  rfl

theorem agg1 : W3 m ρ c (Proc.devRef .tc main_v14)
    = nsum96 (proj (m ((c : Thread nD τ).loc main_arg0)) (m ((c : Thread nD τ).loc main_arg2)))
        (edgeRow0 (m ((c : Thread nD τ).loc main_arg1))) (edgeRow1 (m ((c : Thread nD τ).loc main_arg1))) := by
  refine (stretch1_v14 (W2 m ρ c)).trans ?_
  rw [p1 m ρ c, W2_v1_from1 m ρ c, W2_v3_from1 m ρ c, src1 m ρ c, dst1 m ρ c]

theorem b1row : W3 m ρ c (Proc.devRef .tc main_v15) = row96 (m ((c : Thread nD τ).loc main_arg4)) := by
  refine (stretch1_v15 (W2 m ρ c)).trans ?_
  rw [W2_arg4_from0 m ρ c]
  rfl

theorem ssl8 : W8 m ρ c (Proc.devRef .tc main_v31) = withLoops (edgeRow0 (m ((c : Thread nD τ).loc main_arg1))) := by
  refine (stretch4_v31 (W7 m ρ c)).trans ?_
  rw [W7_v1_from1 m ρ c, src1 m ρ c]
theorem dsl8 : W8 m ρ c (Proc.devRef .tc main_v32) = withLoops (edgeRow1 (m ((c : Thread nD τ).loc main_arg1))) := by
  refine (stretch4_v32 (W7 m ρ c)).trans ?_
  rw [W7_v3_from1 m ρ c, dst1 m ρ c]
theorem dinv9 : W9 m ρ c (Proc.devRef .tc main_v40) = dinvK (m ((c : Thread nD τ).loc main_arg1)) := by
  have e38 : W8 m ρ c (Proc.devRef .tc main_v38) = _ := stretch4_v38 (W7 m ρ c)
  have e39 : W8 m ρ c (Proc.devRef .tc main_v39) = _ := stretch4_v39 (W7 m ρ c)
  have e7 : W8 m ρ c (Proc.devRef .tc main_cst_7) = _ := stretch4_cst7 (W7 m ρ c)
  rw [W7_v3_from1 m ρ c, dst1 m ρ c] at e38 e39
  refine (stretch41_v40 (W8 m ρ c)).trans ?_
  rw [e38, e39, e7]
  rfl
theorem wcat10 : W10 m ρ c (Proc.devRef .tc main_v41) = wcat (m ((c : Thread nD τ).loc main_arg8)) (m ((c : Thread nD τ).loc main_arg10)) := by
  refine (stretch42_v41 (W9 m ρ c)).trans ?_
  rw [W9_arg8_from0 m ρ c, W9_arg10_from0 m ρ c]
  rfl
theorem bcat10 : W10 m ρ c (Proc.devRef .tc main_v42) = bcat (m ((c : Thread nD τ).loc main_arg9)) (m ((c : Thread nD τ).loc main_arg11)) := by
  refine (stretch42_v42 (W9 m ρ c)).trans ?_
  rw [W9_arg9_from0 m ρ c, W9_arg11_from0 m ρ c]
  rfl

theorem h1 : W4 m ρ c (Proc.devRef .tc main_v16) = h1K (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 4).trans ((region1_value (V3 m ρ) c).trans ?_)
  show G1 (W3 m ρ c (Proc.devRef .tc main_v14)) (W3 m ρ c (Proc.devRef .tc main_arg0)) (W3 m ρ c (Proc.devRef .tc main_arg3)) (W3 m ρ c (Proc.devRef .tc main_v15)) = _
  rw [agg1 m ρ c, b1row m ρ c, W3_arg0_from0 m ρ c, W3_arg3_from0 m ρ c]
  rfl
theorem p2 : W5 m ρ c (Proc.devRef .tc main_v17) = proj (h1K (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W5_arr m ρ c 2).trans ((region2_value (V4 m ρ) c).trans ?_)
  show G2 (W4 m ρ c (Proc.devRef .tc main_v16)) (W4 m ρ c (Proc.devRef .tc main_arg5)) = _
  rw [h1 m ρ c, W4_arg5_from0 m ρ c]
  rfl
theorem agg2 : W6 m ρ c (Proc.devRef .tc main_v27)
    = nsum64 (proj (h1K (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (edgeRow0 (m ((c : Thread nD τ).loc main_arg1))) (edgeRow1 (m ((c : Thread nD τ).loc main_arg1))) := by
  refine (stretch3_v27 (W5 m ρ c)).trans ?_
  rw [p2 m ρ c, W5_v1_from1 m ρ c, W5_v3_from1 m ρ c, src1 m ρ c, dst1 m ρ c]
theorem b2row : W6 m ρ c (Proc.devRef .tc main_v28) = row64 (m ((c : Thread nD τ).loc main_arg7)) := by
  refine (stretch3_v28 (W5 m ρ c)).trans ?_
  rw [W5_arg7_from0 m ρ c]
  rfl
theorem h2 : W7 m ρ c (Proc.devRef .tc main_v29) = h2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 4).trans ((region3_value (V6 m ρ) c).trans ?_)
  show G3 (W6 m ρ c (Proc.devRef .tc main_v27)) (W6 m ρ c (Proc.devRef .tc main_v16)) (W6 m ρ c (Proc.devRef .tc main_arg6)) (W6 m ρ c (Proc.devRef .tc main_v28)) = _
  rw [agg2 m ρ c, b2row m ρ c, W6_v16_from4 m ρ c, h1 m ρ c, W6_arg6_from0 m ρ c]
  rfl
theorem z11 : W11 m ρ c (Proc.devRef .tc main_v43) = proj (h2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (wcat (m ((c : Thread nD τ).loc main_arg8)) (m ((c : Thread nD τ).loc main_arg10))) := by
  refine (W11_arr m ρ c 2).trans ((region4_value (V10 m ρ) c).trans ?_)
  show G4 (W10 m ρ c (Proc.devRef .tc main_v29)) (W10 m ρ c (Proc.devRef .tc main_v41)) = _
  rw [W10_v29_from7 m ρ c, h2 m ρ c, wcat10 m ρ c]
  rfl

/-- The first result is the left half of the head's output. -/
theorem out63 : W12 m ρ c (Proc.devRef .tc main_v63)
    = extractStridedSlice S50000x32 ![0, 0] (outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) slices_S50000x64_S50000x32_0_0 := by
  refine (stretch5_v63 (W11 m ρ c)).trans ?_
  rw [W11_v40_from9 m ρ c, dinv9 m ρ c, z11 m ρ c, W11_v31_from8 m ρ c, ssl8 m ρ c, W11_v32_from8 m ρ c, dsl8 m ρ c,
    W11_v42_from10 m ρ c, bcat10 m ρ c]
  rfl
/-- The second result is the right half. -/
theorem out64 : W12 m ρ c (Proc.devRef .tc main_v64)
    = extractStridedSlice S50000x32 ![0, 32] (outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) slices_S50000x64_S50000x32_0_32 := by
  refine (stretch5_v64 (W11 m ρ c)).trans ?_
  rw [W11_v40_from9 m ρ c, dinv9 m ρ c, z11 m ρ c, W11_v31_from8 m ρ c, ssl8 m ρ c, W11_v32_from8 m ρ c, dsl8 m ρ c,
    W11_v42_from10 m ρ c, bcat10 m ρ c]
  rfl

end Cert.KernelIdeal.KValue

end
-- ==== Proof.LibGraphSpec.lean ====
import Mathlib.Algebra.BigOperators.Fin
import Mathlib.Algebra.BigOperators.Ring.Finset
import Mathlib.Algebra.Order.BigOperators.Ring.Finset
import Mathlib.Data.Real.Basic

/-!
# A two-layer neighbourhood-sum network and a degree-normalised head, over the reals

`N` nodes carry feature rows; `E` edges each read one node's row (`g e`) and are summed into the rows of the nodes they
land on (`S i` is the set of edges landing on node `i`).  A layer multiplies by two weight matrices, adds a bias and
clips at zero.  Summing the neighbours' rows and then multiplying by a matrix is the same as multiplying every row
first and then summing (`agg_mm`): both are the double sum `∑ e ∈ S i, ∑ k, x (g e) k * w k j`.  In the head every
edge's contribution is scaled by `d (g e) * d (gd e)`; when every edge landing on `i` has `gd e = i` the factor
`d i` leaves the sum (`head_eq`).
-/

open scoped BigOperators

namespace GraphSpec

variable {N E K C : ℕ}

/-- The matrix product of feature rows with a weight matrix. -/
def mm (x : Fin N → Fin K → ℝ) (w : Fin K → Fin C → ℝ) (i : Fin N) (j : Fin C) : ℝ := ∑ k, x i k * w k j

/-- The neighbourhood sum: over the edges landing on node `i`, the row each edge reads. -/
def agg (S : Fin N → Finset (Fin E)) (g : Fin E → Fin N) (x : Fin N → Fin C → ℝ) (i : Fin N) (j : Fin C) : ℝ :=
  ∑ e ∈ S i, x (g e) j

/-- Multiplying every row and then summing the neighbours is summing the neighbours and then multiplying. -/
theorem agg_mm (S : Fin N → Finset (Fin E)) (g : Fin E → Fin N) (x : Fin N → Fin K → ℝ) (w : Fin K → Fin C → ℝ)
    (i : Fin N) (j : Fin C) : agg S g (mm x w) i j = mm (agg S g x) w i j := by
  unfold agg mm
  rw [Finset.sum_comm]
  exact Finset.sum_congr rfl fun k _ => (Finset.sum_mul _ _ _).symm

/-- A layer that sums the neighbours' rows first: `max ((agg x · wr + x · wroot) + b) 0`. -/
def layerRef (S : Fin N → Finset (Fin E)) (g : Fin E → Fin N) (x : Fin N → Fin K → ℝ) (wr wroot : Fin K → Fin C → ℝ)
    (b : Fin C → ℝ) (i : Fin N) (j : Fin C) : ℝ :=
  max ((mm (agg S g x) wr i j + mm x wroot i j) + b j) 0

/-- The same layer multiplying by `wr` before summing the neighbours. -/
def layerKer (S : Fin N → Finset (Fin E)) (g : Fin E → Fin N) (x : Fin N → Fin K → ℝ) (wr wroot : Fin K → Fin C → ℝ)
    (b : Fin C → ℝ) (i : Fin N) (j : Fin C) : ℝ :=
  max ((agg S g (mm x wr) i j + mm x wroot i j) + b j) 0

theorem layerKer_eq (S : Fin N → Finset (Fin E)) (g : Fin E → Fin N) (x : Fin N → Fin K → ℝ) (wr wroot : Fin K → Fin C → ℝ)
    (b : Fin C → ℝ) : layerKer S g x wr wroot b = layerRef S g x wr wroot b := by
  funext i j
  unfold layerKer layerRef
  rw [agg_mm]

/-- The head with the normalisation on every edge: `(∑ e ∈ S i, z (g e) j * (d (g e) * d (gd e))) + b j`. -/
def headRef (S : Fin N → Finset (Fin E)) (g gd : Fin E → Fin N) (d : Fin N → ℝ) (z : Fin N → Fin C → ℝ) (b : Fin C → ℝ)
    (i : Fin N) (j : Fin C) : ℝ :=
  (∑ e ∈ S i, z (g e) j * (d (g e) * d (gd e))) + b j

/-- The head with the normalisation on the nodes, before and after the sum: `d i * (∑ e ∈ S i, d (g e) * z (g e) j) + b j`. -/
def headKer (S : Fin N → Finset (Fin E)) (g : Fin E → Fin N) (d : Fin N → ℝ) (z : Fin N → Fin C → ℝ) (b : Fin C → ℝ)
    (i : Fin N) (j : Fin C) : ℝ :=
  d i * (∑ e ∈ S i, d (g e) * z (g e) j) + b j

theorem headKer_eq (S : Fin N → Finset (Fin E)) (g gd : Fin E → Fin N) (d : Fin N → ℝ) (z : Fin N → Fin C → ℝ) (b : Fin C → ℝ)
    (h : ∀ i, ∀ e ∈ S i, gd e = i) : headKer S g d z b = headRef S g gd d z b := by
  funext i j
  unfold headKer headRef
  rw [Finset.mul_sum]
  congr 1
  refine Finset.sum_congr rfl fun e he => ?_
  rw [h i e he]
  ring

end GraphSpec
-- ==== Proof.LibERealSum.lean ====
/-
  Sums of real numbers inside the extended reals.

  The coercion `ℝ → EReal` is additive, so it commutes with every finite sum: a finite sum of
  extended reals each of which is (the image of) a real number is the image of the real sum.  In
  particular such a sum is neither `⊥` nor `⊤`.
-/
import Mathlib.Data.EReal.Basic
import Mathlib.Algebra.BigOperators.Group.Finset.Basic

namespace Cert.Gcn.ERealSum

open scoped BigOperators

/-- The coercion of a finite sum of reals is the sum of the coercions, read from right to left:
    `∑ i ∈ s, (f i : EReal) = ((∑ i ∈ s, f i : ℝ) : EReal)`. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum whose terms are all real is real: if `g i = (f i : EReal)` on `s`, then
    `∑ i ∈ s, g i = ((∑ i ∈ s, f i : ℝ) : EReal)`. -/
theorem sum_eq_coe {ι : Type*} (s : Finset ι) (g : ι → EReal) (f : ι → ℝ)
    (h : ∀ i ∈ s, g i = ((f i : ℝ) : EReal)) :
    (∑ i ∈ s, g i) = ((∑ i ∈ s, f i : ℝ) : EReal) := by
  rw [Finset.sum_congr rfl h, sum_coe]

/-- A sum of `1`s over a finite set is its cardinality, as a real inside the extended reals. -/
theorem sum_one (ι : Type*) (s : Finset ι) :
    (∑ _i ∈ s, ((1 : ℝ) : EReal)) = (((s.card : ℕ) : ℝ) : EReal) := by
  rw [sum_coe s (fun _ => (1 : ℝ))]; simp

end Cert.Gcn.ERealSum
-- ==== Proof.KernelClosed.lean ====
import proofs.«130328_j64690797412362_2_alg».proof.Proof.KernelSpec
import proofs.«130328_j64690797412362_2_alg».proof.Proof.LibGraphSpec
import proofs.«130328_j64690797412362_2_alg».proof.Proof.LibERealSum
import proofs.«130328_j64690797412362_2_alg».proof.Proof.LibRowGatherScatter
import Idealize.ShloMosaic.Lib.IdealHost
import Idealize.ShloMosaic.Lib.Pipeline.Value

/-!
The idealized kernel's result in closed form over the reals.

When every argument array holds real numbers, each stage of the kernel's result holds real numbers too, and they are
the ones a two-layer neighbourhood-sum network computes: a row gather followed by a row scatter-add into a zero array
is the sum, over the edges landing on a node, of the row each edge reads; a projection is a matrix product; a layer's
closing region is the clip at zero of sum plus product plus bias; and the head scales by the degree norm before and
after the neighbourhood sum with self-loops and adds the bias.  The edge list enters only through two maps read off
the kernel's own index arrays: the node an edge reads (its start word, read signed and clamped into the node range)
and the set of edges landing on a node (those whose scatter word, read signed, is the node's number).
-/

noncomputable section

open scoped BigOperators

namespace Cert.KernelIdeal.Closed

open Cert.KernelIdeal Cert.KernelIdeal.Gen Cert.KernelIdeal.Chain Cert.KernelIdeal.KSpec
open Idealize.ShloMosaic Idealize.ShloMosaic.ValueIdx RowGS

/-! ## The edge list as two maps, read off the kernel's own index arrays -/

/-- The node edge `e` reads: its start word, read signed and clamped into the node range. -/
def srcRowK (a1 : IVec S2x600000 32) : Fin 600000 → Fin 50000 :=
  fun e => clampRow 50000 (by decide) (wrapCol (F := Ideal) (edgeRow0 a1) (ix2 e 0))
/-- The edges landing on node `i`: those whose scatter word, read signed, is `i`. -/
def dstSetK (a1 : IVec S2x600000 32) : Fin 50000 → Finset (Fin 600000) :=
  fun i => Finset.univ.filter (fun e => (col (F := Ideal) (edgeRow1 a1) (ix2 e 0)).toInt = (i.val : ℤ))
/-- The node edge `e` of the list with self-loops reads. -/
def srcRowSLK (a1 : IVec S2x600000 32) : Fin 650000 → Fin 50000 :=
  fun e => clampRow 50000 (by decide) (wrapColSL (F := Ideal) (withLoops (edgeRow0 a1)) (ix2 e 0))
/-- The edges of the list with self-loops landing on node `i`. -/
def dstSetSLK (a1 : IVec S2x600000 32) : Fin 50000 → Finset (Fin 650000) :=
  fun i => Finset.univ.filter (fun e =>
    ((broadcastInDim S650000x1 ![0] bcast_S650000_S650000x1_0 (withLoops (F := Ideal) (edgeRow1 a1)) : IVec S650000x1 32)
      (ix2 e 0)).toInt = (i.val : ℤ))

/-! ## Broadcasts read at an index (generic sizes) -/

section Bcast
variable {α : Type}

/-- A flat array `[N]` laid out as a column `[N, 1]` reads its entry `i` at `(i, 0)`. -/
theorem bcastCol_apply {N : ℕ} (h : (⟨1, ![N]⟩ : Shape).BroadcastsInDim ⟨2, ![N, 1]⟩ ![0])
    (x : (⟨1, ![N]⟩ : Shape).Idx → α) (i : Fin N) :
    broadcastInDim ⟨2, ![N, 1]⟩ ![0] h x (ix2 i 0) = x (ix1 i) := by
  refine broadcastInDim_apply _ h x (ix2 i 0) (ix1 i) fun a => ?_
  match a with
  | ⟨0, _⟩ =>
    show i.val = if N = 1 then 0 else i.val
    have := i.isLt
    split <;> omega

/-- A column `[N, 1]` spread along `C` columns reads its entry `(i, 0)` at `(i, j)`. -/
theorem bcastAlongCols_apply {N C : ℕ} (h : (⟨2, ![N, 1]⟩ : Shape).BroadcastsInDim ⟨2, ![N, C]⟩ ![0, 1])
    (x : (⟨2, ![N, 1]⟩ : Shape).Idx → α) (i : Fin N) (j : Fin C) :
    broadcastInDim ⟨2, ![N, C]⟩ ![0, 1] h x (ix2 i j) = x (ix2 i 0) := by
  refine broadcastInDim_apply _ h x (ix2 i j) (ix2 i 0) fun a => ?_
  match a with
  | ⟨0, _⟩ =>
    show i.val = if N = 1 then 0 else i.val
    have := i.isLt
    split <;> omega
  | ⟨1, _⟩ =>
    show 0 = if (1 : ℕ) = 1 then 0 else j.val
    rw [if_pos rfl]

/-- A flat array `[C]` laid out as a row `[1, C]` reads its entry `j` at `(0, j)`. -/
theorem bcastRow_apply {C : ℕ} (h : (⟨1, ![C]⟩ : Shape).BroadcastsInDim ⟨2, ![1, C]⟩ ![1])
    (x : (⟨1, ![C]⟩ : Shape).Idx → α) (j : Fin C) :
    broadcastInDim ⟨2, ![1, C]⟩ ![1] h x (ix2 0 j) = x (ix1 j) := by
  refine broadcastInDim_apply _ h x (ix2 0 j) (ix1 j) fun a => ?_
  match a with
  | ⟨0, _⟩ =>
    show j.val = if C = 1 then 0 else j.val
    have := j.isLt
    split <;> omega

/-- A row `[1, C]` spread along `N` rows reads its entry `(0, j)` at `(i, j)`. -/
theorem bcastAlongRows_apply {N C : ℕ} (h : (⟨2, ![1, C]⟩ : Shape).BroadcastsInDim ⟨2, ![N, C]⟩ ![0, 1])
    (x : (⟨2, ![1, C]⟩ : Shape).Idx → α) (i : Fin N) (j : Fin C) :
    broadcastInDim ⟨2, ![N, C]⟩ ![0, 1] h x (ix2 i j) = x (ix2 0 j) := by
  refine broadcastInDim_apply _ h x (ix2 i j) (ix2 0 j) fun a => ?_
  match a with
  | ⟨0, _⟩ =>
    show 0 = if (1 : ℕ) = 1 then 0 else i.val
    rw [if_pos rfl]
  | ⟨1, _⟩ =>
    show j.val = if C = 1 then 0 else j.val
    have := j.isLt
    split <;> omega

/-- A flat array `[C]` viewed as a one-row matrix `[1, C]` reads its entry `j` at `(0, j)`. -/
theorem rowCast_apply {C : ℕ} (h : (⟨1, ![C]⟩ : Shape).ShapeCasts ⟨2, ![1, C]⟩)
    (x : (⟨1, ![C]⟩ : Shape).Idx → α) (j : Fin C) :
    shapeCast ⟨2, ![1, C]⟩ x h (ix2 0 j) = x (ix1 j) := by
  refine shapeCast_apply x h (ix2 0 j) (ix1 j) ?_
  rw [Shape.rowMajor_val_one, Shape.rowMajor_val_two]
  show j.val = 0 * _ + j.val
  omega

end Bcast

/-! ## Gather then scatter-add into a constant array, read at an index (generic sizes) -/

/-- The neighbourhood sum at `(i, j)`: a row gather of `p` at the start column `sc`, scatter-added at the scatter
    column `dc` into the array that holds the constant `b0` everywhere, is the constant plus the sum, over the edges
    `e` whose scatter word is `i`, of `p` at the row edge `e` reads and column `j`. -/
theorem gatherScatter_apply {N E C w w' : ℕ} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hb : (⟨0, ![]⟩ : Shape).BroadcastsInDim ⟨2, ![N, C]⟩ ![]) (b0 : BitVec 32)
    (p : FVec Ideal ⟨2, ![N, C]⟩ .f32) (sc : IVec ⟨2, ![E, 1]⟩ w) (dc : IVec ⟨2, ![E, 1]⟩ w') (i : Fin N) (j : Fin C) :
    Host.scatterAdd (F := Ideal) (φ := .f32) (scatterRows N E C swf)
        (broadcastInDim ⟨2, ![N, C]⟩ ![] hb (constant (F := Ideal) ⟨0, ![]⟩ .f32 b0)) dc
        (Host.gather (gatherRows N E C gwf) p sc) (ix2 i j)
      = Ideal.ofBits .f32 b0 + ∑ e ∈ Finset.univ.filter (fun e : Fin E => (dc (ix2 e 0)).toInt = (i.val : ℤ)),
          p (ix2 (clampRow N hN (sc (ix2 e 0))) j) := by
  refine (scatterAddRows_apply swf _ dc _ i j).trans (congrArg₂ (· + ·) ?_ ?_)
  · rw [broadcastInDim_scalar_apply]
    rfl
  · exact Finset.sum_congr rfl fun e _ => gatherRows_apply hN gwf p sc e j

/-! ## The kernel's host stages read at an index -/

/-- The 96-wide neighbourhood sum at `(i, j)`: zero plus the sum, over the edges whose scatter word is `i`, of
    `p` at the row the edge reads. -/
theorem nsum96_apply (p : FVec Ideal S50000x96 .f32) (s d : IVec S600000 32) (i : Fin 50000) (j : Fin 96) :
    nsum96 (F := Ideal) p s d (ix2 i j)
      = Ideal.ofBits .f32 0x00000000#32
        + ∑ e ∈ Finset.univ.filter (fun e : Fin 600000 => (col (F := Ideal) d (ix2 e 0)).toInt = (i.val : ℤ)),
            p (ix2 (clampRow 50000 (by decide) (wrapCol (F := Ideal) s (ix2 e 0))) j) :=
  gatherScatter_apply (by decide) _ _ _ _ p (wrapCol (F := Ideal) s) (col (F := Ideal) d) i j

/-- The 64-wide neighbourhood sum at `(i, j)`. -/
theorem nsum64_apply (p : FVec Ideal S50000x64 .f32) (s d : IVec S600000 32) (i : Fin 50000) (j : Fin 64) :
    nsum64 (F := Ideal) p s d (ix2 i j)
      = Ideal.ofBits .f32 0x00000000#32
        + ∑ e ∈ Finset.univ.filter (fun e : Fin 600000 => (col (F := Ideal) d (ix2 e 0)).toInt = (i.val : ℤ)),
            p (ix2 (clampRow 50000 (by decide) (wrapCol (F := Ideal) s (ix2 e 0))) j) :=
  gatherScatter_apply (by decide) _ _ _ _ p (wrapCol (F := Ideal) s) (col (F := Ideal) d) i j

/-- A per-node factor spread along the columns reads the node's factor. -/
theorem perNode_apply (d : FVec Ideal S50000 .f32) (i : Fin 50000) (j : Fin 64) :
    perNode (F := Ideal) d (ix2 i j) = d (ix1 i) := by
  unfold perNode
  exact (bcastAlongCols_apply _ _ i j).trans (bcastCol_apply _ d i)

/-- The 64-wide neighbourhood sum over the edge list with self-loops at `(i, j)`, for any start column `sc` and
    scatter column `dc`. -/
theorem slSum_apply (p : FVec Ideal S50000x64 .f32) (sc dc : IVec S650000x1 32) (i : Fin 50000) (j : Fin 64) :
    Host.scatterAdd (F := Ideal) scatter_S50000x64_S650000x1_S650000x64_1_0_0_1
        (broadcastInDim S50000x64 ![] bcast_S_S50000x64 (constant (F := Ideal) S_ .f32 0x00000000#32))
        dc
        (Host.gather gather_S50000x64_S650000x1_S650000x64_1_0_n_n_0_1_164 p sc) (ix2 i j)
      = Ideal.ofBits .f32 0x00000000#32
        + ∑ e ∈ Finset.univ.filter (fun e : Fin 650000 => (dc (ix2 e 0)).toInt = (i.val : ℤ)),
            p (ix2 (clampRow 50000 (by decide) (sc (ix2 e 0))) j) :=
  gatherScatter_apply (by decide) _ _ _ _ p sc dc i j

/-- The head at `(i, j)`: the node's factor times (zero plus the sum, over the edges with self-loops whose scatter
    word is `i`, of the factor and the row of the node the edge reads), plus the bias. -/
theorem head_apply (d : FVec Ideal S50000 .f32) (z : FVec Ideal S50000x64 .f32) (ssl dsl : IVec S650000 32)
    (b : FVec Ideal S64 .f32) (i : Fin 50000) (j : Fin 64) :
    head (F := Ideal) d z ssl dsl b (ix2 i j)
      = d (ix1 i) * (Ideal.ofBits .f32 0x00000000#32
          + ∑ e ∈ Finset.univ.filter (fun e : Fin 650000 =>
              ((broadcastInDim S650000x1 ![0] bcast_S650000_S650000x1_0 dsl : IVec S650000x1 32) (ix2 e 0)).toInt
                = (i.val : ℤ)),
              d (ix1 (clampRow 50000 (by decide) (wrapColSL (F := Ideal) ssl (ix2 e 0))))
                * z (ix2 (clampRow 50000 (by decide) (wrapColSL (F := Ideal) ssl (ix2 e 0))) j))
        + b (ix1 j) := by
  unfold head
  generalize (broadcastInDim S650000x1 ![0] bcast_S650000_S650000x1_0 dsl : IVec S650000x1 32) = dc
  generalize wrapColSL (F := Ideal) ssl = sc
  rw [addf_apply, mulf_apply, perNode_apply, slSum_apply]
  refine congrArg₂ (· + ·) (congrArg (d (ix1 i) * ·) (congrArg (Ideal.ofBits .f32 0x00000000#32 + ·)
    (Finset.sum_congr rfl fun e _ => ?_))) ?_
  · rw [mulf_apply, perNode_apply]
  · exact (bcastAlongRows_apply _ _ i j).trans (bcastRow_apply _ b j)

/-! ## Real entries stay real -/

/-- One entry of a projection whose row of `x` and column of `w` hold reals is the real dot product. -/
theorem proj_coe_col {N K C : ℕ} (x : FVec Ideal ⟨2, ![N, K]⟩ .f32) (w : FVec Ideal ⟨2, ![K, C]⟩ .f32)
    (Xr Wc : Fin K → ℝ) (i : Fin N) (j : Fin C)
    (hx : ∀ k, x (ix2 i k) = ((Xr k : ℝ) : EReal)) (hw : ∀ k, w (ix2 k j) = ((Wc k : ℝ) : EReal)) :
    proj x w (ix2 i j) = ((∑ k, Xr k * Wc k : ℝ) : EReal) := by
  show ∑ k : Fin K, x (ix2 i k) * w (ix2 k j) = _
  rw [← Cert.Gcn.ERealSum.sum_coe]
  refine Finset.sum_congr rfl fun k _ => ?_
  rw [hx, hw, EReal.coe_mul]

/-- A projection of real entries by real weights is the real matrix product. -/
theorem proj_coe {N K C : ℕ} (x : FVec Ideal ⟨2, ![N, K]⟩ .f32) (w : FVec Ideal ⟨2, ![K, C]⟩ .f32)
    (X : Fin N → Fin K → ℝ) (W : Fin K → Fin C → ℝ)
    (hx : ∀ i k, x (ix2 i k) = ((X i k : ℝ) : EReal)) (hw : ∀ k j, w (ix2 k j) = ((W k j : ℝ) : EReal))
    (i : Fin N) (j : Fin C) : proj x w (ix2 i j) = ((GraphSpec.mm X W i j : ℝ) : EReal) :=
  proj_coe_col x w (X i) (fun k => W k j) i j (hx i) (fun k => hw k j)

/-- The maximum of two reals, inside the extended reals. -/
theorem coe_max (a b : ℝ) : ((max a b : ℝ) : EReal) = max (a : EReal) (b : EReal) :=
  EReal.coe_strictMono.monotone.map_max

/-- A layer's closing region on real entries: the clip at zero of sum plus product plus bias, over the reals. -/
theorem epi_coe {N K C : ℕ} (a : FVec Ideal ⟨2, ![N, C]⟩ .f32) (h : FVec Ideal ⟨2, ![N, K]⟩ .f32)
    (w : FVec Ideal ⟨2, ![K, C]⟩ .f32) (b : FVec Ideal ⟨2, ![1, C]⟩ .f32)
    (A : Fin N → Fin C → ℝ) (H : Fin N → Fin K → ℝ) (W : Fin K → Fin C → ℝ) (B : Fin C → ℝ)
    (ha : ∀ i j, a (ix2 i j) = ((A i j : ℝ) : EReal)) (hh : ∀ i k, h (ix2 i k) = ((H i k : ℝ) : EReal))
    (hw : ∀ k j, w (ix2 k j) = ((W k j : ℝ) : EReal)) (hb : ∀ j, b (ix2 0 j) = ((B j : ℝ) : EReal))
    (i : Fin N) (j : Fin C) :
    epi a h w b (ix2 i j) = ((max ((A i j + GraphSpec.mm H W i j) + B j) 0 : ℝ) : EReal) := by
  have hp : ∑ k : Fin K, h (ix2 i k) * w (ix2 k j) = ((GraphSpec.mm H W i j : ℝ) : EReal) := proj_coe h w H W hh hw i j
  show max ((a (ix2 i j) + ∑ k : Fin K, h (ix2 i k) * w (ix2 k j)) + b (ix2 0 j)) (Ideal.ofBits .f32 0x00000000#32) = _
  rw [hp, ha, hb, Ideal.ofBits_zero_f32, coe_max, EReal.coe_add, EReal.coe_add, EReal.coe_zero]

/-- Zero plus a sum of reals is the real sum. -/
theorem zero_add_sum_coe {ι : Type*} (S : Finset ι) (f : ι → ℝ) :
    Ideal.ofBits .f32 0x00000000#32 + ∑ e ∈ S, ((f e : ℝ) : EReal) = ((∑ e ∈ S, f e : ℝ) : EReal) := by
  rw [Ideal.ofBits_zero_f32, zero_add, Cert.Gcn.ERealSum.sum_coe]

/-! ## The neighbourhood sums of real entries -/

/-- The 96-wide neighbourhood sum of real entries is the real neighbourhood sum. -/
theorem nsum96_coe (a1 : IVec S2x600000 32) (p : FVec Ideal S50000x96 .f32) (P : Fin 50000 → Fin 96 → ℝ)
    (hp : ∀ r j, p (ix2 r j) = ((P r j : ℝ) : EReal)) (i : Fin 50000) (j : Fin 96) :
    nsum96 (F := Ideal) p (edgeRow0 a1) (edgeRow1 a1) (ix2 i j)
      = ((GraphSpec.agg (dstSetK a1) (srcRowK a1) P i j : ℝ) : EReal) := by
  rw [nsum96_apply]
  unfold GraphSpec.agg dstSetK srcRowK
  rw [← zero_add_sum_coe]
  exact congrArg (Ideal.ofBits .f32 0x00000000#32 + ·) (Finset.sum_congr rfl fun e _ => hp _ j)

/-- The 64-wide neighbourhood sum of real entries is the real neighbourhood sum. -/
theorem nsum64_coe (a1 : IVec S2x600000 32) (p : FVec Ideal S50000x64 .f32) (P : Fin 50000 → Fin 64 → ℝ)
    (hp : ∀ r j, p (ix2 r j) = ((P r j : ℝ) : EReal)) (i : Fin 50000) (j : Fin 64) :
    nsum64 (F := Ideal) p (edgeRow0 a1) (edgeRow1 a1) (ix2 i j)
      = ((GraphSpec.agg (dstSetK a1) (srcRowK a1) P i j : ℝ) : EReal) := by
  rw [nsum64_apply]
  unfold GraphSpec.agg dstSetK srcRowK
  rw [← zero_add_sum_coe]
  exact congrArg (Ideal.ofBits .f32 0x00000000#32 + ·) (Finset.sum_congr rfl fun e _ => hp _ j)

/-- The head on real entries, read at `(i, c)`: only column `c` of `z` and entry `c` of the bias are read. -/
theorem head_coe (d : FVec Ideal S50000 .f32) (z : FVec Ideal S50000x64 .f32) (a1 : IVec S2x600000 32)
    (b : FVec Ideal S64 .f32) (D Zc : Fin 50000 → ℝ) (Bc : ℝ) (i : Fin 50000) (c : Fin 64)
    (hD : ∀ r, d (ix1 r) = ((D r : ℝ) : EReal)) (hz : ∀ r, z (ix2 r c) = ((Zc r : ℝ) : EReal))
    (hb : b (ix1 c) = ((Bc : ℝ) : EReal)) :
    head (F := Ideal) d z (withLoops (edgeRow0 a1)) (withLoops (edgeRow1 a1)) b (ix2 i c)
      = ((D i * (∑ e ∈ dstSetSLK a1 i, D (srcRowSLK a1 e) * Zc (srcRowSLK a1 e)) + Bc : ℝ) : EReal) := by
  rw [head_apply, hD, hb]
  unfold dstSetSLK srcRowSLK
  rw [EReal.coe_add, EReal.coe_mul, ← zero_add_sum_coe]
  refine congrArg (· + ((Bc : ℝ) : EReal)) (congrArg (((D i : ℝ) : EReal) * ·)
    (congrArg (Ideal.ofBits .f32 0x00000000#32 + ·) (Finset.sum_congr rfl fun e _ => ?_)))
  rw [hD, hz, EReal.coe_mul]

/-! ## The head's concatenated weights and biases read at an index -/

/-- Column `j < 32` of the two weight matrices side by side is the first one's column `j`. -/
theorem wcat_left (a8 a10 : FVec Ideal S64x32 .f32) (k : Fin 64) (j : Fin 32) :
    wcat a8 a10 (ix2 k ⟨j.val, by omega⟩) = a8 (ix2 k j) := by
  unfold wcat
  exact concatenate_pair_apply_left 1 a8 a10 concatenates_S64x32_S64x32_S64x64_d1 _ rfl (ix2 k j) (fun b => by
    match b with
    | ⟨0, _⟩ => rfl
    | ⟨1, _⟩ => rfl)

/-- Column `32 + j` of the two weight matrices side by side is the second one's column `j`. -/
theorem wcat_right (a8 a10 : FVec Ideal S64x32 .f32) (k : Fin 64) (j : Fin 32) :
    wcat a8 a10 (ix2 k ⟨32 + j.val, by omega⟩) = a10 (ix2 k j) := by
  unfold wcat
  exact concatenate_pair_apply_right 1 a8 a10 concatenates_S64x32_S64x32_S64x64_d1 _ rfl rfl (ix2 k j)
    (fun b hb => by
      match b with
      | ⟨0, _⟩ => rfl
      | ⟨1, _⟩ => exact absurd rfl hb)
    (by show j.val + 32 = 32 + j.val; omega)

/-- Entry `j < 32` of the two biases end to end is the first one's entry `j`. -/
theorem bcat_left (a9 a11 : FVec Ideal S32 .f32) (j : Fin 32) :
    bcat a9 a11 (ix1 ⟨j.val, by omega⟩) = a9 (ix1 j) := by
  unfold bcat
  exact concatenate_pair_apply_left 0 a9 a11 concatenates_S32_S32_S64_d0 _ rfl (ix1 j) (fun b => by
    match b with
    | ⟨0, _⟩ => rfl)

/-- Entry `32 + j` of the two biases end to end is the second one's entry `j`. -/
theorem bcat_right (a9 a11 : FVec Ideal S32 .f32) (j : Fin 32) :
    bcat a9 a11 (ix1 ⟨32 + j.val, by omega⟩) = a11 (ix1 j) := by
  unfold bcat
  exact concatenate_pair_apply_right 0 a9 a11 concatenates_S32_S32_S64_d0 _ rfl rfl (ix1 j)
    (fun b hb => by
      match b with
      | ⟨0, _⟩ => exact absurd rfl hb)
    (by show j.val + 32 = 32 + j.val; omega)

/-! ## The kernel's result on real arguments -/

section
variable (a0 : FVec Ideal S50000x128 .f32) (a1 : IVec S2x600000 32) (a2 a3 : FVec Ideal S128x96 .f32) (a4 : FVec Ideal S96 .f32)
    (a5 a6 : FVec Ideal S96x64 .f32) (a7 : FVec Ideal S64 .f32) (a8 : FVec Ideal S64x32 .f32) (a9 : FVec Ideal S32 .f32)
    (a10 : FVec Ideal S64x32 .f32) (a11 : FVec Ideal S32 .f32)
    (X : Fin 50000 → Fin 128 → ℝ) (W1r W1o : Fin 128 → Fin 96 → ℝ) (B1 : Fin 96 → ℝ) (W2r W2o : Fin 96 → Fin 64 → ℝ) (B2 : Fin 64 → ℝ)
    (Wmu Wls : Fin 64 → Fin 32 → ℝ) (Bmu Bls : Fin 32 → ℝ) (D : Fin 50000 → ℝ)

/-- THE FIRST LAYER on real arguments is the real layer that multiplies before summing the neighbours. -/
theorem h1K_eq (h0 : ∀ i k, a0 (ix2 i k) = ((X i k : ℝ) : EReal)) (h2 : ∀ k j, a2 (ix2 k j) = ((W1r k j : ℝ) : EReal))
    (h3 : ∀ k j, a3 (ix2 k j) = ((W1o k j : ℝ) : EReal)) (h4 : ∀ j, a4 (ix1 j) = ((B1 j : ℝ) : EReal)) :
    ∀ (i : Fin 50000) (j : Fin 96), h1K a0 a1 a2 a3 a4 (ix2 i j)
      = ((GraphSpec.layerKer (dstSetK a1) (srcRowK a1) X W1r W1o B1 i j : ℝ) : EReal) := by
  intro i j
  unfold h1K
  exact epi_coe _ a0 a3 (row96 a4) (GraphSpec.agg (dstSetK a1) (srcRowK a1) (GraphSpec.mm X W1r)) X W1o B1
    (nsum96_coe a1 _ _ (proj_coe a0 a2 X W1r h0 h2)) h0 h3 (fun j => (rowCast_apply _ a4 j).trans (h4 j)) i j

/-- THE SECOND LAYER on real arguments is the real layer applied to the first real layer. -/
theorem h2K_eq (h0 : ∀ i k, a0 (ix2 i k) = ((X i k : ℝ) : EReal)) (h2 : ∀ k j, a2 (ix2 k j) = ((W1r k j : ℝ) : EReal))
    (h3 : ∀ k j, a3 (ix2 k j) = ((W1o k j : ℝ) : EReal)) (h4 : ∀ j, a4 (ix1 j) = ((B1 j : ℝ) : EReal))
    (h5 : ∀ k j, a5 (ix2 k j) = ((W2r k j : ℝ) : EReal)) (h6 : ∀ k j, a6 (ix2 k j) = ((W2o k j : ℝ) : EReal))
    (h7 : ∀ j, a7 (ix1 j) = ((B2 j : ℝ) : EReal)) :
    ∀ (i : Fin 50000) (j : Fin 64), h2K a0 a1 a2 a3 a4 a5 a6 a7 (ix2 i j)
      = ((GraphSpec.layerKer (dstSetK a1) (srcRowK a1)
          (GraphSpec.layerKer (dstSetK a1) (srcRowK a1) X W1r W1o B1) W2r W2o B2 i j : ℝ) : EReal) := by
  intro i j
  have h1 := h1K_eq a0 a1 a2 a3 a4 X W1r W1o B1 h0 h2 h3 h4
  unfold h2K
  exact epi_coe _ (h1K a0 a1 a2 a3 a4) a6 (row64 a7)
    (GraphSpec.agg (dstSetK a1) (srcRowK a1)
      (GraphSpec.mm (GraphSpec.layerKer (dstSetK a1) (srcRowK a1) X W1r W1o B1) W2r))
    (GraphSpec.layerKer (dstSetK a1) (srcRowK a1) X W1r W1o B1) W2o B2
    (nsum64_coe a1 _ _ (proj_coe (h1K a0 a1 a2 a3 a4) a5 _ W2r h1 h5)) h1 h6
    (fun j => (rowCast_apply _ a7 j).trans (h7 j)) i j

/-- THE HEAD'S LEFT HALF on real arguments: the real head of the second real layer times the first head weights. -/
theorem outK_left (h0 : ∀ i k, a0 (ix2 i k) = ((X i k : ℝ) : EReal)) (h2 : ∀ k j, a2 (ix2 k j) = ((W1r k j : ℝ) : EReal))
    (h3 : ∀ k j, a3 (ix2 k j) = ((W1o k j : ℝ) : EReal)) (h4 : ∀ j, a4 (ix1 j) = ((B1 j : ℝ) : EReal))
    (h5 : ∀ k j, a5 (ix2 k j) = ((W2r k j : ℝ) : EReal)) (h6 : ∀ k j, a6 (ix2 k j) = ((W2o k j : ℝ) : EReal))
    (h7 : ∀ j, a7 (ix1 j) = ((B2 j : ℝ) : EReal)) (h8 : ∀ k j, a8 (ix2 k j) = ((Wmu k j : ℝ) : EReal))
    (h9 : ∀ j, a9 (ix1 j) = ((Bmu j : ℝ) : EReal)) (h10 : ∀ k j, a10 (ix2 k j) = ((Wls k j : ℝ) : EReal))
    (h11 : ∀ j, a11 (ix1 j) = ((Bls j : ℝ) : EReal)) (hD : ∀ i, dinvK a1 (ix1 i) = ((D i : ℝ) : EReal)) :
    ∀ (i : Fin 50000) (j : Fin 32), outK a0 a1 a2 a3 a4 a5 a6 a7 a8 a9 a10 a11 (ix2 i ⟨j.val, by omega⟩)
      = ((GraphSpec.headKer (dstSetSLK a1) (srcRowSLK a1) D (GraphSpec.mm (GraphSpec.layerKer (dstSetK a1) (srcRowK a1)
          (GraphSpec.layerKer (dstSetK a1) (srcRowK a1) X W1r W1o B1) W2r W2o B2) Wmu) Bmu i j : ℝ) : EReal) := by
  intro i j
  have hH2 := h2K_eq a0 a1 a2 a3 a4 a5 a6 a7 X W1r W1o B1 W2r W2o B2 h0 h2 h3 h4 h5 h6 h7
  unfold outK
  exact head_coe (dinvK a1) _ a1 (bcat a9 a11) D
    (fun r => GraphSpec.mm (GraphSpec.layerKer (dstSetK a1) (srcRowK a1)
      (GraphSpec.layerKer (dstSetK a1) (srcRowK a1) X W1r W1o B1) W2r W2o B2) Wmu r j) (Bmu j) i ⟨j.val, by omega⟩ hD
    (fun r => proj_coe_col (h2K a0 a1 a2 a3 a4 a5 a6 a7) (wcat a8 a10) _ (fun k => Wmu k j) r ⟨j.val, by omega⟩
      (hH2 r) (fun k => (wcat_left a8 a10 k j).trans (h8 k j)))
    ((bcat_left a9 a11 j).trans (h9 j))

/-- THE HEAD'S RIGHT HALF on real arguments: the same with the second head weights and bias. -/
theorem outK_right (h0 : ∀ i k, a0 (ix2 i k) = ((X i k : ℝ) : EReal)) (h2 : ∀ k j, a2 (ix2 k j) = ((W1r k j : ℝ) : EReal))
    (h3 : ∀ k j, a3 (ix2 k j) = ((W1o k j : ℝ) : EReal)) (h4 : ∀ j, a4 (ix1 j) = ((B1 j : ℝ) : EReal))
    (h5 : ∀ k j, a5 (ix2 k j) = ((W2r k j : ℝ) : EReal)) (h6 : ∀ k j, a6 (ix2 k j) = ((W2o k j : ℝ) : EReal))
    (h7 : ∀ j, a7 (ix1 j) = ((B2 j : ℝ) : EReal)) (h8 : ∀ k j, a8 (ix2 k j) = ((Wmu k j : ℝ) : EReal))
    (h9 : ∀ j, a9 (ix1 j) = ((Bmu j : ℝ) : EReal)) (h10 : ∀ k j, a10 (ix2 k j) = ((Wls k j : ℝ) : EReal))
    (h11 : ∀ j, a11 (ix1 j) = ((Bls j : ℝ) : EReal)) (hD : ∀ i, dinvK a1 (ix1 i) = ((D i : ℝ) : EReal)) :
    ∀ (i : Fin 50000) (j : Fin 32), outK a0 a1 a2 a3 a4 a5 a6 a7 a8 a9 a10 a11 (ix2 i ⟨32 + j.val, by omega⟩)
      = ((GraphSpec.headKer (dstSetSLK a1) (srcRowSLK a1) D (GraphSpec.mm (GraphSpec.layerKer (dstSetK a1) (srcRowK a1)
          (GraphSpec.layerKer (dstSetK a1) (srcRowK a1) X W1r W1o B1) W2r W2o B2) Wls) Bls i j : ℝ) : EReal) := by
  intro i j
  have hH2 := h2K_eq a0 a1 a2 a3 a4 a5 a6 a7 X W1r W1o B1 W2r W2o B2 h0 h2 h3 h4 h5 h6 h7
  unfold outK
  exact head_coe (dinvK a1) _ a1 (bcat a9 a11) D
    (fun r => GraphSpec.mm (GraphSpec.layerKer (dstSetK a1) (srcRowK a1)
      (GraphSpec.layerKer (dstSetK a1) (srcRowK a1) X W1r W1o B1) W2r W2o B2) Wls r j) (Bls j) i ⟨32 + j.val, by omega⟩ hD
    (fun r => proj_coe_col (h2K a0 a1 a2 a3 a4 a5 a6 a7) (wcat a8 a10) _ (fun k => Wls k j) r ⟨32 + j.val, by omega⟩
      (hH2 r) (fun k => (wcat_right a8 a10 k j).trans (h10 k j)))
    ((bcat_right a9 a11 j).trans (h11 j))

end

end Cert.KernelIdeal.Closed

end
-- ==== Proof.RefValue.lean ====
/-
  The reference program's two results as closed forms over the reals.

  The reference is a two-layer neighbourhood-sum network followed by a degree-normalised head.  Every
  float stage of it, read at an index, is a finite combination (sums, products, a maximum with zero, a
  reciprocal square root of a positive count) of entries of its arguments; when the arguments are real
  numbers so is every stage, and the coercion from the reals to the extended reals commutes with each of
  these operations.  The integer argument only decides WHICH entries are combined: the row an edge
  gathers (a row word read signed and clamped into the table) and the set of edges landing on a node (the
  edges whose target word, read signed, is the node's number).
-/
import proofs.«130328_j64690797412362_2_alg».proof.Proof.RefReadP
import proofs.«130328_j64690797412362_2_alg».proof.Proof.LibGraphSpec
import proofs.«130328_j64690797412362_2_alg».proof.Proof.LibERealSum
import proofs.«130328_j64690797412362_2_alg».proof.Proof.LibRowGatherScatter
import Idealize.ShloMosaic.Lib.IdealHost
import Idealize.ShloMosaic.Lib.Affine

noncomputable section

open scoped BigOperators

namespace Cert.ReferenceIdeal.RefValue

open Cert.ReferenceIdeal Cert.ReferenceIdeal.Gen Idealize.ShloMosaic Idealize.ShloMosaic.ValueIdx RowGS

/-! ## General pieces: real numbers inside the extended reals -/

/-- The larger of two reals, taken among the extended reals, is the larger real. -/
theorem max_coe (a b : ℝ) : max (a : EReal) (b : EReal) = ((max a b : ℝ) : EReal) :=
  (Monotone.map_max EReal.coe_strictMono.monotone).symm

/-- A contraction of two rows of reals is the real contraction. -/
theorem dot_real {K : ℕ} (a b : Fin K → EReal) (ar br : Fin K → ℝ) (ha : ∀ k, a k = (ar k : EReal))
    (hb : ∀ k, b k = (br k : EReal)) : ∑ k, a k * b k = ((∑ k, ar k * br k : ℝ) : EReal) := by
  rw [← Cert.Gcn.ERealSum.sum_coe]
  exact Finset.sum_congr rfl fun k _ => by rw [ha, hb, EReal.coe_mul]

/-- A select on a truth value is the `if` on it. -/
theorem select_ofBool {α : Type} (b : Bool) (x y : α) :
    Scalar.select (BitVec.ofBool b) x y = if b then x else y := by
  cases b <;> rfl

/-- `where(deg > 0, rsqrt deg, 0)` at a degree that is a natural number is a real number. -/
theorem dinv_elem (n : ℕ) :
    ∃ r : ℝ, Scalar.select (FloatOps.cmpf (F := Ideal) (φ := .f32) .ogt (((n : ℝ) : EReal) : Ideal .f32)
        (FloatOps.ofBits (F := Ideal) .f32 0x00000000#32))
      (FloatOps.hostUnary (F := Ideal) (φ := .f32) .rsqrt (((n : ℝ) : EReal) : Ideal .f32))
      (FloatOps.ofBits (F := Ideal) .f32 0x00000000#32) = ((r : ℝ) : EReal) := by
  show ∃ r : ℝ, Scalar.select (Ideal.cmp .ogt ((n : ℝ) : EReal) (Ideal.ofBits .f32 0x00000000#32))
      (Ideal.rsqrt ((n : ℝ) : EReal)) (Ideal.ofBits .f32 0x00000000#32) = ((r : ℝ) : EReal)
  rw [Ideal.ofBits_zero_f32]
  unfold Ideal.cmp
  rw [select_ofBool]
  by_cases h : (0 : EReal) < ((n : ℝ) : EReal)
  · have hn : (0 : ℝ) < (n : ℝ) := by exact_mod_cast h
    refine ⟨(Real.sqrt n)⁻¹, ?_⟩
    rw [decide_eq_true h, if_pos rfl, Ideal.rsqrt_coe, if_neg (not_lt.mpr hn.le), if_neg hn.ne']
  · refine ⟨0, ?_⟩
    rw [decide_eq_false h, if_neg Bool.false_ne_true]
    rfl

/-- A row word that reads, signed, as a natural number is left alone by the wrap-around of negative
    row numbers (`select (d < 0) (d + N) d`). -/
theorem wrap_of_toInt (d : BitVec 32) (n : ℕ) (h : d.toInt = (n : ℤ)) :
    Scalar.select (IntOp.cmpi .slt d 0#32) (IntOp.addi d 50000#32) d = d := by
  have hc : ¬ (IntOp.cmpi .slt d 0#32 = 1#1) := by
    rw [IntOp.cmpi_slt, h]
    simp
  exact if_neg hc

/-- A rank-2 index with the given two coordinates. -/
theorem eq_ix2_of {n0 n1 : ℕ} (p : (⟨2, ![n0, n1]⟩ : Shape).Idx) (a : Fin n0) (b : Fin n1) (h0 : p 0 = a)
    (h1 : p 1 = b) : p = ix2 a b := by
  subst h0 h1
  exact eq_ix2 p

/-- A rank-1 index with the given coordinate. -/
theorem eq_ix1_of {n : ℕ} (p : (⟨1, ![n]⟩ : Shape).Idx) (a : Fin n) (h0 : p 0 = a) : p = ix1 a := by
  subst h0
  exact eq_ix1 p

/-! ## General pieces: a row gather followed by a row scatter-add -/

section Rows
variable {N E C : ℕ} (hN : 0 < N)
  (gwf : GatherDims.WF ⟨2, ![N, C]⟩ ⟨2, ![E, 1]⟩ ⟨2, ![E, C]⟩ [1] [0] [] [0] [] 1 ![1, C])
  (swf : ScatterDims.WF ⟨2, ![N, C]⟩ ⟨2, ![E, 1]⟩ ⟨2, ![E, C]⟩ [1] [0] [0] 1)

/-- Gathering rows of a real table and summing them into a zero table is the real neighbourhood sum. -/
theorem agg_real (x : FVec Ideal ⟨2, ![N, C]⟩ .f32) (X : Fin N → Fin C → ℝ)
    (hx : ∀ i c, x (ix2 i c) = ((X i c : ℝ) : EReal)) (gidx sidx : IVec ⟨2, ![E, 1]⟩ 32)
    (zero : FVec Ideal ⟨2, ![N, C]⟩ .f32) (hzero : ∀ i c, zero (ix2 i c) = 0) (i : Fin N) (c : Fin C) :
    Host.scatterAdd (F := Ideal) (φ := .f32) (scatterRows N E C swf) zero sidx
        (Host.gather (gatherRows N E C gwf) x gidx) (ix2 i c)
      = ((∑ e ∈ Finset.univ.filter (fun e : Fin E => (sidx (ix2 e 0)).toInt = (i.val : ℤ)),
            X (clampRow N hN (gidx (ix2 e 0))) c : ℝ) : EReal) := by
  rw [scatterAddRows_apply, hzero, zero_add]
  exact Cert.Gcn.ERealSum.sum_eq_coe _ _ _ fun e _ => by rw [gatherRows_apply hN, hx]

/-- The head: gathered real rows, each scaled by a real edge weight, summed into a zero table, plus a
    real bias. -/
theorem head_real (z : FVec Ideal ⟨2, ![N, C]⟩ .f32) (Z : Fin N → Fin C → ℝ)
    (hz : ∀ i c, z (ix2 i c) = ((Z i c : ℝ) : EReal)) (gidx sidx : IVec ⟨2, ![E, 1]⟩ 32)
    (nrm : FVec Ideal ⟨2, ![E, C]⟩ .f32) (Nr : Fin E → ℝ) (hn : ∀ e c, nrm (ix2 e c) = ((Nr e : ℝ) : EReal))
    (zero : FVec Ideal ⟨2, ![N, C]⟩ .f32) (hzero : ∀ i c, zero (ix2 i c) = 0)
    (bias : FVec Ideal ⟨2, ![N, C]⟩ .f32) (B : Fin C → ℝ) (hb : ∀ i c, bias (ix2 i c) = ((B c : ℝ) : EReal))
    (i : Fin N) (c : Fin C) :
    addf (Host.scatterAdd (F := Ideal) (φ := .f32) (scatterRows N E C swf) zero sidx
        (mulf (Host.gather (gatherRows N E C gwf) z gidx) nrm)) bias (ix2 i c)
      = (((∑ e ∈ Finset.univ.filter (fun e : Fin E => (sidx (ix2 e 0)).toInt = (i.val : ℤ)),
            Z (clampRow N hN (gidx (ix2 e 0))) c * Nr e) + B c : ℝ) : EReal) := by
  rw [addf_apply, scatterAddRows_apply, hzero, zero_add, hb, EReal.coe_add]
  congr 1
  exact Cert.Gcn.ERealSum.sum_eq_coe _ _ _ fun e _ => by
    rw [mulf_apply, gatherRows_apply hN, hz, hn, EReal.coe_mul]

end Rows

/-! ## The index data, read off the integer argument -/

/-- The integer argument: the two rows of edge end points. -/
abbrev EdgeArg : Type := (⟨S2x600000, .i32⟩ : BufTy).Contents (Elt Ideal)

/-- The row edge `e` gathers, in both layers: its source word, wrapped and clamped into the table. -/
def srcRow (x1 : EdgeArg) : Fin 600000 → Fin 50000 :=
  fun e => clampRow 50000 (by decide) (ReadP.val_main_v9 (F := Ideal) x1 (ix2 e 0))

/-- The edges landing on node `i`, in both layers: those whose target word, read signed, is `i`. -/
def dstSet (x1 : EdgeArg) : Fin 50000 → Finset (Fin 600000) :=
  fun i => Finset.univ.filter (fun e : Fin 600000 => (ReadP.val_main_v12 (F := Ideal) x1 (ix2 e 0)).toInt = (i.val : ℤ))

/-- With the self-loops appended: the row edge `e` gathers by its source word. -/
def srcRowSL (x1 : EdgeArg) : Fin 650000 → Fin 50000 :=
  fun e => clampRow 50000 (by decide) (ReadP.val_main_v54 (F := Ideal) x1 (ix2 e 0))

/-- With the self-loops appended: the row edge `e` gathers by its target word. -/
def dstRowSL (x1 : EdgeArg) : Fin 650000 → Fin 50000 :=
  fun e => clampRow 50000 (by decide) (ReadP.val_main_v61 (F := Ideal) x1 (ix2 e 0))

/-- With the self-loops appended: the edges landing on node `i`. -/
def dstSetSL (x1 : EdgeArg) : Fin 50000 → Finset (Fin 650000) :=
  fun i => Finset.univ.filter (fun e : Fin 650000 => (ReadP.val_main_v43 (F := Ideal) x1 (ix2 e 0)).toInt = (i.val : ℤ))

/-- The degree norm `where(deg > 0, rsqrt deg, 0)` of node `i`, as a real number. -/
def dinvR (x1 : EdgeArg) : Fin 50000 → ℝ :=
  fun i => (ReadP.val_main_v48 (F := Ideal) x1 (ix1 i)).toReal

/-! The program recomputes the same index columns before each use; the copies are the same terms. -/

theorem v26_eq (x1 : EdgeArg) : ReadP.val_main_v26 (F := Ideal) x1 = ReadP.val_main_v9 (F := Ideal) x1 := rfl
theorem v29_eq (x1 : EdgeArg) : ReadP.val_main_v29 (F := Ideal) x1 = ReadP.val_main_v12 (F := Ideal) x1 := rfl
theorem v70_eq (x1 : EdgeArg) : ReadP.val_main_v70 (F := Ideal) x1 = ReadP.val_main_v54 (F := Ideal) x1 := rfl
theorem v87_eq (x1 : EdgeArg) : ReadP.val_main_v87 (F := Ideal) x1 = ReadP.val_main_v54 (F := Ideal) x1 := rfl
theorem v76_eq (x1 : EdgeArg) : ReadP.val_main_v76 (F := Ideal) x1 = ReadP.val_main_v43 (F := Ideal) x1 := rfl
theorem v93_eq (x1 : EdgeArg) : ReadP.val_main_v93 (F := Ideal) x1 = ReadP.val_main_v43 (F := Ideal) x1 := rfl

/-- An edge landing on node `i` gathers, by its target word, row `i`: a word that reads as `i ≥ 0` is not
    wrapped, and `i` is inside the table, so it is not clamped. -/
theorem dst_row_of_mem (x1 : EdgeArg) (i : Fin 50000) (e : Fin 650000) (he : e ∈ dstSetSL x1 i) :
    dstRowSL x1 e = i := by
  have h : (ReadP.val_main_v43 (F := Ideal) x1 (ix2 e 0)).toInt = (i.val : ℤ) := (Finset.mem_filter.mp he).2
  rw [ReadP.val_main_v43_apply, show ReadP.idx_main_v43 (ix2 e 0) = ix1 e from eq_ix1_of _ e rfl] at h
  unfold dstRowSL
  refine clampRow_of_toInt _ _ i ?_
  rw [ReadP.val_main_v61_apply, show ReadP.idx_main_v61 (ix2 e 0) = ix1 e from eq_ix1_of _ e rfl,
    ReadP.val_main_v60_apply, ReadP.val_main_v57_apply, ReadP.val_main_v59_apply, ReadP.val_main_v56_apply,
    ReadP.val_main_v58_apply, ReadP.val_main_c_10_apply, ReadP.val_main_c_11_apply, wrap_of_toInt _ i.val h]
  exact h

/-- The degree of node `i` is the number of edges landing on it (self-loops included). -/
theorem deg_real (x1 : EdgeArg) (i : Fin 50000) :
    ReadP.val_main_v44 (F := Ideal) x1 (ix1 i) = ((((dstSetSL x1 i).card : ℕ) : ℝ) : EReal) := by
  unfold ReadP.val_main_v44
  rw [show scatter_S50000_S650000x1_S650000_n_0_0_1
      = scatterVec 50000 650000 Facts₀.scatter_S50000_S650000x1_S650000_n_0_0_1_wf from rfl,
    scatterAddVec_apply, ReadP.val_main_v42_apply, ReadP.val_main_cst_5_apply,
    show FloatOps.ofBits (F := Ideal) .f32 0x00000000#32 = (0 : EReal) from Ideal.ofBits_zero_f32, zero_add,
    ← Cert.Gcn.ERealSum.sum_one]
  refine Finset.sum_congr rfl fun e _ => ?_
  rw [ReadP.val_main_v41_apply, ReadP.val_main_cst_4_apply]
  exact Ideal.ofBits_one_f32.trans EReal.coe_one.symm

/-- The degree norm of every node is a real number. -/
theorem dinv_real (x1 : EdgeArg) (i : Fin 50000) :
    ReadP.val_main_v48 (F := Ideal) x1 (ix1 i) = ((dinvR x1 i : ℝ) : EReal) := by
  obtain ⟨r, hr⟩ : ∃ r : ℝ, ReadP.val_main_v48 (F := Ideal) x1 (ix1 i) = ((r : ℝ) : EReal) := by
    rw [ReadP.val_main_v48_apply, ReadP.val_main_v46_apply, ReadP.val_main_v47_apply, deg_real,
      ReadP.val_main_v45_apply, ReadP.val_main_cst_6_apply, ReadP.val_main_call2_v1_apply,
      ReadP.val_main_call2_v0_apply, ReadP.val_main_cst_7_apply]
    exact dinv_elem _
  unfold dinvR
  rw [hr, EReal.toReal_coe]

/-! ## The argument types -/

/-- The node features. -/
abbrev Arg0 : Type := (⟨S50000x128, .f32⟩ : BufTy).Contents (Elt Ideal)
/-- A first-layer weight matrix. -/
abbrev ArgW1 : Type := (⟨S128x96, .f32⟩ : BufTy).Contents (Elt Ideal)
/-- The first-layer bias. -/
abbrev ArgB1 : Type := (⟨S96, .f32⟩ : BufTy).Contents (Elt Ideal)
/-- A second-layer weight matrix. -/
abbrev ArgW2 : Type := (⟨S96x64, .f32⟩ : BufTy).Contents (Elt Ideal)
/-- The second-layer bias. -/
abbrev ArgB2 : Type := (⟨S64, .f32⟩ : BufTy).Contents (Elt Ideal)
/-- A head weight matrix. -/
abbrev ArgW3 : Type := (⟨S64x32, .f32⟩ : BufTy).Contents (Elt Ideal)
/-- A head bias. -/
abbrev ArgB3 : Type := (⟨S32, .f32⟩ : BufTy).Contents (Elt Ideal)

/-- One entry of a layer: `max ((a + b) + c) 0` of reals is real. -/
theorem layer_elem (a b c : ℝ) :
    FloatOps.maximumf (F := Ideal) (φ := .f32)
        (FloatOps.addf (F := Ideal) (φ := .f32)
          (FloatOps.addf (F := Ideal) (φ := .f32) (((a : ℝ) : EReal) : Ideal .f32) (((b : ℝ) : EReal) : Ideal .f32))
          (((c : ℝ) : EReal) : Ideal .f32))
        (FloatOps.ofBits (F := Ideal) .f32 0x00000000#32)
      = ((max ((a + b) + c) 0 : ℝ) : EReal) := by
  show max ((((a : ℝ) : EReal) + ((b : ℝ) : EReal)) + ((c : ℝ) : EReal)) (Ideal.ofBits .f32 0x00000000#32) = _
  rw [Ideal.ofBits_zero_f32, ← EReal.coe_add, ← EReal.coe_add, ← EReal.coe_zero, max_coe]

/-! ## The first layer -/

section Layer1
variable (x0 : Arg0) (x1 : EdgeArg) (x2 x3 : ArgW1) (x4 : ArgB1)
  (X : Fin 50000 → Fin 128 → ℝ) (W1r W1o : Fin 128 → Fin 96 → ℝ) (B1 : Fin 96 → ℝ)

theorem v11_zero (i : Fin 50000) (c : Fin 128) : ReadP.val_main_v11 (F := Ideal) (ix2 i c) = 0 := by
  rw [ReadP.val_main_v11_apply, ReadP.val_main_cst_apply]
  exact Ideal.ofBits_zero_f32

/-- The neighbourhood sum of the features. -/
theorem v13_real (h0 : ∀ i k, x0 (ix2 i k) = ((X i k : ℝ) : EReal)) (i : Fin 50000) (c : Fin 128) :
    ReadP.val_main_v13 (F := Ideal) x0 x1 (ix2 i c)
      = ((GraphSpec.agg (dstSet x1) (srcRow x1) X i c : ℝ) : EReal) := by
  unfold ReadP.val_main_v13 ReadP.val_main_v10
  rw [show scatter_S50000x128_S600000x1_S600000x128_1_0_0_1
      = scatterRows 50000 600000 128 Facts₀.scatter_S50000x128_S600000x1_S600000x128_1_0_0_1_wf from rfl,
    show gather_S50000x128_S600000x1_S600000x128_1_0_n_n_0_1_1128
      = gatherRows 50000 600000 128 Facts₀.gather_S50000x128_S600000x1_S600000x128_1_0_n_n_0_1_1128_wf from rfl]
  exact agg_real (by decide) _ _ x0 X h0 _ _ _ v11_zero i c

/-- The neighbourhood sum times the first weight matrix. -/
theorem v14_real (h0 : ∀ i k, x0 (ix2 i k) = ((X i k : ℝ) : EReal))
    (h2 : ∀ k j, x2 (ix2 k j) = ((W1r k j : ℝ) : EReal)) (i : Fin 50000) (j : Fin 96) :
    ReadP.val_main_v14 (F := Ideal) x0 x1 x2 (ix2 i j)
      = ((GraphSpec.mm (GraphSpec.agg (dstSet x1) (srcRow x1) X) W1r i j : ℝ) : EReal) := by
  rw [ReadP.val_main_v14_apply]
  exact dot_real _ _ (fun k => GraphSpec.agg (dstSet x1) (srcRow x1) X i k) (fun k => W1r k j)
    (fun k => by
      rw [show ReadP.lidx_main_v14 (ix2 i j) k = ix2 i k from eq_ix2_of _ _ _ rfl rfl]
      exact v13_real x0 x1 X h0 i k)
    (fun k => by
      rw [show ReadP.ridx_main_v14 (ix2 i j) k = ix2 k j from eq_ix2_of _ _ _ rfl rfl]
      exact h2 k j)

/-- The features times the second weight matrix. -/
theorem v15_real (h0 : ∀ i k, x0 (ix2 i k) = ((X i k : ℝ) : EReal))
    (h3 : ∀ k j, x3 (ix2 k j) = ((W1o k j : ℝ) : EReal)) (i : Fin 50000) (j : Fin 96) :
    ReadP.val_main_v15 (F := Ideal) x0 x3 (ix2 i j) = ((GraphSpec.mm X W1o i j : ℝ) : EReal) := by
  rw [ReadP.val_main_v15_apply]
  exact dot_real _ _ (fun k => X i k) (fun k => W1o k j)
    (fun k => by
      rw [show ReadP.lidx_main_v15 (ix2 i j) k = ix2 i k from eq_ix2_of _ _ _ rfl rfl]
      exact h0 i k)
    (fun k => by
      rw [show ReadP.ridx_main_v15 (ix2 i j) k = ix2 k j from eq_ix2_of _ _ _ rfl rfl]
      exact h3 k j)

/-- The bias, repeated on every row. -/
theorem v18_real (h4 : ∀ j, x4 (ix1 j) = ((B1 j : ℝ) : EReal)) (i : Fin 50000) (j : Fin 96) :
    ReadP.val_main_v18 (F := Ideal) x4 (ix2 i j) = ((B1 j : ℝ) : EReal) := by
  rw [ReadP.val_main_v18_apply, ReadP.val_main_v17_apply,
    show ReadP.idx_main_v17 (ReadP.idx_main_v18 (ix2 i j)) = ix1 j from eq_ix1_of _ _ rfl]
  exact h4 j

/-- The first layer's output. -/
theorem h1_real (h0 : ∀ i k, x0 (ix2 i k) = ((X i k : ℝ) : EReal))
    (h2 : ∀ k j, x2 (ix2 k j) = ((W1r k j : ℝ) : EReal)) (h3 : ∀ k j, x3 (ix2 k j) = ((W1o k j : ℝ) : EReal))
    (h4 : ∀ j, x4 (ix1 j) = ((B1 j : ℝ) : EReal)) (i : Fin 50000) (j : Fin 96) :
    ReadP.val_main_v20 (F := Ideal) x0 x1 x2 x3 x4 (ix2 i j)
      = ((GraphSpec.layerRef (dstSet x1) (srcRow x1) X W1r W1o B1 i j : ℝ) : EReal) := by
  rw [ReadP.val_main_v20_apply, ReadP.val_main_v19_apply, ReadP.val_main_v16_apply,
    v14_real x0 x1 x2 X W1r h0 h2, v15_real x0 x3 X W1o h0 h3, v18_real x4 B1 h4,
    ReadP.val_main_call0_v0_apply, ReadP.val_main_call0_cst_apply]
  exact layer_elem _ _ _

end Layer1

/-! ## The second layer -/

section Layer2
variable (x0 : Arg0) (x1 : EdgeArg) (x2 x3 : ArgW1) (x4 : ArgB1) (x5 x6 : ArgW2) (x7 : ArgB2)
  (H1 : Fin 50000 → Fin 96 → ℝ) (W2r W2o : Fin 96 → Fin 64 → ℝ) (B2 : Fin 64 → ℝ)

theorem v28_zero (i : Fin 50000) (c : Fin 96) : ReadP.val_main_v28 (F := Ideal) (ix2 i c) = 0 := by
  rw [ReadP.val_main_v28_apply, ReadP.val_main_cst_3_apply]
  exact Ideal.ofBits_zero_f32

/-- The neighbourhood sum of the first layer's output. -/
theorem v30_real (hH : ∀ i k, ReadP.val_main_v20 (F := Ideal) x0 x1 x2 x3 x4 (ix2 i k) = ((H1 i k : ℝ) : EReal))
    (i : Fin 50000) (c : Fin 96) :
    ReadP.val_main_v30 (F := Ideal) x0 x1 x2 x3 x4 (ix2 i c)
      = ((GraphSpec.agg (dstSet x1) (srcRow x1) H1 i c : ℝ) : EReal) := by
  unfold ReadP.val_main_v30 ReadP.val_main_v27
  rw [show scatter_S50000x96_S600000x1_S600000x96_1_0_0_1
      = scatterRows 50000 600000 96 Facts₀.scatter_S50000x96_S600000x1_S600000x96_1_0_0_1_wf from rfl,
    show gather_S50000x96_S600000x1_S600000x96_1_0_n_n_0_1_196
      = gatherRows 50000 600000 96 Facts₀.gather_S50000x96_S600000x1_S600000x96_1_0_n_n_0_1_196_wf from rfl,
    v26_eq, v29_eq]
  exact agg_real (by decide) _ _ _ H1 hH _ _ _ v28_zero i c

theorem v31_real (hH : ∀ i k, ReadP.val_main_v20 (F := Ideal) x0 x1 x2 x3 x4 (ix2 i k) = ((H1 i k : ℝ) : EReal))
    (h5 : ∀ k j, x5 (ix2 k j) = ((W2r k j : ℝ) : EReal)) (i : Fin 50000) (j : Fin 64) :
    ReadP.val_main_v31 (F := Ideal) x0 x1 x2 x3 x4 x5 (ix2 i j)
      = ((GraphSpec.mm (GraphSpec.agg (dstSet x1) (srcRow x1) H1) W2r i j : ℝ) : EReal) := by
  rw [ReadP.val_main_v31_apply]
  exact dot_real _ _ (fun k => GraphSpec.agg (dstSet x1) (srcRow x1) H1 i k) (fun k => W2r k j)
    (fun k => by
      rw [show ReadP.lidx_main_v31 (ix2 i j) k = ix2 i k from eq_ix2_of _ _ _ rfl rfl]
      exact v30_real x0 x1 x2 x3 x4 H1 hH i k)
    (fun k => by
      rw [show ReadP.ridx_main_v31 (ix2 i j) k = ix2 k j from eq_ix2_of _ _ _ rfl rfl]
      exact h5 k j)

theorem v32_real (hH : ∀ i k, ReadP.val_main_v20 (F := Ideal) x0 x1 x2 x3 x4 (ix2 i k) = ((H1 i k : ℝ) : EReal))
    (h6 : ∀ k j, x6 (ix2 k j) = ((W2o k j : ℝ) : EReal)) (i : Fin 50000) (j : Fin 64) :
    ReadP.val_main_v32 (F := Ideal) x0 x1 x2 x3 x4 x6 (ix2 i j) = ((GraphSpec.mm H1 W2o i j : ℝ) : EReal) := by
  rw [ReadP.val_main_v32_apply]
  exact dot_real _ _ (fun k => H1 i k) (fun k => W2o k j)
    (fun k => by
      rw [show ReadP.lidx_main_v32 (ix2 i j) k = ix2 i k from eq_ix2_of _ _ _ rfl rfl]
      exact hH i k)
    (fun k => by
      rw [show ReadP.ridx_main_v32 (ix2 i j) k = ix2 k j from eq_ix2_of _ _ _ rfl rfl]
      exact h6 k j)

theorem v35_real (h7 : ∀ j, x7 (ix1 j) = ((B2 j : ℝ) : EReal)) (i : Fin 50000) (j : Fin 64) :
    ReadP.val_main_v35 (F := Ideal) x7 (ix2 i j) = ((B2 j : ℝ) : EReal) := by
  rw [ReadP.val_main_v35_apply, ReadP.val_main_v34_apply,
    show ReadP.idx_main_v34 (ReadP.idx_main_v35 (ix2 i j)) = ix1 j from eq_ix1_of _ _ rfl]
  exact h7 j

/-- The second layer's output. -/
theorem h2_real (hH : ∀ i k, ReadP.val_main_v20 (F := Ideal) x0 x1 x2 x3 x4 (ix2 i k) = ((H1 i k : ℝ) : EReal))
    (h5 : ∀ k j, x5 (ix2 k j) = ((W2r k j : ℝ) : EReal)) (h6 : ∀ k j, x6 (ix2 k j) = ((W2o k j : ℝ) : EReal))
    (h7 : ∀ j, x7 (ix1 j) = ((B2 j : ℝ) : EReal)) (i : Fin 50000) (j : Fin 64) :
    ReadP.val_main_v37 (F := Ideal) x0 x1 x2 x3 x4 x5 x6 x7 (ix2 i j)
      = ((GraphSpec.layerRef (dstSet x1) (srcRow x1) H1 W2r W2o B2 i j : ℝ) : EReal) := by
  rw [ReadP.val_main_v37_apply, ReadP.val_main_v36_apply, ReadP.val_main_v33_apply,
    v31_real x0 x1 x2 x3 x4 x5 H1 W2r hH h5, v32_real x0 x1 x2 x3 x4 x6 H1 W2o hH h6, v35_real x7 B2 h7,
    ReadP.val_main_call1_v0_apply, ReadP.val_main_call1_cst_apply]
  exact layer_elem _ _ _

end Layer2

/-! ## The head -/

section Head
variable (x0 : Arg0) (x1 : EdgeArg) (x2 x3 : ArgW1) (x4 : ArgB1) (x5 x6 : ArgW2) (x7 : ArgB2)
  (x8 x10 : ArgW3) (x9 x11 : ArgB3)
  (H2 : Fin 50000 → Fin 64 → ℝ) (Wmu Wls : Fin 64 → Fin 32 → ℝ) (Bmu Bls : Fin 32 → ℝ)

/-- The weight of edge `e`: the product of the degree norms of its two end points. -/
theorem v63_real (e : Fin 650000) :
    ReadP.val_main_v63 (F := Ideal) x1 (ix1 e)
      = ((dinvR x1 (srcRowSL x1 e) * dinvR x1 (dstRowSL x1 e) : ℝ) : EReal) := by
  rw [ReadP.val_main_v63_apply]
  unfold ReadP.val_main_v55 ReadP.val_main_v62
  rw [show gather_S50000_S650000x1_S650000_n_0_n_n_0_1_1
      = gatherVec 50000 650000 Facts₀.gather_S50000_S650000x1_S650000_n_0_n_n_0_1_1_wf from rfl,
    gatherVec_apply (by decide), gatherVec_apply (by decide), dinv_real, dinv_real, EReal.coe_mul]
  rfl

theorem v73_real (e : Fin 650000) (c : Fin 32) :
    ReadP.val_main_v73 (F := Ideal) x1 (ix2 e c)
      = ((dinvR x1 (srcRowSL x1 e) * dinvR x1 (dstRowSL x1 e) : ℝ) : EReal) := by
  rw [ReadP.val_main_v73_apply, ReadP.val_main_v72_apply,
    show ReadP.idx_main_v72 (ReadP.idx_main_v73 (ix2 e c)) = ix1 e from eq_ix1_of _ _ rfl]
  exact v63_real x1 e

theorem v90_real (e : Fin 650000) (c : Fin 32) :
    ReadP.val_main_v90 (F := Ideal) x1 (ix2 e c)
      = ((dinvR x1 (srcRowSL x1 e) * dinvR x1 (dstRowSL x1 e) : ℝ) : EReal) := by
  rw [ReadP.val_main_v90_apply, ReadP.val_main_v89_apply,
    show ReadP.idx_main_v89 (ReadP.idx_main_v90 (ix2 e c)) = ix1 e from eq_ix1_of _ _ rfl]
  exact v63_real x1 e

theorem v75_zero (i : Fin 50000) (c : Fin 32) : ReadP.val_main_v75 (F := Ideal) (ix2 i c) = 0 := by
  rw [ReadP.val_main_v75_apply, ReadP.val_main_cst_14_apply]
  exact Ideal.ofBits_zero_f32

theorem v92_zero (i : Fin 50000) (c : Fin 32) : ReadP.val_main_v92 (F := Ideal) (ix2 i c) = 0 := by
  rw [ReadP.val_main_v92_apply, ReadP.val_main_cst_17_apply]
  exact Ideal.ofBits_zero_f32

theorem v64_real (hH : ∀ i k, ReadP.val_main_v37 (F := Ideal) x0 x1 x2 x3 x4 x5 x6 x7 (ix2 i k) = ((H2 i k : ℝ) : EReal))
    (h8 : ∀ k j, x8 (ix2 k j) = ((Wmu k j : ℝ) : EReal)) (i : Fin 50000) (j : Fin 32) :
    ReadP.val_main_v64 (F := Ideal) x0 x1 x2 x3 x4 x5 x6 x7 x8 (ix2 i j) = ((GraphSpec.mm H2 Wmu i j : ℝ) : EReal) := by
  rw [ReadP.val_main_v64_apply]
  exact dot_real _ _ (fun k => H2 i k) (fun k => Wmu k j)
    (fun k => by
      rw [show ReadP.lidx_main_v64 (ix2 i j) k = ix2 i k from eq_ix2_of _ _ _ rfl rfl]
      exact hH i k)
    (fun k => by
      rw [show ReadP.ridx_main_v64 (ix2 i j) k = ix2 k j from eq_ix2_of _ _ _ rfl rfl]
      exact h8 k j)

theorem v81_real (hH : ∀ i k, ReadP.val_main_v37 (F := Ideal) x0 x1 x2 x3 x4 x5 x6 x7 (ix2 i k) = ((H2 i k : ℝ) : EReal))
    (h10 : ∀ k j, x10 (ix2 k j) = ((Wls k j : ℝ) : EReal)) (i : Fin 50000) (j : Fin 32) :
    ReadP.val_main_v81 (F := Ideal) x0 x1 x2 x3 x4 x5 x6 x7 x10 (ix2 i j) = ((GraphSpec.mm H2 Wls i j : ℝ) : EReal) := by
  rw [ReadP.val_main_v81_apply]
  exact dot_real _ _ (fun k => H2 i k) (fun k => Wls k j)
    (fun k => by
      rw [show ReadP.lidx_main_v81 (ix2 i j) k = ix2 i k from eq_ix2_of _ _ _ rfl rfl]
      exact hH i k)
    (fun k => by
      rw [show ReadP.ridx_main_v81 (ix2 i j) k = ix2 k j from eq_ix2_of _ _ _ rfl rfl]
      exact h10 k j)

theorem v79_real (h9 : ∀ j, x9 (ix1 j) = ((Bmu j : ℝ) : EReal)) (i : Fin 50000) (j : Fin 32) :
    ReadP.val_main_v79 (F := Ideal) x9 (ix2 i j) = ((Bmu j : ℝ) : EReal) := by
  rw [ReadP.val_main_v79_apply, ReadP.val_main_v78_apply,
    show ReadP.idx_main_v78 (ReadP.idx_main_v79 (ix2 i j)) = ix1 j from eq_ix1_of _ _ rfl]
  exact h9 j

theorem v96_real (h11 : ∀ j, x11 (ix1 j) = ((Bls j : ℝ) : EReal)) (i : Fin 50000) (j : Fin 32) :
    ReadP.val_main_v96 (F := Ideal) x11 (ix2 i j) = ((Bls j : ℝ) : EReal) := by
  rw [ReadP.val_main_v96_apply, ReadP.val_main_v95_apply,
    show ReadP.idx_main_v95 (ReadP.idx_main_v96 (ix2 i j)) = ix1 j from eq_ix1_of _ _ rfl]
  exact h11 j

/-- The first result, given the second layer's output as a real table. -/
theorem v80_real (hH : ∀ i k, ReadP.val_main_v37 (F := Ideal) x0 x1 x2 x3 x4 x5 x6 x7 (ix2 i k) = ((H2 i k : ℝ) : EReal))
    (h8 : ∀ k j, x8 (ix2 k j) = ((Wmu k j : ℝ) : EReal)) (h9 : ∀ j, x9 (ix1 j) = ((Bmu j : ℝ) : EReal))
    (i : Fin 50000) (j : Fin 32) :
    ReadP.val_main_v80 (F := Ideal) x0 x1 x2 x3 x4 x5 x6 x7 x8 x9 (ix2 i j)
      = ((GraphSpec.headRef (dstSetSL x1) (srcRowSL x1) (dstRowSL x1) (dinvR x1) (GraphSpec.mm H2 Wmu) Bmu i j : ℝ) : EReal) := by
  unfold ReadP.val_main_v80 ReadP.val_main_v77 ReadP.val_main_v74 ReadP.val_main_v71
  rw [show scatter_S50000x32_S650000x1_S650000x32_1_0_0_1
      = scatterRows 50000 650000 32 Facts₀.scatter_S50000x32_S650000x1_S650000x32_1_0_0_1_wf from rfl,
    show gather_S50000x32_S650000x1_S650000x32_1_0_n_n_0_1_132
      = gatherRows 50000 650000 32 Facts₀.gather_S50000x32_S650000x1_S650000x32_1_0_n_n_0_1_132_wf from rfl,
    v70_eq, v76_eq]
  exact head_real (by decide) _ _ _ (GraphSpec.mm H2 Wmu) (v64_real x0 x1 x2 x3 x4 x5 x6 x7 x8 H2 Wmu hH h8) _ _ _
    (fun e => dinvR x1 (srcRowSL x1 e) * dinvR x1 (dstRowSL x1 e)) (v73_real x1) _ v75_zero _ Bmu
    (v79_real x9 Bmu h9) i j

/-- The second result, given the second layer's output as a real table. -/
theorem v97_real (hH : ∀ i k, ReadP.val_main_v37 (F := Ideal) x0 x1 x2 x3 x4 x5 x6 x7 (ix2 i k) = ((H2 i k : ℝ) : EReal))
    (h10 : ∀ k j, x10 (ix2 k j) = ((Wls k j : ℝ) : EReal)) (h11 : ∀ j, x11 (ix1 j) = ((Bls j : ℝ) : EReal))
    (i : Fin 50000) (j : Fin 32) :
    ReadP.val_main_v97 (F := Ideal) x0 x1 x2 x3 x4 x5 x6 x7 x10 x11 (ix2 i j)
      = ((GraphSpec.headRef (dstSetSL x1) (srcRowSL x1) (dstRowSL x1) (dinvR x1) (GraphSpec.mm H2 Wls) Bls i j : ℝ) : EReal) := by
  unfold ReadP.val_main_v97 ReadP.val_main_v94 ReadP.val_main_v91 ReadP.val_main_v88
  rw [show scatter_S50000x32_S650000x1_S650000x32_1_0_0_1
      = scatterRows 50000 650000 32 Facts₀.scatter_S50000x32_S650000x1_S650000x32_1_0_0_1_wf from rfl,
    show gather_S50000x32_S650000x1_S650000x32_1_0_n_n_0_1_132
      = gatherRows 50000 650000 32 Facts₀.gather_S50000x32_S650000x1_S650000x32_1_0_n_n_0_1_132_wf from rfl,
    v87_eq, v93_eq]
  exact head_real (by decide) _ _ _ (GraphSpec.mm H2 Wls) (v81_real x0 x1 x2 x3 x4 x5 x6 x7 x10 H2 Wls hH h10) _ _ _
    (fun e => dinvR x1 (srcRowSL x1 e) * dinvR x1 (dstRowSL x1 e)) (v90_real x1) _ v92_zero _ Bls
    (v96_real x11 Bls h11) i j

end Head

/-! ## The two results -/

section Results
variable (x0 : Arg0) (x1 : EdgeArg) (x2 x3 : ArgW1) (x4 : ArgB1) (x5 x6 : ArgW2) (x7 : ArgB2)
  (x8 x10 : ArgW3) (x9 x11 : ArgB3)
  (X : Fin 50000 → Fin 128 → ℝ) (W1r W1o : Fin 128 → Fin 96 → ℝ) (B1 : Fin 96 → ℝ)
  (W2r W2o : Fin 96 → Fin 64 → ℝ) (B2 : Fin 64 → ℝ) (Wmu Wls : Fin 64 → Fin 32 → ℝ) (Bmu Bls : Fin 32 → ℝ)

/-- The second layer's output for real arguments. -/
theorem h2_of_real (h0 : ∀ i k, x0 (ix2 i k) = ((X i k : ℝ) : EReal))
    (h2 : ∀ k j, x2 (ix2 k j) = ((W1r k j : ℝ) : EReal)) (h3 : ∀ k j, x3 (ix2 k j) = ((W1o k j : ℝ) : EReal))
    (h4 : ∀ j, x4 (ix1 j) = ((B1 j : ℝ) : EReal))
    (h5 : ∀ k j, x5 (ix2 k j) = ((W2r k j : ℝ) : EReal)) (h6 : ∀ k j, x6 (ix2 k j) = ((W2o k j : ℝ) : EReal))
    (h7 : ∀ j, x7 (ix1 j) = ((B2 j : ℝ) : EReal)) (i : Fin 50000) (j : Fin 64) :
    ReadP.val_main_v37 (F := Ideal) x0 x1 x2 x3 x4 x5 x6 x7 (ix2 i j)
      = ((GraphSpec.layerRef (dstSet x1) (srcRow x1)
            (GraphSpec.layerRef (dstSet x1) (srcRow x1) X W1r W1o B1) W2r W2o B2 i j : ℝ) : EReal) :=
  h2_real x0 x1 x2 x3 x4 x5 x6 x7 _ W2r W2o B2 (h1_real x0 x1 x2 x3 x4 X W1r W1o B1 h0 h2 h3 h4) h5 h6 h7 i j

/-- THE FIRST RESULT of the reference, for real arguments: the degree-normalised head with `Wmu`, `Bmu` over the
    two layers' output. -/
theorem ref_out0 (h0 : ∀ i k, x0 (ix2 i k) = ((X i k : ℝ) : EReal))
    (h2 : ∀ k j, x2 (ix2 k j) = ((W1r k j : ℝ) : EReal)) (h3 : ∀ k j, x3 (ix2 k j) = ((W1o k j : ℝ) : EReal))
    (h4 : ∀ j, x4 (ix1 j) = ((B1 j : ℝ) : EReal))
    (h5 : ∀ k j, x5 (ix2 k j) = ((W2r k j : ℝ) : EReal)) (h6 : ∀ k j, x6 (ix2 k j) = ((W2o k j : ℝ) : EReal))
    (h7 : ∀ j, x7 (ix1 j) = ((B2 j : ℝ) : EReal))
    (h8 : ∀ k j, x8 (ix2 k j) = ((Wmu k j : ℝ) : EReal)) (h9 : ∀ j, x9 (ix1 j) = ((Bmu j : ℝ) : EReal)) :
    ∀ (i : Fin 50000) (j : Fin 32),
      ReadP.val_main_v80 (F := Ideal) x0 x1 x2 x3 x4 x5 x6 x7 x8 x9 (ix2 i j)
        = ((GraphSpec.headRef (dstSetSL x1) (srcRowSL x1) (dstRowSL x1) (dinvR x1)
              (GraphSpec.mm (GraphSpec.layerRef (dstSet x1) (srcRow x1)
                (GraphSpec.layerRef (dstSet x1) (srcRow x1) X W1r W1o B1) W2r W2o B2) Wmu) Bmu i j : ℝ) : EReal) :=
  fun i j => v80_real x0 x1 x2 x3 x4 x5 x6 x7 x8 x9 _ Wmu Bmu
    (h2_of_real x0 x1 x2 x3 x4 x5 x6 x7 X W1r W1o B1 W2r W2o B2 h0 h2 h3 h4 h5 h6 h7) h8 h9 i j

/-- THE SECOND RESULT of the reference, for real arguments: the same head with `Wls`, `Bls`. -/
theorem ref_out1 (h0 : ∀ i k, x0 (ix2 i k) = ((X i k : ℝ) : EReal))
    (h2 : ∀ k j, x2 (ix2 k j) = ((W1r k j : ℝ) : EReal)) (h3 : ∀ k j, x3 (ix2 k j) = ((W1o k j : ℝ) : EReal))
    (h4 : ∀ j, x4 (ix1 j) = ((B1 j : ℝ) : EReal))
    (h5 : ∀ k j, x5 (ix2 k j) = ((W2r k j : ℝ) : EReal)) (h6 : ∀ k j, x6 (ix2 k j) = ((W2o k j : ℝ) : EReal))
    (h7 : ∀ j, x7 (ix1 j) = ((B2 j : ℝ) : EReal))
    (h10 : ∀ k j, x10 (ix2 k j) = ((Wls k j : ℝ) : EReal)) (h11 : ∀ j, x11 (ix1 j) = ((Bls j : ℝ) : EReal)) :
    ∀ (i : Fin 50000) (j : Fin 32),
      ReadP.val_main_v97 (F := Ideal) x0 x1 x2 x3 x4 x5 x6 x7 x10 x11 (ix2 i j)
        = ((GraphSpec.headRef (dstSetSL x1) (srcRowSL x1) (dstRowSL x1) (dinvR x1)
              (GraphSpec.mm (GraphSpec.layerRef (dstSet x1) (srcRow x1)
                (GraphSpec.layerRef (dstSet x1) (srcRow x1) X W1r W1o B1) W2r W2o B2) Wls) Bls i j : ℝ) : EReal) :=
  fun i j => v97_real x0 x1 x2 x3 x4 x5 x6 x7 x10 x11 _ Wls Bls
    (h2_of_real x0 x1 x2 x3 x4 x5 x6 x7 X W1r W1o B1 W2r W2o B2 h0 h2 h3 h4 h5 h6 h7) h10 h11 i j

end Results

end Cert.ReferenceIdeal.RefValue

end
-- ==== Proof.FiniteInputs.lean ====
/-
  From the precondition "all inputs finite" to "every float input entry is a real number".

  The precondition is the conjunction, over the eleven float arguments, of  all(|x| < +∞).  At the
  extended-real reading of floats, |x| = max x (-x) and the constant 0x7F800000 is ⊤, so
  |x| < ⊤ holds exactly when x is neither ⊤ nor ⊥, that is, when x is the coercion of a real.
-/
import proofs.«130328_j64690797412362_2_alg».proof.Pre_finite_inputs
import Idealize.ShloMosaic.Lib.ReduceAll
import Idealize.ShloMosaic.Lib.IdealHost

namespace Cert.Pre_finite_inputs

open Idealize.ShloMosaic

/-- The rank-0 shape has exactly one index. -/
instance subsingleton_S_Idx : Subsingleton S_.Idx := ⟨fun a b => funext fun d => d.elim0⟩

/-- The f32 pattern of +∞ is the top extended real. -/
theorem ofBits_inf_f32 : Ideal.ofBits .f32 0x7F800000#32 = (⊤ : EReal) := by
  simp [Ideal.ofBits, Ideal.ieee]

/-- One element: if the comparison |x| < +∞ came out true, then x is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  induction x using EReal.rec with
  | bot => simp at h'
  | coe r => exact ⟨r, rfl⟩
  | top => simp at h'

/-- One array of any shape: if all(|x| < +∞) came out true, every entry of x is a real number. -/
theorem real_of_all_abs_lt_inf {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (e : Host.reduce IntOp.andi
          (cmpf .olt (Host.absf x) (broadcastInDim s ![] hb (constant (F := Ideal) S_ .f32 0x7F800000#32))) init hr hu j = 1#1) :
    ∀ i, ∃ r : ℝ, x i = (r : EReal) := by
  intro i
  have hi := Host.reduce_andi_all _ init hr hu j e i
  rw [ValueIdx.cmpf_apply, ValueIdx.broadcastInDim_scalar_apply] at hi
  exact real_of_abs_lt_inf (x i) hi

/-- A conjunction of two rank-0 truth values that is true has both conjuncts true. -/
theorem andi_split {x y : IVec S_ 1} {j : S_.Idx} (h : andi x y j = 1#1) : x j = 1#1 ∧ y j = 1#1 :=
  IntOp.andi_eq_one.1 h

/-- The precondition, read back: every entry of each of the eleven float arguments is a real number. -/
theorem real_of_pre [Facts] (a0 : FVec Ideal S50000x128 .f32) (a1 : IVec S2x600000 32)
    (a2 : FVec Ideal S128x96 .f32) (a3 : FVec Ideal S128x96 .f32) (a4 : FVec Ideal S96 .f32)
    (a5 : FVec Ideal S96x64 .f32) (a6 : FVec Ideal S96x64 .f32) (a7 : FVec Ideal S64 .f32)
    (a8 : FVec Ideal S64x32 .f32) (a9 : FVec Ideal S32 .f32) (a10 : FVec Ideal S64x32 .f32)
    (a11 : FVec Ideal S32 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) := by
  have h0 := congrFun h ValueIdx.ix0
  dsimp only [fn, fn_part1, fn_part2, fn_part3] at h0
  obtain ⟨h0, h11⟩ := andi_split h0
  obtain ⟨h0, h10⟩ := andi_split h0
  obtain ⟨h0, h9⟩ := andi_split h0
  obtain ⟨h0, h8⟩ := andi_split h0
  obtain ⟨h0, h7⟩ := andi_split h0
  obtain ⟨h0, h6⟩ := andi_split h0
  obtain ⟨h0, h5⟩ := andi_split h0
  obtain ⟨h0, h4⟩ := andi_split h0
  obtain ⟨h0, h3⟩ := andi_split h0
  obtain ⟨h0, h2⟩ := andi_split h0
  exact ⟨real_of_all_abs_lt_inf _ _ _ a0 _ _ h0, real_of_all_abs_lt_inf _ _ _ a2 _ _ h2,
    real_of_all_abs_lt_inf _ _ _ a3 _ _ h3, real_of_all_abs_lt_inf _ _ _ a4 _ _ h4,
    real_of_all_abs_lt_inf _ _ _ a5 _ _ h5, real_of_all_abs_lt_inf _ _ _ a6 _ _ h6,
    real_of_all_abs_lt_inf _ _ _ a7 _ _ h7, real_of_all_abs_lt_inf _ _ _ a8 _ _ h8,
    real_of_all_abs_lt_inf _ _ _ a9 _ _ h9, real_of_all_abs_lt_inf _ _ _ a10 _ _ h10,
    real_of_all_abs_lt_inf _ _ _ a11 _ _ h11⟩

end Cert.Pre_finite_inputs
-- ==== Proof.Bridge.lean ====
import proofs.«130328_j64690797412362_2_alg».proof.Proof.KernelClosed
import proofs.«130328_j64690797412362_2_alg».proof.Proof.RefValue
import proofs.«130328_j64690797412362_2_alg».proof.Proof.FiniteInputs
import proofs.«130328_j64690797412362_2_alg».proof.Proof.LibGraphSpec
import Idealize.ShloMosaic.Lib.Pipeline.Value

/-!
The two programs compute one function. Under the precondition every float argument is an array of reals, so both
results are arrays of reals: the kernel's is the head with the degree norm applied on the nodes, over layers that project
before they sum the neighbours; the reference's is the head with the norm applied on the edges, over layers that sum
before they project. Over the reals the two agree: a finite sum commutes with multiplication by a matrix entry, and an
edge that lands on node `i` has `i` as its destination, so the destination's norm leaves the sum.
-/

set_option maxRecDepth 16384

noncomputable section

namespace Cert.Bridge

open Idealize.ShloMosaic Idealize.ShloMosaic.ValueIdx
open Cert.KernelIdeal.Chain Cert.KernelIdeal.KSpec Cert.KernelIdeal.Closed Cert.ReferenceIdeal.RefValue

/-- The left half of a 64-column array, read at an index. -/
theorem left_half (y : FVec Ideal ⟨2, ![50000, 64]⟩ .f32) (h : (⟨2, ![50000, 64]⟩ : Shape).Slices ![0, 0] ⟨2, ![50000, 32]⟩)
    (i : Fin 50000) (j : Fin 32) :
    extractStridedSlice ⟨2, ![50000, 32]⟩ ![0, 0] y h (ix2 i j) = y (ix2 i ⟨j.val, by omega⟩) :=
  extractStridedSlice_apply ![0, 0] y h (ix2 i j) (ix2 i ⟨j.val, by omega⟩) (fun a => match a with
    | ⟨0, _⟩ => by show i.val = 0 + i.val; omega
    | ⟨1, _⟩ => by show j.val = 0 + j.val; omega)
/-- The right half. -/
theorem right_half (y : FVec Ideal ⟨2, ![50000, 64]⟩ .f32) (h : (⟨2, ![50000, 64]⟩ : Shape).Slices ![0, 32] ⟨2, ![50000, 32]⟩)
    (i : Fin 50000) (j : Fin 32) :
    extractStridedSlice ⟨2, ![50000, 32]⟩ ![0, 32] y h (ix2 i j) = y (ix2 i ⟨32 + j.val, by omega⟩) :=
  extractStridedSlice_apply ![0, 32] y h (ix2 i j) (ix2 i ⟨32 + j.val, by omega⟩) (fun a => match a with
    | ⟨0, _⟩ => by show i.val = 0 + i.val; omega
    | ⟨1, _⟩ => by show 32 + j.val = 32 + j.val; rfl)

/-- The two arrangements of the whole network agree over the reals. -/
theorem network_eq {N E E' K1 K2 K3 C : ℕ} (S : Fin N → Finset (Fin E)) (g : Fin E → Fin N)
    (S' : Fin N → Finset (Fin E')) (g' gd' : Fin E' → Fin N) (d : Fin N → ℝ)
    (X : Fin N → Fin K1 → ℝ) (W1r W1o : Fin K1 → Fin K2 → ℝ) (B1 : Fin K2 → ℝ) (W2r W2o : Fin K2 → Fin K3 → ℝ) (B2 : Fin K3 → ℝ)
    (W : Fin K3 → Fin C → ℝ) (B : Fin C → ℝ) (h : ∀ i, ∀ e ∈ S' i, gd' e = i) :
    GraphSpec.headKer S' g' d (GraphSpec.mm (GraphSpec.layerKer S g (GraphSpec.layerKer S g X W1r W1o B1) W2r W2o B2) W) B
      = GraphSpec.headRef S' g' gd' d (GraphSpec.mm (GraphSpec.layerRef S g (GraphSpec.layerRef S g X W1r W1o B1) W2r W2o B2) W) B := by
  rw [GraphSpec.layerKer_eq, GraphSpec.layerKer_eq, GraphSpec.headKer_eq S' g' gd' d _ B h]

/-! The index data the two programs compute from the edge list are the same terms. -/
theorem srcRow_eq (a1 : IVec ⟨2, ![2, 600000]⟩ 32) : srcRowK a1 = srcRow a1 := rfl
theorem dstSet_eq (a1 : IVec ⟨2, ![2, 600000]⟩ 32) : dstSetK a1 = dstSet a1 := rfl
theorem srcRowSL_eq (a1 : IVec ⟨2, ![2, 600000]⟩ 32) : srcRowSLK a1 = srcRowSL a1 := rfl
theorem dstSetSL_eq (a1 : IVec ⟨2, ![2, 600000]⟩ 32) : dstSetSLK a1 = dstSetSL a1 := rfl
/-- The degree norm is a real at every node. -/
theorem dinv_coe (a1 : IVec ⟨2, ![2, 600000]⟩ 32) (i : Fin 50000) : dinvK a1 (ix1 i) = ((dinvR a1 i : ℝ) : EReal) :=
  dinv_real a1 i

section Results

variable [Cert.Pre_finite_inputs.Facts]
variable (a0 : FVec Ideal ⟨2, ![50000, 128]⟩ .f32) (a1 : IVec ⟨2, ![2, 600000]⟩ 32) (a2 a3 : FVec Ideal ⟨2, ![128, 96]⟩ .f32)
  (a4 : FVec Ideal ⟨1, ![96]⟩ .f32) (a5 a6 : FVec Ideal ⟨2, ![96, 64]⟩ .f32) (a7 : FVec Ideal ⟨1, ![64]⟩ .f32)
  (a8 : FVec Ideal ⟨2, ![64, 32]⟩ .f32) (a9 : FVec Ideal ⟨1, ![32]⟩ .f32) (a10 : FVec Ideal ⟨2, ![64, 32]⟩ .f32)
  (a11 : FVec Ideal ⟨1, ![32]⟩ .f32)

/-- The first results agree. -/
theorem result0 (hp : Cert.Pre_finite_inputs.fn (F := Ideal) a0 a1 a2 a3 a4 a5 a6 a7 a8 a9 a10 a11 = fun _ => 1#1)
    (hs : (⟨2, ![50000, 64]⟩ : Shape).Slices ![0, 0] ⟨2, ![50000, 32]⟩) :
    Cert.ReferenceIdeal.ReadP.val_main_v80 (F := Ideal) a0 a1 a2 a3 a4 a5 a6 a7 a8 a9
      = extractStridedSlice ⟨2, ![50000, 32]⟩ ![0, 0] (outK a0 a1 a2 a3 a4 a5 a6 a7 a8 a9 a10 a11) hs := by
  obtain ⟨r0, r2, r3, r4, r5, r6, r7, r8, r9, r10, r11⟩ := Cert.Pre_finite_inputs.real_of_pre a0 a1 a2 a3 a4 a5 a6 a7 a8 a9 a10 a11 hp
  choose X0 hX0 using r0
  choose X2 hX2 using r2
  choose X3 hX3 using r3
  choose X4 hX4 using r4
  choose X5 hX5 using r5
  choose X6 hX6 using r6
  choose X7 hX7 using r7
  choose X8 hX8 using r8
  choose X9 hX9 using r9
  choose X10 hX10 using r10
  choose X11 hX11 using r11
  funext idx
  obtain ⟨i, j, rfl⟩ : ∃ (i : Fin 50000) (j : Fin 32), idx = ix2 i j := ⟨idx 0, idx 1, eq_ix2 idx⟩
  rw [left_half]
  refine (ref_out0 a0 a1 a2 a3 a4 a5 a6 a7 a8 a9 (fun i k => X0 (ix2 i k)) (fun k j => X2 (ix2 k j)) (fun k j => X3 (ix2 k j))
    (fun j => X4 (ix1 j)) (fun k j => X5 (ix2 k j)) (fun k j => X6 (ix2 k j)) (fun j => X7 (ix1 j)) (fun k j => X8 (ix2 k j))
    (fun j => X9 (ix1 j)) (fun i k => hX0 _) (fun k j => hX2 _) (fun k j => hX3 _) (fun j => hX4 _) (fun k j => hX5 _)
    (fun k j => hX6 _) (fun j => hX7 _) (fun k j => hX8 _) (fun j => hX9 _) i j).trans ?_
  refine Eq.trans ?_ (outK_left a0 a1 a2 a3 a4 a5 a6 a7 a8 a9 a10 a11 (fun i k => X0 (ix2 i k)) (fun k j => X2 (ix2 k j)) (fun k j => X3 (ix2 k j)) (fun j => X4 (ix1 j)) (fun k j => X5 (ix2 k j)) (fun k j => X6 (ix2 k j)) (fun j => X7 (ix1 j)) (fun k j => X8 (ix2 k j)) (fun k j => X10 (ix2 k j)) (fun j => X9 (ix1 j)) (fun j => X11 (ix1 j)) (dinvR a1) (fun i k => hX0 _) (fun k j => hX2 _) (fun k j => hX3 _) (fun j => hX4 _) (fun k j => hX5 _) (fun k j => hX6 _) (fun j => hX7 _) (fun k j => hX8 _) (fun j => hX9 _) (fun k j => hX10 _) (fun j => hX11 _) (dinv_coe a1) i j).symm
  rw [← srcRow_eq, ← dstSet_eq, ← srcRowSL_eq, ← dstSetSL_eq]
  exact congrArg (fun f : Fin 50000 → Fin 32 → ℝ => ((f i j : ℝ) : EReal))
    (network_eq (dstSetK a1) (srcRowK a1) (dstSetSLK a1) (srcRowSLK a1) (dstRowSL a1) (dinvR a1) _ _ _ _ _ _ _ _ _
      (fun i e he => dst_row_of_mem a1 i e (by rw [← dstSetSL_eq]; exact he))).symm

/-- The second results agree. -/
theorem result1 (hp : Cert.Pre_finite_inputs.fn (F := Ideal) a0 a1 a2 a3 a4 a5 a6 a7 a8 a9 a10 a11 = fun _ => 1#1)
    (hs : (⟨2, ![50000, 64]⟩ : Shape).Slices ![0, 32] ⟨2, ![50000, 32]⟩) :
    Cert.ReferenceIdeal.ReadP.val_main_v97 (F := Ideal) a0 a1 a2 a3 a4 a5 a6 a7 a10 a11
      = extractStridedSlice ⟨2, ![50000, 32]⟩ ![0, 32] (outK a0 a1 a2 a3 a4 a5 a6 a7 a8 a9 a10 a11) hs := by
  obtain ⟨r0, r2, r3, r4, r5, r6, r7, r8, r9, r10, r11⟩ := Cert.Pre_finite_inputs.real_of_pre a0 a1 a2 a3 a4 a5 a6 a7 a8 a9 a10 a11 hp
  choose X0 hX0 using r0
  choose X2 hX2 using r2
  choose X3 hX3 using r3
  choose X4 hX4 using r4
  choose X5 hX5 using r5
  choose X6 hX6 using r6
  choose X7 hX7 using r7
  choose X8 hX8 using r8
  choose X9 hX9 using r9
  choose X10 hX10 using r10
  choose X11 hX11 using r11
  funext idx
  obtain ⟨i, j, rfl⟩ : ∃ (i : Fin 50000) (j : Fin 32), idx = ix2 i j := ⟨idx 0, idx 1, eq_ix2 idx⟩
  rw [right_half]
  refine (ref_out1 a0 a1 a2 a3 a4 a5 a6 a7 a10 a11 (fun i k => X0 (ix2 i k)) (fun k j => X2 (ix2 k j)) (fun k j => X3 (ix2 k j))
    (fun j => X4 (ix1 j)) (fun k j => X5 (ix2 k j)) (fun k j => X6 (ix2 k j)) (fun j => X7 (ix1 j)) (fun k j => X10 (ix2 k j))
    (fun j => X11 (ix1 j)) (fun i k => hX0 _) (fun k j => hX2 _) (fun k j => hX3 _) (fun j => hX4 _) (fun k j => hX5 _)
    (fun k j => hX6 _) (fun j => hX7 _) (fun k j => hX10 _) (fun j => hX11 _) i j).trans ?_
  refine Eq.trans ?_ (outK_right a0 a1 a2 a3 a4 a5 a6 a7 a8 a9 a10 a11 (fun i k => X0 (ix2 i k)) (fun k j => X2 (ix2 k j)) (fun k j => X3 (ix2 k j)) (fun j => X4 (ix1 j)) (fun k j => X5 (ix2 k j)) (fun k j => X6 (ix2 k j)) (fun j => X7 (ix1 j)) (fun k j => X8 (ix2 k j)) (fun k j => X10 (ix2 k j)) (fun j => X9 (ix1 j)) (fun j => X11 (ix1 j)) (dinvR a1) (fun i k => hX0 _) (fun k j => hX2 _) (fun k j => hX3 _) (fun j => hX4 _) (fun k j => hX5 _) (fun k j => hX6 _) (fun j => hX7 _) (fun k j => hX8 _) (fun j => hX9 _) (fun k j => hX10 _) (fun j => hX11 _) (dinv_coe a1) i j).symm
  rw [← srcRow_eq, ← dstSet_eq, ← srcRowSL_eq, ← dstSetSL_eq]
  exact congrArg (fun f : Fin 50000 → Fin 32 → ℝ => ((f i j : ℝ) : EReal))
    (network_eq (dstSetK a1) (srcRowK a1) (dstSetSLK a1) (srcRowSLK a1) (dstRowSL a1) (dinvR a1) _ _ _ _ _ _ _ _ _
      (fun i e he => dst_row_of_mem a1 i e (by rw [← dstSetSL_eq]; exact he))).symm

end Results

end Cert.Bridge

end
-- ==== Proof.lean ====
/-
  Two graph-convolution layers and a degree-normalised head over 50000 nodes and 600000 edges, computed by five pipelined
  matrix kernels with gathers and accumulating scatters between them, against the plain reference. On the extended reals
  the two programs are one function of finite inputs: each layer of the kernel multiplies every node's row by the
  relation weights BEFORE summing the rows of a node's in-neighbours, the reference after, and a finite sum of reals
  commutes with the product; the head of the kernel scales rows by the degree norm before and after the sum over the
  edges (with self-loops), the reference scales every edge by the product of its two ends' norms, and an edge summed into
  node `i` has `i` as its destination. The inputs are finite by the precondition, so every intermediate entry is a real
  number and the laws of the reals apply; an index outside the node range reads a clamped row and writes nothing, in both
  programs alike.
  The three frames: the kernel's (at both instances) are the generated frame certificates; the reference's is its run with
  the results dropped. The idealization rewrote nothing, so `preserves` has nothing to show.
-/
import proofs.«130328_j64690797412362_2_alg».proof.Defs
import proofs.«130328_j64690797412362_2_alg».proof.Proof.Gen.Kernel
import proofs.«130328_j64690797412362_2_alg».proof.Proof.Gen.Kernel.Skeleton
import proofs.«130328_j64690797412362_2_alg».proof.Proof.Gen.Kernel.Launch
import proofs.«130328_j64690797412362_2_alg».proof.Proof.Gen.Kernel.Points
import proofs.«130328_j64690797412362_2_alg».proof.Proof.Gen.Kernel.Frame
import proofs.«130328_j64690797412362_2_alg».proof.Proof.Gen.KernelIdeal
import proofs.«130328_j64690797412362_2_alg».proof.Proof.Gen.KernelIdeal.Skeleton
import proofs.«130328_j64690797412362_2_alg».proof.Proof.Gen.KernelIdeal.Launch
import proofs.«130328_j64690797412362_2_alg».proof.Proof.Gen.KernelIdeal.Points
import proofs.«130328_j64690797412362_2_alg».proof.Proof.Gen.KernelIdeal.Frame
import proofs.«130328_j64690797412362_2_alg».proof.Proof.Gen.ReferenceIdeal
import proofs.«130328_j64690797412362_2_alg».proof.Proof.Gen.Pre_finite_inputs
import proofs.«130328_j64690797412362_2_alg».proof.Proof.RefRunP
import proofs.«130328_j64690797412362_2_alg».proof.Proof.RefReadP
import proofs.«130328_j64690797412362_2_alg».proof.Proof.KernelRun
import proofs.«130328_j64690797412362_2_alg».proof.Proof.KernelValue
import proofs.«130328_j64690797412362_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs run; the kernel's results are the two halves of its head's output, the reference's are its two last
    stages, and under the precondition these are equal arrays of reals. -/
theorem algebraic : Cert.algebraic_KernelIdeal_ReferenceIdeal := by
  intro m ρ m' ρ' hpre hagree
  refine ⟨fun c => Cert.KernelIdeal.Gen.W12 (F := Ideal) m ρ c (Proc.devRef .tc Cert.KernelIdeal.main_v63),
    fun c => Cert.KernelIdeal.Gen.W12 (F := Ideal) m ρ c (Proc.devRef .tc Cert.KernelIdeal.main_v64),
    Cert.KernelIdeal.RunValue.run_values (F := Ideal) m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · rw [Cert.ReferenceIdeal.ReadP.val_main_v80_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1]
    exact (Cert.Bridge.result0 _ _ _ _ _ _ _ _ _ _ _ _ (hpre c) _).trans (Cert.KernelIdeal.KValue.out63 m ρ c).symm
  · rw [Cert.ReferenceIdeal.ReadP.val_main_v97_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.2.2.1, (hagree c).2.2.2.2.2.2.2.2.2.2.2]
    exact (Cert.Bridge.result1 _ _ _ _ _ _ _ _ _ _ _ _ (hpre c) _).trans (Cert.KernelIdeal.KValue.out64 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
